-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x512 : Shape := ⟨2, ![128, 512]⟩
abbrev S30000x128 : Shape := ⟨2, ![30000, 128]⟩
abbrev S5000x512 : Shape := ⟨2, ![5000, 512]⟩
abbrev S3x128x128 : Shape := ⟨3, ![3, 128, 128]⟩
abbrev S128 : Shape := ⟨1, ![128]⟩
abbrev S_ : Shape := ⟨0, ![]⟩

class Facts : Prop where
  bcast_S_S30000x128 : S_.BroadcastsInDim S30000x128 (![] : Fin 0 → Fin S30000x128.rank)
  reducesTo_S30000x128_S_d0_1 : S30000x128.ReducesTo [0, 1] S_
  h_S_ : 0 < S_.numel
  bcast_S_S5000x512 : S_.BroadcastsInDim S5000x512 (![] : Fin 0 → Fin S5000x512.rank)
  reducesTo_S5000x512_S_d0_1 : S5000x512.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S3x128x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S3x128x128 .f32 := Host.absf main_arg6
  let main_cst_6 : FVec F S_ .f32 := constant S_ .f32 0x7F800000#32
  let main_v20 : FVec F S3x128x128 .f32 := broadcastInDim S3x128x128 ![] bcast_S_S3x128x128 main_cst_6
  let main_v21 : IVec S3x128x128 1 := cmpf .olt main_v19 main_v20
  let main_c_7 : IVec S_ 1 := constantI S_ 1 1#1
  let main_v22 : IVec S_ 1 := (fun x v => Host.reduce IntOp.andi x v reducesTo_S3x128x128_S_d0_1_2 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : IVec S128x512 32) (main_arg1 : IVec S128x512 32) (main_arg2 : FVec F S30000x128 .f32) (main_arg3 : FVec F S5000x512 .f32) (main_arg4 : FVec F S3x128x128 .f32) (main_arg5 : FVec F S128 .f32) (main_arg6 : FVec F S3x128x128 .f32) (main_arg7 : FVec F S128 .f32) : IVec S_ 1 :=
  let main_v0 : FVec F S30000x128 .f32 := Host.absf main_arg2
  let main_cst : FVec F S_ .f32 := constant S_ .f32 0x7F800000#32
  let main_v1 : FVec F S30000x128 .f32 := broadcastInDim S30000x128 ![] bcast_S_S30000x128 main_cst
  let main_v2 : IVec S30000x128 1 := cmpf .olt main_v0 main_v1
  let main_c : IVec S_ 1 := constantI S_ 1 1#1
  let main_v3 : IVec S_ 1 := (fun x v => Host.reduce IntOp.andi x v reducesTo_S30000x128_S_d0_1 h_S_) main_v2 main_c
  let main_v4 : FVec F S5000x512 .f32 := Host.absf main_arg3
  let main_cst_0 : FVec F S_ .f32 := constant S_ .f32 0x7F800000#32
  let main_v5 : FVec F S5000x512 .f32 := broadcastInDim S5000x512 ![] bcast_S_S5000x512 main_cst_0
  let main_v6 : IVec S5000x512 1 := cmpf .olt main_v4 main_v5
  let main_c_1 : IVec S_ 1 := constantI S_ 1 1#1
  let main_v7 : IVec S_ 1 := (fun x v => Host.reduce IntOp.andi x v reducesTo_S5000x512_S_d0_1 h_S_) main_v6 main_c_1
  let main_v8 : IVec S_ 1 := andi main_v3 main_v7
  let main_v9 : FVec F S3x128x128 .f32 := Host.absf main_arg4
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_v13 main_v16
-- ==== Kernel.lean ====
abbrev S128x512 : Shape := ⟨2, ![128, 512]⟩
abbrev S30000x128 : Shape := ⟨2, ![30000, 128]⟩
abbrev S5000x512 : Shape := ⟨2, ![5000, 512]⟩
abbrev S3x128x128 : Shape := ⟨3, ![3, 128, 128]⟩
abbrev S128 : Shape := ⟨1, ![128]⟩
abbrev S_ : Shape := ⟨0, ![]⟩
abbrev S128x512x1 : Shape := ⟨3, ![128, 512, 1]⟩
abbrev S128x512x512 : Shape := ⟨3, ![128, 512, 512]⟩
abbrev S128x512x128 : Shape := ⟨3, ![128, 512, 128]⟩
abbrev S128x512x640 : Shape := ⟨3, ![128, 512, 640]⟩
abbrev S1x512x512 : Shape := ⟨3, ![1, 512, 512]⟩
abbrev S1x512x128 : Shape := ⟨3, ![1, 512, 128]⟩
abbrev S1x512x640 : Shape := ⟨3, ![1, 512, 640]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1x512 : Shape := ⟨2, ![1, 512]⟩
abbrev S1x128x128 : Shape := ⟨3, ![1, 128, 128]⟩
abbrev S128x128 : Shape := ⟨2, ![128, 128]⟩
abbrev S1x128 : Shape := ⟨2, ![1, 128]⟩
abbrev S512x640 : Shape := ⟨2, ![512, 640]⟩
abbrev S65536x640 : Shape := ⟨2, ![65536, 640]⟩

abbrev nBuf : Space → Nat
  | .hbm => 28
  | .vmem => 10
  | .smem => 0
  | _ => 0

abbrev bufTy : (tb : Table) → Fin (tcTables nBuf tb) → BufTy
  | .hbm, ⟨0, _⟩ => ⟨S128x512, .i32⟩
  | .hbm, ⟨1, _⟩ => ⟨S128x512, .i32⟩
  | .hbm, ⟨2, _⟩ => ⟨S30000x128, .f32⟩
  | .hbm, ⟨3, _⟩ => ⟨S5000x512, .f32⟩
  | .hbm, ⟨4, _⟩ => ⟨S3x128x128, .f32⟩
  | .hbm, ⟨5, _⟩ => ⟨S128, .f32⟩
  | .hbm, ⟨6, _⟩ => ⟨S3x128x128, .f32⟩
  | .hbm, ⟨7, _⟩ => ⟨S128, .f32⟩
  | .hbm, ⟨8, _⟩ => ⟨S_, .i32⟩
  | .hbm, ⟨9, _⟩ => ⟨S128x512, .i32⟩
  | .hbm, ⟨10, _⟩ => ⟨S128x512, .i1⟩
  | .hbm, ⟨11, _⟩ => ⟨S_, .i32⟩
  | .hbm, ⟨12, _⟩ => ⟨S128x512, .i32⟩
  | .hbm, ⟨13, _⟩ => ⟨S128x512, .i32⟩
  | .hbm, ⟨14, _⟩ => ⟨S128x512, .i32⟩
  | .hbm, ⟨15, _⟩ => ⟨S128x512x1, .i32⟩
  | .hbm, ⟨16, _⟩ => ⟨S128x512x512, .f32⟩
  | .hbm, ⟨17, _⟩ => ⟨S_, .i32⟩
  | .hbm, ⟨18, _⟩ => ⟨S128x512, .i32⟩
  | .hbm, ⟨19, _⟩ => ⟨S128x512, .i1⟩
  | .hbm, ⟨20, _⟩ => ⟨S_, .i32⟩
  | .hbm, ⟨21, _⟩ => ⟨S128x512, .i32⟩
  | .hbm, ⟨22, _⟩ => ⟨S128x512, .i32⟩
  | .hbm, ⟨23, _⟩ => ⟨S128x512, .i32⟩
  | .hbm, ⟨24, _⟩ => ⟨S128x512x1, .i32⟩
  | .hbm, ⟨25, _⟩ => ⟨S128x512x128, .f32⟩
  | .hbm, ⟨26, _⟩ => ⟨S128x512x640, .f32⟩
  | .hbm, ⟨27, _⟩ => ⟨S65536x640, .f32⟩
  | .local _ .vmem, ⟨0, _⟩ => ⟨S1x512x512, .f32⟩
  | .local _ .vmem, ⟨1, _⟩ => ⟨S1x512x512, .f32⟩
  | .local _ .vmem, ⟨2, _⟩ => ⟨S1x512x128, .f32⟩
  | .local _ .vmem, ⟨3, _⟩ => ⟨S1x512x128, .f32⟩
  | .local _ .vmem, ⟨4, _⟩ => ⟨S3x128x128, .f32⟩
  | .local _ .vmem, ⟨5, _⟩ => ⟨S128, .f32⟩
  | .local _ .vmem, ⟨6, _⟩ => ⟨S3x128x128, .f32⟩
  | .local _ .vmem, ⟨7, _⟩ => ⟨S128, .f32⟩
  | .local _ .vmem, ⟨8, _⟩ => ⟨S1x512x640, .f32⟩
  | .local _ .vmem, ⟨9, _⟩ => ⟨S1x512x640, .f32⟩
  | _, _ => ⟨S128x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x512x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S128x512 : S_.BroadcastsInDim S128x512 (![] : Fin 0 → Fin S128x512.rank)
  bcast_S128x512_S128x512x1_0_1 : S128x512.BroadcastsInDim S128x512x1 (![0, 1] : Fin 2 → Fin S128x512x1.rank)
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  reduces_S512x512_S512 : S512x512.Reduces [1] S512
  shapeCasts_S512_S512x1 : S512.ShapeCasts S512x1
  broadcasts_S512x1_S512x512 : S512x1.Broadcasts S512x512
  bitsLt_bf16_f32 : FTy.bits .bf16 < FTy.bits .f32
  transposes_S512x512_p1_0_S512x512 : S512x512.Transposes [1, 0] S512x512
  iota_S512x512_d0_w32 : S512x512.Iotas .tc 32 [0]
  iota_S512x512_d1_w32 : S512x512.Iotas .tc 32 [1]
  reduces_S512x1_S1 : S512x1.Reduces [0] S1
  shapeCasts_S1_S1x1 : S1.ShapeCasts S1x1
  broadcasts_S1x1_S512x512 : S1x1.Broadcasts S512x512
  reduces_S512x512_S512_2 : S512x512.Reduces [0] S512
  shapeCasts_S512_S1x512 : S512.ShapeCasts S1x512
  broadcasts_S1x512_S512x512 : S1x512.Broadcasts S512x512
  inb_S3x128x128_S3x128x128_0_0_0 : ∀ a, (![0, 0, 0] : Fin 3 → Nat) a + S3x128x128.size a ≤ S3x128x128.size a
  h_S3x128x128 : 0 < S3x128x128.numel
  inb_S128_S128_0 : ∀ a, (![0] : Fin 1 → Nat) a + S128.size a ≤ S128.size a
  h_S128 : 0 < S128.numel
  slices_S3x128x128_o0_0_0_S1x128x128 : S3x128x128.Slices ![0, 0, 0] S1x128x128
  shapeCasts_S1x128x128_S128x128 : S1x128x128.ShapeCasts S128x128
  slices_S3x128x128_o1_0_0_S1x128x128 : S3x128x128.Slices ![1, 0, 0] S1x128x128
  slices_S3x128x128_o2_0_0_S1x128x128 : S3x128x128.Slices ![2, 0, 0] S1x128x128
  shapeCasts_S128_S1x128 : S128.ShapeCasts S1x128
  broadcasts_S1x128_S512x128 : S1x128.Broadcasts S512x128
  concatenates_S512x128_S512x512_S512x640_d1 : Shape.Concatenates [S512x128, S512x512] S512x640 1
  inb_S1x512x640_S1x512x640_0_0_0 : ∀ a, (![0, 0, 0] : Fin 3 → Nat) a + S1x512x640.size a ≤ S1x512x640.size a
  h_S1x512x640 : 0 < S1x512x640.numel
  shapeCasts_S1x512x640_S512x640 : S1x512x640.ShapeCasts S512x640
  shapeCasts_S512x640_S1x512x640 : S512x640.ShapeCasts S1x512x640
  shapeCasts_S128x512x640_S65536x640 : S128x512x640.ShapeCasts S65536x640
  gather_S5000x512_S128x512x1_S128x512x512_2_0_n_n_0_2_1512_wf : GatherDims.WF S5000x512 S128x512x1 S128x512x512 [2] [0] [] [0] [] 2 ![1, 512]
  gather_S30000x128_S128x512x1_S128x512x128_2_0_n_n_0_2_1128_wf : GatherDims.WF S30000x128 S128x512x1 S128x512x128 [2] [0] [] [0] [] 2 ![1, 128]
  dot_S512x512_S512x512_S512x512_1_0_0_1_n_n_wf : DotDims.WF S512x512 S512x512 S512x512 [1] [0] [0] [1] [] []
  dot_S512x512_S512x128_S512x128_1_0_0_1_n_n_wf : DotDims.WF S512x512 S512x128 S512x128 [1] [0] [0] [1] [] []
  dot_S512x128_S128x128_S512x128_1_0_0_1_n_n_wf : DotDims.WF S512x128 S128x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S128x512x512.size a
  hwx0_0 : ∀ i : grid0.Coords, EltTy.bits .f32 = 32 ∨ (Rect.block (s := S128x512x512) S1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x128.size a ≤ S128x512x128.size a
  hwx0_1 : ∀ i : grid0.Coords, EltTy.bits .f32 = 32 ∨ (Rect.block (s := S128x512x128) S1x512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x128x128.size a ≤ S3x128x128.size a
  hwx0_2 : ∀ i : grid0.Coords, EltTy.bits .f32 = 32 ∨ (Rect.block (s := S3x128x128) S3x128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x128x128.size a ≤ S3x128x128.size a
  hwx0_4 : ∀ i : grid0.Coords, EltTy.bits .f32 = 32 ∨ (Rect.block (s := S3x128x128) S3x128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x640.size a ≤ S128x512x640.size a
  hwx0_6 : ∀ i : grid0.Coords, EltTy.bits .f32 = 32 ∨ (Rect.block (s := S128x512x640) S1x512x640.size (cc0_transform_6 i) (hinb0_6 i)).WholeWords (EltTy.packing .f32)

variable [Facts₀]

def gather_S5000x512_S128x512x1_S128x512x512_2_0_n_n_0_2_1512 : GatherDims S5000x512 S128x512x1 S128x512x512 where
  offsetDims := [2]
  collapsedSliceDims := [0]
  operandBatchingDims := []
  startIndicesBatchingDims := []
  startIndexMap := [0]
  indexVectorDim := 2
  sliceSizes := ![1, 512]
  wf := gather_S5000x512_S128x512x1_S128x512x512_2_0_n_n_0_2_1512_wf
def gather_S30000x128_S128x512x1_S128x512x128_2_0_n_n_0_2_1128 : GatherDims S30000x128 S128x512x1 S128x512x128 where
  offsetDims := [2]
  collapsedSliceDims := [0]
  operandBatchingDims := []
  startIndicesBatchingDims := []
  startIndexMap := [0]
  indexVectorDim := 2
  sliceSizes := ![1, 128]
  wf := gather_S30000x128_S128x512x1_S128x512x128_2_0_n_n_0_2_1128_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf

abbrev win0_0 : Pipeline.Window sig grid0 :=
  Pipeline.Window.ofSpec (Memref.whole main_v6) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S1x512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S3x128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S3x128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S1x512x640.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S128x512 : Shape := ⟨2, ![128, 512]⟩
abbrev S30000x128 : Shape := ⟨2, ![30000, 128]⟩
abbrev S5000x512 : Shape := ⟨2, ![5000, 512]⟩
abbrev S3x128x128 : Shape := ⟨3, ![3, 128, 128]⟩
abbrev S128 : Shape := ⟨1, ![128]⟩
abbrev S_ : Shape := ⟨0, ![]⟩
abbrev S128x512x1 : Shape := ⟨3, ![128, 512, 1]⟩
abbrev S128x512x512 : Shape := ⟨3, ![128, 512, 512]⟩
abbrev S512x512 : Shape := ⟨2, ![512, 512]⟩
abbrev S128x1x1 : Shape := ⟨3, ![128, 1, 1]⟩
abbrev S1x512x512 : Shape := ⟨3, ![1, 512, 512]⟩
abbrev S128x1x512 : Shape := ⟨3, ![128, 1, 512]⟩
abbrev S128x512x128 : Shape := ⟨3, ![128, 512, 128]⟩
abbrev S1x128x128 : Shape := ⟨3, ![1, 128, 128]⟩
abbrev S128x128 : Shape := ⟨2, ![128, 128]⟩
abbrev S1x1x128 : Shape := ⟨3, ![1, 1, 128]⟩
abbrev S128x512x640 : Shape := ⟨3, ![128, 512, 640]⟩
abbrev S65536x640 : Shape := ⟨2, ![65536, 640]⟩

abbrev nBuf : Space → Nat
  | .hbm => 152
  | .vmem => 0
  | .smem => 0
  | _ => 0

abbrev hbmTy0_0 (i : Nat) : BufTy := match i % 128 with
  | 0 => ⟨S128x512, .i32⟩
  | 1 => ⟨S128x512, .i32⟩
  | 2 => ⟨S30000x128, .f32⟩
  | 3 => ⟨S5000x512, .f32⟩
  | 4 => ⟨S3x128x128, .f32⟩
  | 5 => ⟨S128, .f32⟩
  | 6 => ⟨S3x128x128, .f32⟩
  | 7 => ⟨S128, .f32⟩
  | 8 => ⟨S_, .i32⟩
  | 9 => ⟨S128x512, .i32⟩
  | 10 => ⟨S128x512, .i1⟩
  | 11 => ⟨S_, .i32⟩
  | 12 => ⟨S128x512, .i32⟩
  | 13 => ⟨S128x512, .i32⟩
  | 14 => ⟨S128x512, .i32⟩
  | 15 => ⟨S128x512x1, .i32⟩
  | 16 => ⟨S128x512x512, .f32⟩
  | 17 => ⟨S128x512x512, .f32⟩
  | 18 => ⟨S_, .f32⟩
  | 19 => ⟨S128x512, .f32⟩
  | 20 => ⟨S128x512x1, .f32⟩
  | 21 => ⟨S128x512x1, .f32⟩
  | 22 => ⟨S_, .f32⟩
  | 23 => ⟨S128x512x1, .f32⟩
  | 24 => ⟨S128x512x1, .f32⟩
  | 25 => ⟨S128x512x512, .f32⟩
  | 26 => ⟨S128x512x512, .f32⟩
  | 27 => ⟨S128x512x512, .f32⟩
  | 28 => ⟨S512x512, .i32⟩
  | 29 => ⟨S_, .i32⟩
  | 30 => ⟨S512x512, .i32⟩
  | 31 => ⟨S512x512, .i32⟩
  | 32 => ⟨S512x512, .i32⟩
  | 33 => ⟨S512x512, .i1⟩
  | 34 => ⟨S128x512x512, .i1⟩
  | 35 => ⟨S_, .f32⟩
  | 36 => ⟨S128x512x512, .f32⟩
  | 37 => ⟨S128x512x512, .f32⟩
  | 38 => ⟨S_, .f32⟩
  | 39 => ⟨S128x512x512, .f32⟩
  | 40 => ⟨S128x512x512, .i1⟩
  | 41 => ⟨S128x512x512, .i32⟩
  | 42 => ⟨S_, .i32⟩
  | 43 => ⟨S128, .i32⟩
  | 44 => ⟨S128, .f32⟩
  | 45 => ⟨S_, .f32⟩
  | 46 => ⟨S128, .f32⟩
  | 47 => ⟨S_, .f32⟩
  | 48 => ⟨S128, .f32⟩
  | 49 => ⟨S128, .f32⟩
  | 50 => ⟨S128, .f32⟩
  | 51 => ⟨S128x1x1, .f32⟩
  | 52 => ⟨S128x512x512, .f32⟩
  | 53 => ⟨S128x512x512, .i1⟩
  | 54 => ⟨S_, .f32⟩
  | 55 => ⟨S_, .f32⟩
  | 56 => ⟨S128x512x512, .f32⟩
  | 57 => ⟨S128x512x512, .f32⟩
  | 58 => ⟨S_, .f32⟩
  | 59 => ⟨S128x512x512, .f32⟩
  | 60 => ⟨S128x512x512, .i1⟩
  | 61 => ⟨S128x512x512, .f32⟩
  | 62 => ⟨S512x512, .i32⟩
  | 63 => ⟨S512x512, .i32⟩
  | 64 => ⟨S_, .i32⟩
  | 65 => ⟨S512x512, .i32⟩
  | 66 => ⟨S512x512, .i32⟩
  | 67 => ⟨S512x512, .i1⟩
  | 68 => ⟨S512x512, .f32⟩
  | 69 => ⟨S_, .f32⟩
  | 70 => ⟨S512x512, .f32⟩
  | 71 => ⟨S512x512, .f32⟩
  | 72 => ⟨S1x512x512, .f32⟩
  | 73 => ⟨S128x512x512, .f32⟩
  | 74 => ⟨S128x512x512, .f32⟩
  | 75 => ⟨S_, .f32⟩
  | 76 => ⟨S128x512, .f32⟩
  | 77 => ⟨S_, .f32⟩
  | 78 => ⟨S128x512, .f32⟩
  | 79 => ⟨S128x512, .i1⟩
  | 80 => ⟨S_, .f32⟩
  | 81 => ⟨S128x512, .f32⟩
  | 82 => ⟨S128x512, .f32⟩
  | 83 => ⟨S128x512, .f32⟩
  | 84 => ⟨S_, .f32⟩
  | 85 => ⟨S_, .f32⟩
  | 86 => ⟨S128x512, .f32⟩
  | 87 => ⟨S128x512, .f32⟩
  | 88 => ⟨S128x512x1, .f32⟩
  | 89 => ⟨S128x512x512, .f32⟩
  | 90 => ⟨S128x512x512, .f32⟩
  | 91 => ⟨S128x1x512, .f32⟩
  | 92 => ⟨S128x512x512, .f32⟩
  | 93 => ⟨S128x512x512, .f32⟩
  | 94 => ⟨S128x512x512, .f32⟩
  | 95 => ⟨S_, .i32⟩
  | 96 => ⟨S128x512, .i32⟩
  | 97 => ⟨S128x512, .i1⟩
  | 98 => ⟨S_, .i32⟩
  | 99 => ⟨S128x512, .i32⟩
  | 100 => ⟨S128x512, .i32⟩
  | 101 => ⟨S128x512, .i32⟩
  | 102 => ⟨S128x512x1, .i32⟩
  | 103 => ⟨S128x512x128, .f32⟩
  | 104 => ⟨S128x512x128, .f32⟩
  | 105 => ⟨S128x512x128, .f32⟩
  | 106 => ⟨S_, .f32⟩
  | 107 => ⟨S128x512x128, .f32⟩
  | 108 => ⟨S128x512x128, .f32⟩
  | 109 => ⟨S128x512x128, .f32⟩
  | 110 => ⟨S1x128x128, .f32⟩
  | 111 => ⟨S128x128, .f32⟩
  | 112 => ⟨S128x512x128, .f32⟩
  | 113 => ⟨S1x128x128, .f32⟩
  | 114 => ⟨S128x128, .f32⟩
  | 115 => ⟨S128x512x128, .f32⟩
  | 116 => ⟨S128x512x128, .f32⟩
  | 117 => ⟨S1x128x128, .f32⟩
  | 118 => ⟨S128x128, .f32⟩
  | 119 => ⟨S128x512x128, .f32⟩
  | 120 => ⟨S128x512x128, .f32⟩
  | 121 => ⟨S1x1x128, .f32⟩
  | 122 => ⟨S128x512x128, .f32⟩
  | 123 => ⟨S128x512x128, .f32⟩
  | 124 => ⟨S_, .f32⟩
  | 125 => ⟨S128x512x128, .f32⟩
  | 126 => ⟨S128x512x128, .f32⟩
  | 127 => ⟨S128x512x128, .f32⟩
  | _ => ⟨S128x512, .i32⟩

abbrev hbmTy0_1 (i : Nat) : BufTy := match i % 128 with
  | 0 => ⟨S128x512x128, .f32⟩
  | 1 => ⟨S_, .f32⟩
  | 2 => ⟨S128x512x128, .f32⟩
  | 3 => ⟨S128x512x128, .f32⟩
  | 4 => ⟨S128x512x128, .f32⟩
  | 5 => ⟨S1x128x128, .f32⟩
  | 6 => ⟨S128x128, .f32⟩
  | 7 => ⟨S128x512x128, .f32⟩
  | 8 => ⟨S1x128x128, .f32⟩
  | 9 => ⟨S128x128, .f32⟩
  | 10 => ⟨S128x512x128, .f32⟩
  | 11 => ⟨S128x512x128, .f32⟩
  | 12 => ⟨S1x128x128, .f32⟩
  | 13 => ⟨S128x128, .f32⟩
  | 14 => ⟨S128x512x128, .f32⟩
  | 15 => ⟨S128x512x128, .f32⟩
  | 16 => ⟨S1x1x128, .f32⟩
  | 17 => ⟨S128x512x128, .f32⟩
  | 18 => ⟨S128x512x128, .f32⟩
  | 19 => ⟨S_, .f32⟩
  | 20 => ⟨S128x512x128, .f32⟩
  | 21 => ⟨S128x512x128, .f32⟩
  | 22 => ⟨S128x512x640, .f32⟩
  | 23 => ⟨S65536x640, .f32⟩
  | _ => ⟨S128x512, .i32⟩

abbrev hbmTy (i : Nat) : BufTy := match i / 128 with
  | 0 => hbmTy0_0 i
  | 1 => hbmTy0_1 i
  | _ => ⟨S128x512, .i32⟩

abbrev bufTy : (tb : Table) → Fin (tcTables nBuf tb) → BufTy
  | .hbm, ⟨i, _⟩ => hbmTy i
  | _, _ => ⟨S128x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_call0_v0 : Ref sig .tc := ⟨.hbm, 17, rfl⟩
abbrev main_call0_cst : Ref sig .tc := ⟨.hbm, 18, rfl⟩
abbrev main_call0_v1 : Ref sig .tc := ⟨.hbm, 19, rfl⟩
abbrev main_call0_v2 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_call1_v0 : Ref sig .tc := ⟨.hbm, 28, rfl⟩
abbrev main_call1_c : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_cst : Ref sig .tc := ⟨.hbm, 35, rfl⟩
abbrev main_call1_v6 : Ref sig .tc := ⟨.hbm, 36, rfl⟩
abbrev main_v13 : Ref sig .tc := ⟨.hbm, 37, rfl⟩
abbrev main_cst_1 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_c_2 : Ref sig .tc := ⟨.hbm, 42, rfl⟩
abbrev main_v17 : Ref sig .tc := ⟨.hbm, 43, rfl⟩
abbrev main_v18 : Ref sig .tc := ⟨.hbm, 44, rfl⟩
abbrev main_cst_3 : Ref sig .tc := ⟨.hbm, 45, rfl⟩
abbrev main_v19 : Ref sig .tc := ⟨.hbm, 46, rfl⟩
abbrev main_cst_4 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_cst_5 : Ref sig .tc := ⟨.hbm, 54, rfl⟩
abbrev main_call2_v0 : Ref sig .tc := ⟨.hbm, 55, rfl⟩
abbrev main_call2_v1 : Ref sig .tc := ⟨.hbm, 56, rfl⟩
abbrev main_v26 : Ref sig .tc := ⟨.hbm, 57, rfl⟩
abbrev main_cst_6 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_c_7 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_cst_8 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_cst_9 : Ref sig .tc := ⟨.hbm, 75, rfl⟩
abbrev main_v41 : Ref sig .tc := ⟨.hbm, 76, rfl⟩
abbrev main_cst_10 : Ref sig .tc := ⟨.hbm, 77, rfl⟩
abbrev main_v42 : Ref sig .tc := ⟨.hbm, 78, rfl⟩
abbrev main_v43 : Ref sig .tc := ⟨.hbm, 79, rfl⟩
abbrev main_cst_11 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_cst_12 : Ref sig .tc := ⟨.hbm, 84, rfl⟩
abbrev main_call3_v0 : Ref sig .tc := ⟨.hbm, 85, rfl⟩
abbrev main_call3_v1 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_c_13 : Ref sig .tc := ⟨.hbm, 95, rfl⟩
abbrev main_v55 : Ref sig .tc := ⟨.hbm, 96, rfl⟩
abbrev main_v56 : Ref sig .tc := ⟨.hbm, 97, rfl⟩
abbrev main_c_14 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_cst_15 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_call4_cst : Ref sig .tc := ⟨.hbm, 124, rfl⟩
abbrev main_call4_v0 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_cst_16 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_call5_cst : Ref sig .tc := ⟨.hbm, 147, rfl⟩
abbrev main_call5_v0 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩

abbrev nD : Nat := 1
abbrev τ : Topo := Topo.v7x

variable {F : FTy → Type} [FloatOps F]

class Facts₀ : Prop where
  bcast_S_S128x512 : S_.BroadcastsInDim S128x512 (![] : Fin 0 → Fin S128x512.rank)
  bcast_S128x512_S128x512x1_0_1 : S128x512.BroadcastsInDim S128x512x1 (![0, 1] : Fin 2 → Fin S128x512x1.rank)
  reducesTo_S128x512x512_S128x512_d2 : S128x512x512.ReducesTo [2] S128x512
  h_S_ : 0 < S_.numel
  bcast_S_S128x512x1 : S_.BroadcastsInDim S128x512x1 (![] : Fin 0 → Fin S128x512x1.rank)
  bcast_S128x512x1_S128x512x512_0_1_2 : S128x512x1.BroadcastsInDim S128x512x512 (![0, 1, 2] : Fin 3 → Fin S128x512x512.rank)
  bcast_S_S512x512 : S_.BroadcastsInDim S512x512 (![] : Fin 0 → Fin S512x512.rank)
  bcast_S512x512_S128x512x512_1_2 : S512x512.BroadcastsInDim S128x512x512 (![1, 2] : Fin 2 → Fin S128x512x512.rank)
  bcast_S_S128x512x512 : S_.BroadcastsInDim S128x512x512 (![] : Fin 0 → Fin S128x512x512.rank)
  natLt_1_32 : 1 < 32
  reducesTo_S128x512x512_S128_d1_2 : S128x512x512.ReducesTo [1, 2] S128
  bcast_S_S128 : S_.BroadcastsInDim S128 (![] : Fin 0 → Fin S128.rank)
  bcast_S128_S128x1x1_0 : S128.BroadcastsInDim S128x1x1 (![0] : Fin 1 → Fin S128x1x1.rank)
  bcast_S128x1x1_S128x512x512_0_1_2 : S128x1x1.BroadcastsInDim S128x512x512 (![0, 1, 2] : Fin 3 → Fin S128x512x512.rank)
  bcast_S512x512_S1x512x512_1_2 : S512x512.BroadcastsInDim S1x512x512 (![1, 2] : Fin 2 → Fin S1x512x512.rank)
  bcast_S1x512x512_S128x512x512_0_1_2 : S1x512x512.BroadcastsInDim S128x512x512 (![0, 1, 2] : Fin 3 → Fin S128x512x512.rank)
  bcast_S128x512_S128x1x512_0_2 : S128x512.BroadcastsInDim S128x1x512 (![0, 2] : Fin 2 → Fin S128x1x512.rank)
  bcast_S128x1x512_S128x512x512_0_1_2 : S128x1x512.BroadcastsInDim S128x512x512 (![0, 1, 2] : Fin 3 → Fin S128x512x512.rank)
  bcast_S_S128x512x128 : S_.BroadcastsInDim S128x512x128 (![] : Fin 0 → Fin S128x512x128.rank)
  slices_S3x128x128_S1x128x128_0_0_0 : S3x128x128.Slices ![0, 0, 0] S1x128x128
  shapeCasts_S1x128x128_S128x128 : S1x128x128.ShapeCasts S128x128
  slices_S3x128x128_S1x128x128_1_0_0 : S3x128x128.Slices ![1, 0, 0] S1x128x128
  slices_S3x128x128_S1x128x128_2_0_0 : S3x128x128.Slices ![2, 0, 0] S1x128x128
  bcast_S128_S1x1x128_2 : S128.BroadcastsInDim S1x1x128 (![2] : Fin 1 → Fin S1x1x128.rank)
  bcast_S1x1x128_S128x512x128_0_1_2 : S1x1x128.BroadcastsInDim S128x512x128 (![0, 1, 2] : Fin 3 → Fin S128x512x128.rank)
  concatenates_S128x512x128_S128x512x512_S128x512x640_d2 : Shape.Concatenates [S128x512x128, S128x512x512] S128x512x640 2
  shapeCasts_S128x512x640_S65536x640 : S128x512x640.ShapeCasts S65536x640
  gather_S5000x512_S128x512x1_S128x512x512_2_0_n_n_0_2_1512_wf : GatherDims.WF S5000x512 S128x512x1 S128x512x512 [2] [0] [] [0] [] 2 ![1, 512]
  dot_S128x512x512_S128x512x512_S128x512x512_2_2_1_1_0_0_wf : DotDims.WF S128x512x512 S128x512x512 S128x512x512 [2] [2] [1] [1] [0] [0]
  gather_S30000x128_S128x512x1_S128x512x128_2_0_n_n_0_2_1128_wf : GatherDims.WF S30000x128 S128x512x1 S128x512x128 [2] [0] [] [0] [] 2 ![1, 128]
  dot_S128x512x512_S128x512x128_S128x512x128_2_1_1_2_0_0_wf : DotDims.WF S128x512x512 S128x512x128 S128x512x128 [2] [1] [1] [2] [0] [0]
  dot_S128x512x128_S128x128_S128x512x128_2_0_01_1_n_n_wf : DotDims.WF S128x512x128 S128x128 S128x512x128 [2] [0] [0, 1] [1] [] []

variable [Facts₀]

def gather_S5000x512_S128x512x1_S128x512x512_2_0_n_n_0_2_1512 : GatherDims S5000x512 S128x512x1 S128x512x512 where
  offsetDims := [2]
  collapsedSliceDims := [0]
  operandBatchingDims := []
  startIndicesBatchingDims := []
  startIndexMap := [0]
  indexVectorDim := 2
  sliceSizes := ![1, 512]
  wf := gather_S5000x512_S128x512x1_S128x512x512_2_0_n_n_0_2_1512_wf
def dot_S128x512x512_S128x512x512_S128x512x512_2_2_1_1_0_0 : DotDims S128x512x512 S128x512x512 S128x512x512 where
  lhsContracting := [2]
  rhsContracting := [2]
  lhsNonContracting := [1]
  rhsNonContracting := [1]
  lhsBatch := [0]
  rhsBatch := [0]
  wf := dot_S128x512x512_S128x512x512_S128x512x512_2_2_1_1_0_0_wf
def gather_S30000x128_S128x512x1_S128x512x128_2_0_n_n_0_2_1128 : GatherDims S30000x128 S128x512x1 S128x512x128 where
  offsetDims := [2]
  collapsedSliceDims := [0]
  operandBatchingDims := []
  startIndicesBatchingDims := []
  startIndexMap := [0]
  indexVectorDim := 2
  sliceSizes := ![1, 128]
  wf := gather_S30000x128_S128x512x1_S128x512x128_2_0_n_n_0_2_1128_wf
def dot_S128x512x512_S128x512x128_S128x512x128_2_1_1_2_0_0 : DotDims S128x512x512 S128x512x128 S128x512x128 where
  lhsContracting := [2]
  rhsContracting := [1]
  lhsNonContracting := [1]
  rhsNonContracting := [2]
  lhsBatch := [0]
  rhsBatch := [0]
  wf := dot_S128x512x512_S128x512x128_S128x512x128_2_1_1_2_0_0_wf
def dot_S128x512x128_S128x128_S128x512x128_2_0_01_1_n_n : DotDims S128x512x128 S128x128 S128x512x128 where
  lhsContracting := [2]
  rhsContracting := [0]
  lhsNonContracting := [0, 1]
  rhsNonContracting := [1]
  lhsBatch := []
  rhsBatch := []
  wf := dot_S128x512x128_S128x128_S128x512x128_2_0_01_1_n_n_wf

class Facts : Prop extends Facts₀ where

variable [Facts]
-- ==== Proof.Spec.lean ====
/-
  The mathematics both programs compute for ONE graph of 512 nodes, over the extended reals.

  From the node features `e` (512 rows of 512 entries) a similarity graph is built: each row is divided by the larger of
  its Euclidean norm and a floor, `sim n m` is the inner product of rows `n` and `m` of the result, `mean` is the sum of
  the entries of `sim` strictly above the diagonal divided by the larger of 1 and the number of those entries that are not
  zero, an edge `adj n m` (1 or 0) joins two distinct nodes whose similarity is not below the mean and not zero, `deg` is
  a node's number of edges, and `lap` is the negated adjacency scaled on both sides by `deg ^ (-1/2)` (0 at an isolated
  node). Two Chebyshev layers of order three follow, `x ↦ max (x·w₀ + (L x)·w₁ + (2 L (L x) − x)·w₂ + b) 0`, and the
  result row is the second layer's 128 entries followed by the 512 entries of `e`'s row.

  The similarity is symmetric because multiplication of extended reals commutes; so the adjacency is symmetric and a
  node's edges may be counted along its row or along its column (`deg_col`).
-/
import Idealize.ShloMosaic.PureOps.Ideal
import Idealize.ShloMosaic.PureOps.Ideal.Laws

noncomputable section

namespace Cert.Gcn

open Idealize.ShloMosaic

/-- The floor under a norm and under a degree (the single-precision number nearest 1e-12). -/
def epsW : EReal := Ideal.ofBits .f32 0x2B8CBCCC#32
/-- The factor 2 of the Chebyshev recurrence. -/
def twoW : EReal := Ideal.ofBits .f32 0x40000000#32

/-- The single-precision word of 1.0 is the real number 1. -/
theorem one_word : Ideal.ofBits .f32 0x3F800000#32 = 1 := by
  simp [Ideal.ofBits, Ideal.ieee, -EReal.coe_mul]; norm_num

section Graph
variable (e : Fin 512 → Fin 512 → EReal)

/-- Row `n` divided by the larger of its norm and the floor. -/
def feat (n k : Fin 512) : EReal := Ideal.div (e n k) (max (Ideal.sqrt (∑ r : Fin 512, e n r * e n r)) epsW)

/-- The inner product of normalized rows `n` and `m`. -/
def sim (n m : Fin 512) : EReal := ∑ k : Fin 512, feat e n k * feat e m k

/-- The sum of the similarities strictly above the diagonal. -/
def upTot : EReal := ∑ n : Fin 512, ∑ m : Fin 512, if n < m then sim e n m else 0

/-- The number of similarities strictly above the diagonal that are not zero. -/
def upCnt : EReal := ∑ n : Fin 512, ∑ m : Fin 512, if n < m ∧ sim e n m ≠ 0 then 1 else 0

/-- Their mean (over at least one). -/
def mean : EReal := Ideal.div (upTot e) (max (upCnt e) 1)

/-- The adjacency: no self-loop; an edge where the similarity, zeroed below the mean, is not zero. -/
def adj (n m : Fin 512) : EReal :=
  if n = m then 0 else if (if sim e n m < mean e then (0 : EReal) else sim e n m) ≠ 0 then 1 else 0

/-- A node's number of edges. -/
def deg (n : Fin 512) : EReal := ∑ m : Fin 512, adj e n m

/-- `deg ^ (-1/2)`, and 0 at an isolated node. -/
def dinv (n : Fin 512) : EReal := if 0 < deg e n then Ideal.rsqrt (max (deg e n) epsW) else 0

/-- The scaled Laplacian's off-diagonal part: the negated, doubly scaled adjacency. -/
def lap (n m : Fin 512) : EReal := -(dinv e n * adj e n m * dinv e m)

theorem sim_symm (n m : Fin 512) : sim e n m = sim e m n := by
  unfold sim
  exact Finset.sum_congr rfl fun k _ => mul_comm _ _

theorem adj_symm (n m : Fin 512) : adj e n m = adj e m n := by
  unfold adj
  rw [sim_symm e n m]
  by_cases h : n = m
  · rw [if_pos h, if_pos h.symm]
  · rw [if_neg h, if_neg (Ne.symm h)]

/-- Counting a node's edges down its column gives its degree. -/
theorem deg_col (m : Fin 512) : ∑ n : Fin 512, adj e n m = deg e m := by
  unfold deg
  exact Finset.sum_congr rfl fun n _ => adj_symm e n m

end Graph

/-- One propagation step: `L` applied to the 128 feature columns of `x`. -/
def prop (L : Fin 512 → Fin 512 → EReal) (x : Fin 512 → Fin 128 → EReal) (n : Fin 512) (d : Fin 128) : EReal :=
  ∑ k : Fin 512, L n k * x k d

/-- A Chebyshev filter of order three with bias. -/
def cheb (L : Fin 512 → Fin 512 → EReal) (x : Fin 512 → Fin 128 → EReal) (w : Fin 3 → Fin 128 → Fin 128 → EReal)
    (b : Fin 128 → EReal) (n : Fin 512) (j : Fin 128) : EReal :=
  (∑ d : Fin 128, x n d * w 0 d j) + (∑ d : Fin 128, prop L x n d * w 1 d j)
    + (∑ d : Fin 128, (twoW * prop L (prop L x) n d - x n d) * w 2 d j) + b j

/-- The filter followed by the positive part. -/
def layer (L : Fin 512 → Fin 512 → EReal) (x : Fin 512 → Fin 128 → EReal) (w : Fin 3 → Fin 128 → Fin 128 → EReal)
    (b : Fin 128 → EReal) (n : Fin 512) (j : Fin 128) : EReal :=
  max (cheb L x w b n j) 0

/-- A graph's result row: two layers over its Laplacian, then the node features. -/
def out (e : Fin 512 → Fin 512 → EReal) (x : Fin 512 → Fin 128 → EReal)
    (w1 : Fin 3 → Fin 128 → Fin 128 → EReal) (b1 : Fin 128 → EReal)
    (w2 : Fin 3 → Fin 128 → Fin 128 → EReal) (b2 : Fin 128 → EReal) (n : Fin 512) (j : Fin 640) : EReal :=
  if h : j.val < 128 then layer (lap e) (layer (lap e) x w1 b1) w2 b2 n ⟨j.val, h⟩
  else e n ⟨j.val - 128, by have := j.isLt; omega⟩

end Cert.Gcn

end
-- ==== Proof.Whole.lean ====
/-
  The whole result array: 128 graphs of 512 nodes, 640 entries per node. Graph `b`'s row `n` is the specification's
  result row computed from graph `b`'s block of the two gathered feature arrays and from the shared weights.
-/
import Idealize.ShloMosaic.Lib.ValueIdx
import proofs.«170040_j60687887892590_1_alg».proof.Proof.Spec

noncomputable section

namespace Cert.Gcn

open Idealize.ShloMosaic Idealize.ShloMosaic.ValueIdx

/-- The result as one function of the gathered node features `A6` ([128,512,512]), the gathered inputs `A13`
    ([128,512,128]) and the two layers' weights and biases. -/
def whole (A6 : (⟨3, ![128, 512, 512]⟩ : Shape).Idx → EReal) (A13 : (⟨3, ![128, 512, 128]⟩ : Shape).Idx → EReal)
    (w1 : (⟨3, ![3, 128, 128]⟩ : Shape).Idx → EReal) (b1 : (⟨1, ![128]⟩ : Shape).Idx → EReal)
    (w2 : (⟨3, ![3, 128, 128]⟩ : Shape).Idx → EReal) (b2 : (⟨1, ![128]⟩ : Shape).Idx → EReal) :
    (⟨3, ![128, 512, 640]⟩ : Shape).Idx → EReal :=
  fun i => out (fun a k => A6 (ix3 (i 0) a k)) (fun a d => A13 (ix3 (i 0) a d))
    (fun q a c => w1 (ix3 q a c)) (fun a => b1 (ix1 a)) (fun q a c => w2 (ix3 q a c)) (fun a => b2 (ix1 a)) (i 1) (i 2)

theorem whole_apply (A6 : (⟨3, ![128, 512, 512]⟩ : Shape).Idx → EReal) (A13 : (⟨3, ![128, 512, 128]⟩ : Shape).Idx → EReal)
    (w1 : (⟨3, ![3, 128, 128]⟩ : Shape).Idx → EReal) (b1 : (⟨1, ![128]⟩ : Shape).Idx → EReal)
    (w2 : (⟨3, ![3, 128, 128]⟩ : Shape).Idx → EReal) (b2 : (⟨1, ![128]⟩ : Shape).Idx → EReal)
    (b : Fin 128) (n : Fin 512) (j : Fin 640) :
    whole A6 A13 w1 b1 w2 b2 (ix3 b n j)
      = out (fun a k => A6 (ix3 b a k)) (fun a d => A13 (ix3 b a d))
          (fun q a c => w1 (ix3 q a c)) (fun a => b1 (ix1 a)) (fun q a c => w2 (ix3 q a c)) (fun a => b2 (ix1 a)) n j := rfl

end Cert.Gcn

end
-- ==== Proof.LibKeepdims.lean ====
/-
  Column ("keepdims") forms read at an index, over any extents: a vector of length `a` viewed as an `[a, 1]` column, a
  column broadcast along the rows of an `[a, b]` array, and, over the extended reals, the sum of an `[a, b]` array
  along its rows (one value per row) and the sum of an `[a, 1]` column along its one column (one value).
-/
import Idealize.ShloMosaic.Lib.Pipeline.Value
import Idealize.ShloMosaic.Lib.ValueIdx
import Idealize.ShloMosaic.PureOps.Ideal.Laws

noncomputable section

namespace Cert.Keepdims

open Idealize.ShloMosaic Idealize.ShloMosaic.ValueIdx

variable {α : Type}

/-- A length-`a` vector viewed as an `[a, 1]` column reads, at `(r, 0)`, the vector at `r`: the two row-major positions
    agree. -/
theorem shapeCast_a_a1_apply {a : ℕ} (x : (⟨1, ![a]⟩ : Shape).Idx → α)
    (h : (⟨1, ![a]⟩ : Shape).ShapeCasts ⟨2, ![a, 1]⟩) (r : Fin a) (q : Fin 1) :
    shapeCast ⟨2, ![a, 1]⟩ x h (ix2 r q) = x (ix1 r) := by
  refine shapeCast_apply x h (ix2 r q) (ix1 r) ?_
  rw [Shape.rowMajor_val_one, Shape.rowMajor_val_two]
  show r.val = r.val * 1 + q.val
  have := q.isLt
  omega

/-- An `[a, 1]` column broadcast to `[a, b]` reads, at `(r, c)`, the column at row `r`. -/
theorem broadcastTo_a1_ab_apply {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- Over the extended reals the sum of an `[a, b]` array along axis 1 is, at row `r`, the sum of that row's `b` entries. -/
theorem rowSum_apply {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = 0x00000000#32) (r : Fin a) :
    multiReduction .add [1] ⟨1, ![a]⟩ v 0x00000000#32 h hφ hacc (ix1 r) = ∑ k : Fin b, v (ix2 r k) := by
  refine (Ideal.reduceAdd_single h v (ix1 r)).trans ?_
  refine Finset.sum_congr rfl fun k _ => congrArg v ?_
  funext c
  apply Fin.ext
  match c with
  | ⟨0, _⟩ => rfl
  | ⟨1, _⟩ => rfl

/-- Over the extended reals the sum of an `[a, 1]` column along axis 0 is the sum of its `a` entries. -/
theorem colSum_apply {a : ℕ} (w : FVec Ideal ⟨2, ![a, 1]⟩ .f32) (h : (⟨2, ![a, 1]⟩ : Shape).Reduces [0] ⟨1, ![1]⟩)
    (hφ : FKind.Formats .f32) (hacc : (0x00000000#32 : BitVec 32) = 0x00000000#32) (q : Fin 1) :
    multiReduction .add [0] ⟨1, ![1]⟩ w 0x00000000#32 h hφ hacc (ix1 q) = ∑ r : Fin a, w (ix2 r q) := by
  refine (Ideal.reduceAdd_single h w (ix1 q)).trans ?_
  refine Finset.sum_congr rfl fun k _ => congrArg w ?_
  funext c
  apply Fin.ext
  match c with
  | ⟨0, _⟩ => rfl
  | ⟨1, _⟩ => rfl

end Cert.Keepdims

end
-- ==== Proof.LibDense.lean ====
/-
  The arithmetic the three kernels and the reference share, over the extended reals and over arbitrary extents.
  A dense layer entry: for a row `p` of an `[R, K]` array `x`, a `[K, N]` matrix `w`, a bias `b` of length `N` and an
  `[R, 1]` column of row weights, the entry `(p, q)` is `max (∑ k, x p k · w k q + b q) 0 · col p`. Beside it the two
  row-wise operations: an array times a column of row weights, and an array divided by a column of row normalizers.
  The lemmas read the kernels' vector operations (a matrix product into a zero accumulator, the bias viewed as one row
  and repeated over the rows, a column repeated over the lanes) at one index.
-/
import Idealize.ShloMosaic.Lib.Pipeline.Value
import Idealize.ShloMosaic.Lib.ValueIdx
import Idealize.ShloMosaic.Lib.ValueLayout
import Idealize.ShloMosaic.PureOps.Ideal.Laws
import proofs.«170040_j60687887892590_1_alg».proof.Proof.LibKeepdims

noncomputable section

namespace Cert.Dense

open Idealize.ShloMosaic Idealize.ShloMosaic.ValueIdx

/-- Entry `(p, q)` of the dense layer with relu and row weights. -/
def layerAt {R K N : ℕ} (x : FVec Ideal ⟨2, ![R, K]⟩ .f32) (w : FVec Ideal ⟨2, ![K, N]⟩ .f32)
    (b : FVec Ideal ⟨1, ![N]⟩ .f32) (col : FVec Ideal ⟨2, ![R, 1]⟩ .f32) (p : Fin R) (q : Fin N) : EReal :=
  max ((∑ k : Fin K, x (ix2 p k) * w (ix2 k q)) + b (ix1 q)) (Ideal.ofBits .f32 0x00000000#32) * col (ix2 p (0 : Fin 1))

/-- The dense layer as a whole array. -/
def layer {R K N : ℕ} (x : FVec Ideal ⟨2, ![R, K]⟩ .f32) (w : FVec Ideal ⟨2, ![K, N]⟩ .f32)
    (b : FVec Ideal ⟨1, ![N]⟩ .f32) (col : FVec Ideal ⟨2, ![R, 1]⟩ .f32) : FVec Ideal ⟨2, ![R, N]⟩ .f32 :=
  fun i => layerAt x w b col (i 0) (i 1)

/-- Every row of `x` times that row's weight. -/
def scaleRows {R N : ℕ} (x : FVec Ideal ⟨2, ![R, N]⟩ .f32) (col : FVec Ideal ⟨2, ![R, 1]⟩ .f32) : FVec Ideal ⟨2, ![R, N]⟩ .f32 :=
  fun i => x i * col (ix2 (i 0) (0 : Fin 1))

/-- Every row of `x` divided by that row's normalizer. -/
def divRows {R N : ℕ} (x : FVec Ideal ⟨2, ![R, N]⟩ .f32) (col : FVec Ideal ⟨2, ![R, 1]⟩ .f32) : FVec Ideal ⟨2, ![R, N]⟩ .f32 :=
  fun i => Ideal.div (x i) (col (ix2 (i 0) (0 : Fin 1)))

theorem layer_apply {R K N : ℕ} (x : FVec Ideal ⟨2, ![R, K]⟩ .f32) (w : FVec Ideal ⟨2, ![K, N]⟩ .f32)
    (b : FVec Ideal ⟨1, ![N]⟩ .f32) (col : FVec Ideal ⟨2, ![R, 1]⟩ .f32) (p : Fin R) (q : Fin N) :
    layer x w b col (ix2 p q) = layerAt x w b col p q := rfl

theorem scaleRows_apply {R N : ℕ} (x : FVec Ideal ⟨2, ![R, N]⟩ .f32) (col : FVec Ideal ⟨2, ![R, 1]⟩ .f32) (p : Fin R) (q : Fin N) :
    scaleRows x col (ix2 p q) = x (ix2 p q) * col (ix2 p (0 : Fin 1)) := rfl

theorem divRows_apply {R N : ℕ} (x : FVec Ideal ⟨2, ![R, N]⟩ .f32) (col : FVec Ideal ⟨2, ![R, 1]⟩ .f32) (p : Fin R) (q : Fin N) :
    divRows x col (ix2 p q) = Ideal.div (x (ix2 p q)) (col (ix2 p (0 : Fin 1))) := rfl

/-- A layer entry depends on row `p` of `x`, on `w`, on `b` and on the weight of row `p` only: two sets of operands that
    agree there give the same entry (a block of rows against the whole array). -/
theorem layerAt_congr {R R' K N : ℕ} (x : FVec Ideal ⟨2, ![R, K]⟩ .f32) (x' : FVec Ideal ⟨2, ![R', K]⟩ .f32)
    (w w' : FVec Ideal ⟨2, ![K, N]⟩ .f32) (b b' : FVec Ideal ⟨1, ![N]⟩ .f32)
    (col : FVec Ideal ⟨2, ![R, 1]⟩ .f32) (col' : FVec Ideal ⟨2, ![R', 1]⟩ .f32) (p : Fin R) (p' : Fin R') (q : Fin N)
    (hx : ∀ k : Fin K, x (ix2 p k) = x' (ix2 p' k)) (hw : w = w') (hb : b = b')
    (hc : col (ix2 p (0 : Fin 1)) = col' (ix2 p' (0 : Fin 1))) :
    layerAt x w b col p q = layerAt x' w' b' col' p' q := by
  subst hw; subst hb
  unfold layerAt
  rw [hc, Finset.sum_congr rfl fun k _ => by rw [hx k]]

/-- A matrix product into a zero accumulator, rows times columns with one contracted axis, read at `(p, q)`: the sum
    over `k` of `x p k · w k q`. The four hypotheses say which operand coordinates the dimension numbers pick. -/
theorem matmul_rows {R K N : ℕ} (d : DotDims ⟨2, ![R, K]⟩ ⟨2, ![K, N]⟩ ⟨2, ![R, N]⟩)
    (hr : d.contr.rank = 1) (hs : d.contr.size ⟨0, by omega⟩ = K)
    (hl0 : ∀ (j : (⟨2, ![R, N]⟩ : Shape).Idx) (q : d.contr.Idx), (d.lhsIdx j q 0).val = (j 0).val)
    (hl1 : ∀ (j : (⟨2, ![R, N]⟩ : Shape).Idx) (q : d.contr.Idx), (d.lhsIdx j q 1).val = (q ⟨0, by omega⟩).val)
    (hr0 : ∀ (j : (⟨2, ![R, N]⟩ : Shape).Idx) (q : d.contr.Idx), (d.rhsIdx j q 0).val = (q ⟨0, by omega⟩).val)
    (hr1 : ∀ (j : (⟨2, ![R, N]⟩ : Shape).Idx) (q : d.contr.Idx), (d.rhsIdx j q 1).val = (j 1).val)
    (x : FVec Ideal ⟨2, ![R, K]⟩ .f32) (w : FVec Ideal ⟨2, ![K, N]⟩ .f32) (p : Fin R) (q : Fin N) :
    matmul d none x w (constant (F := Ideal) ⟨2, ![R, N]⟩ .f32 0x00000000#32) (ix2 p q) = ∑ k : Fin K, x (ix2 p k) * w (ix2 k q) := by
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

/-- The dense kernel body's arithmetic at `(p, q)`: the product into a zero accumulator, plus the bias viewed as one row
    and repeated over the rows, clamped below at zero, times the row-weight column repeated over the lanes — a layer
    entry. -/
theorem layer_payload {R K N : ℕ} (d : DotDims ⟨2, ![R, K]⟩ ⟨2, ![K, N]⟩ ⟨2, ![R, N]⟩)
    (hr : d.contr.rank = 1) (hs : d.contr.size ⟨0, by omega⟩ = K)
    (hl0 : ∀ (j : (⟨2, ![R, N]⟩ : Shape).Idx) (q : d.contr.Idx), (d.lhsIdx j q 0).val = (j 0).val)
    (hl1 : ∀ (j : (⟨2, ![R, N]⟩ : Shape).Idx) (q : d.contr.Idx), (d.lhsIdx j q 1).val = (q ⟨0, by omega⟩).val)
    (hr0 : ∀ (j : (⟨2, ![R, N]⟩ : Shape).Idx) (q : d.contr.Idx), (d.rhsIdx j q 0).val = (q ⟨0, by omega⟩).val)
    (hr1 : ∀ (j : (⟨2, ![R, N]⟩ : Shape).Idx) (q : d.contr.Idx), (d.rhsIdx j q 1).val = (j 1).val)
    (x : FVec Ideal ⟨2, ![R, K]⟩ .f32) (col : FVec Ideal ⟨2, ![R, 1]⟩ .f32) (w : FVec Ideal ⟨2, ![K, N]⟩ .f32)
    (b : FVec Ideal ⟨1, ![N]⟩ .f32)
    (hc1 : (⟨2, ![K, N]⟩ : Shape).ShapeCasts ⟨2, ![K, N]⟩) (hc2 : (⟨1, ![N]⟩ : Shape).ShapeCasts ⟨2, ![1, N]⟩)
    (hb1 : (⟨2, ![1, N]⟩ : Shape).Broadcasts ⟨2, ![R, N]⟩) (hb2 : (⟨2, ![R, 1]⟩ : Shape).Broadcasts ⟨2, ![R, N]⟩)
    (p : Fin R) (q : Fin N) :
    mulf (maximumf (addf (matmul d none x (shapeCast ⟨2, ![K, N]⟩ w hc1) (constant (F := Ideal) ⟨2, ![R, N]⟩ .f32 0x00000000#32))
        (broadcastTo ⟨2, ![R, N]⟩ (shapeCast ⟨2, ![1, N]⟩ b hc2) hb1))
        (broadcast ⟨2, ![R, N]⟩ (Scalar.ofBits (F := Ideal) .f32 0x00000000#32)))
      (broadcastTo ⟨2, ![R, N]⟩ col hb2) (ix2 p q)
    = layerAt x w b col p q := by
  rw [mulf_apply, maximumf_apply, addf_apply, broadcast_apply, matmul_rows d hr hs hl0 hl1 hr0 hr1,
    broadcastTo_1b_ab_apply, shapeCast_a_1a_apply, Cert.Keepdims.broadcastTo_a1_ab_apply, shapeCast_self]
  rfl

/-- An array times a column repeated over the lanes, at `(p, q)`. -/
theorem scale_payload {R N : ℕ} (x : FVec Ideal ⟨2, ![R, N]⟩ .f32) (col : FVec Ideal ⟨2, ![R, 1]⟩ .f32)
    (hb : (⟨2, ![R, 1]⟩ : Shape).Broadcasts ⟨2, ![R, N]⟩) (p : Fin R) (q : Fin N) :
    mulf x (broadcastTo ⟨2, ![R, N]⟩ col hb) (ix2 p q) = x (ix2 p q) * col (ix2 p (0 : Fin 1)) := by
  rw [mulf_apply, Cert.Keepdims.broadcastTo_a1_ab_apply]

/-- An array divided by a column repeated over the lanes, at `(p, q)`. -/
theorem div_payload {R N : ℕ} (x : FVec Ideal ⟨2, ![R, N]⟩ .f32) (col : FVec Ideal ⟨2, ![R, 1]⟩ .f32)
    (hc : (⟨2, ![R, N]⟩ : Shape).ShapeCasts ⟨2, ![R, N]⟩)
    (hb : (⟨2, ![R, 1]⟩ : Shape).Broadcasts ⟨2, ![R, N]⟩) (p : Fin R) (q : Fin N) :
    divf (shapeCast ⟨2, ![R, N]⟩ x hc) (broadcastTo ⟨2, ![R, N]⟩ col hb) (ix2 p q)
      = Ideal.div (x (ix2 p q)) (col (ix2 p (0 : Fin 1))) := by
  rw [divf_apply, Cert.Keepdims.broadcastTo_a1_ab_apply, shapeCast_self]

end Cert.Dense

end
-- ==== Proof.KGraph.lean ====
/-
  The graph part of the kernel body, read entry by entry over the extended reals: the block of node features viewed as
  a matrix, the similarity of normalized rows, the diagonal and strict-upper masks, the mean of the strict-upper
  similarities over the number of nonzero ones, the thresholded adjacency without self-loops, its degrees counted
  along rows and along columns, and the negated, doubly scaled adjacency.
-/
import proofs.«170040_j60687887892590_1_alg».proof.Proof.Gen.KernelIdeal.Skeleton
import proofs.«170040_j60687887892590_1_alg».proof.Proof.Spec
import proofs.«170040_j60687887892590_1_alg».proof.Proof.LibKeepdims
import proofs.«170040_j60687887892590_1_alg».proof.Proof.LibDense
import Idealize.ShloMosaic.Lib.Pipeline.Value
import Idealize.ShloMosaic.Lib.ValueIdx
import Idealize.ShloMosaic.Lib.ValueLayout
import Idealize.ShloMosaic.PureOps.Ideal.Laws

set_option synthInstance.maxSize 4096

noncomputable section

namespace Cert.KernelIdeal.KGraph

open Cert.KernelIdeal Cert.KernelIdeal.Gen Idealize.ShloMosaic Idealize.ShloMosaic.ValueIdx Idealize.SL.Sem

/-- The block of node features viewed as a matrix reads the block's only slab. -/
theorem pay2_apply (v0 : Vec Ideal S1x512x512 .f32) (n k : Fin 512) :
    k0_pay2 (F := Ideal) v0 (ix2 n k) = v0 (ix3 (0 : Fin 1) n k) := by
  unfold k0_pay2
  exact shapeCast_1ab_ab_apply v0 _ n k

/-- The block of node inputs viewed as a matrix reads the block's only slab. -/
theorem pay3_apply (v2 : Vec Ideal S1x512x128 .f32) (n : Fin 512) (d : Fin 128) :
    k0_pay3 (F := Ideal) v2 (ix2 n d) = v2 (ix3 (0 : Fin 1) n d) := by
  unfold k0_pay3
  exact shapeCast_1ab_ab_apply v2 _ n d

/-! ## General readings -/

section General
variable {α : Type}

/-- A matrix product into a zero accumulator, rows times columns with one contracted axis, read at `(p, q)`: the sum
    over `k` of `x p k · w k q`, whatever the operands' formats. -/
theorem matmul_rows' {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl0 : ∀ (j : (⟨2, ![R, N]⟩ : Shape).Idx) (q : d.contr.Idx), (d.lhsIdx j q 0).val = (j 0).val)
    (hl1 : ∀ (j : (⟨2, ![R, N]⟩ : Shape).Idx) (q : d.contr.Idx), (d.lhsIdx j q 1).val = (q ⟨0, by omega⟩).val)
    (hr0 : ∀ (j : (⟨2, ![R, N]⟩ : Shape).Idx) (q : d.contr.Idx), (d.rhsIdx j q 0).val = (q ⟨0, by omega⟩).val)
    (hr1 : ∀ (j : (⟨2, ![R, N]⟩ : Shape).Idx) (q : d.contr.Idx), (d.rhsIdx j q 1).val = (j 1).val)
    (x : FVec Ideal ⟨2, ![R, K]⟩ φ₁) (w : FVec Ideal ⟨2, ![K, N]⟩ φ₂) (p : Fin R) (q : Fin N) :
    matmul d none x w (constant (F := Ideal) ⟨2, ![R, N]⟩ .f32 0x00000000#32) (ix2 p q) = ∑ k : Fin K, x (ix2 p k) * w (ix2 k q) := by
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

/-- A `[1, 1]` array broadcast to `[a, b]` reads its one entry everywhere. -/
theorem broadcastTo_11_ab_apply {a b : ℕ} (v : (⟨2, ![1, 1]⟩ : Shape).Idx → α)
    (h : (⟨2, ![1, 1]⟩ : Shape).Broadcasts ⟨2, ![a, b]⟩) (r : Fin a) (c : Fin b) :
    broadcastTo ⟨2, ![a, b]⟩ v h (ix2 r c) = v (ix2 (0 : Fin 1) (0 : Fin 1)) := by
  refine broadcastTo_apply v h (ix2 r c) (ix2 (0 : Fin 1) (0 : Fin 1)) fun ax => ?_
  match ax with
  | ⟨0, _⟩ => rfl
  | ⟨1, _⟩ => rfl

/-- Over the extended reals the sum of an `[a, b]` array along axis 0 is, at column `c`, the sum of that column's `a`
    entries. -/
theorem colSumAB_apply {a b : ℕ} (v : FVec Ideal ⟨2, ![a, b]⟩ .f32) (h : (⟨2, ![a, b]⟩ : Shape).Reduces [0] ⟨1, ![b]⟩)
    (hφ : FKind.Formats .f32) (hacc : (0x00000000#32 : BitVec 32) = 0x00000000#32) (c : Fin b) :
    multiReduction .add [0] ⟨1, ![b]⟩ v 0x00000000#32 h hφ hacc (ix1 c) = ∑ r : Fin a, v (ix2 r c) := by
  refine (Ideal.reduceAdd_single h v (ix1 c)).trans ?_
  refine Finset.sum_congr rfl fun k _ => congrArg v ?_
  funext d
  apply Fin.ext
  match d with
  | ⟨0, _⟩ => rfl
  | ⟨1, _⟩ => rfl

end General

/-! ## Words: coordinates below 512 compared as 32-bit integers, and one-bit conditions -/

theorem ofNat_eq_iff_lt512 (n m : ℕ) (hn : n < 512) (hm : m < 512) :
    (BitVec.ofNat 32 n == BitVec.ofNat 32 m) = decide (n = m) := by
  by_cases h : n = m
  · subst h; simp
  · have : BitVec.ofNat 32 n ≠ BitVec.ofNat 32 m := by
      intro e
      have := congrArg BitVec.toNat e
      simp only [BitVec.toNat_ofNat] at this
      omega
    simp [h, this]

theorem slt_ofNat_lt512 (n m : ℕ) (hn : n < 512) (hm : m < 512) :
    (BitVec.ofNat 32 n).slt (BitVec.ofNat 32 m) = decide (n < m) := by
  have e1 : (BitVec.ofNat 32 n).toInt = n := by
    rw [BitVec.toInt_eq_toNat_cond, BitVec.toNat_ofNat]
    have : n % 2 ^ 32 = n := Nat.mod_eq_of_lt (by omega)
    rw [this, if_pos (by omega)]
  have e2 : (BitVec.ofNat 32 m).toInt = m := by
    rw [BitVec.toInt_eq_toNat_cond, BitVec.toNat_ofNat]
    have : m % 2 ^ 32 = m := Nat.mod_eq_of_lt (by omega)
    rw [this, if_pos (by omega)]
  simp [BitVec.slt, e1, e2]

/-- The equality comparison of two coordinates. -/
theorem cmpi_eq_coord (n m : Fin 512) :
    IntOp.cmpi .eq (BitVec.ofNat 32 n.val) (BitVec.ofNat 32 m.val) = BitVec.ofBool (decide (n = m)) := by
  show BitVec.ofBool (BitVec.ofNat 32 n.val == BitVec.ofNat 32 m.val) = _
  rw [ofNat_eq_iff_lt512 n.val m.val n.isLt m.isLt]
  congr 1
  exact decide_eq_decide.mpr Fin.val_inj

/-- The signed strict comparison of two coordinates. -/
theorem cmpi_slt_coord (n m : Fin 512) :
    IntOp.cmpi .slt (BitVec.ofNat 32 n.val) (BitVec.ofNat 32 m.val) = BitVec.ofBool (decide (n < m)) := by
  show BitVec.ofBool ((BitVec.ofNat 32 n.val).slt (BitVec.ofNat 32 m.val)) = _
  rw [slt_ofNat_lt512 n.val m.val n.isLt m.isLt]
  rfl

theorem select_ofBool {α : Type} (p : Prop) [Decidable p] (a b : α) :
    Scalar.select (BitVec.ofBool (decide p)) a b = if p then a else b := by
  by_cases h : p
  · simp [h, Scalar.select]
  · simp [h, Scalar.select]

theorem andi_ofBool (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

/-! ## The similarity product's dimension numbers -/

abbrev dSS := dot_S512x512_S512x512_S512x512_1_0_0_1_n_n

theorem dSS_rank : dSS.contr.rank = 1 := rfl
theorem dSS_size : dSS.contr.size ⟨0, by rw [dSS_rank]; omega⟩ = 512 := rfl
theorem dSS_l0 (j : S512x512.Idx) (q : dSS.contr.Idx) : (dSS.lhsIdx j q 0).val = (j 0).val := by
  simp [DotDims.lhsIdx, dot_S512x512_S512x512_S512x512_1_0_0_1_n_n]; rfl
theorem dSS_l1 (j : S512x512.Idx) (q : dSS.contr.Idx) : (dSS.lhsIdx j q 1).val = (q ⟨0, by rw [dSS_rank]; omega⟩).val :=
  DotDims.lhsIdx_val_of_single (d := dSS) rfl j q
theorem dSS_r0 (j : S512x512.Idx) (q : dSS.contr.Idx) : (dSS.rhsIdx j q 0).val = (q ⟨0, by rw [dSS_rank]; omega⟩).val :=
  DotDims.rhsIdx_val_of_single (d := dSS) rfl j q
theorem dSS_r1 (j : S512x512.Idx) (q : dSS.contr.Idx) : (dSS.rhsIdx j q 1).val = (j 1).val := by
  simp [DotDims.rhsIdx, dot_S512x512_S512x512_S512x512_1_0_0_1_n_n]; rfl

/-! ## The similarity -/

/-- A row of the features divided by the larger of its norm and the floor. -/
theorem feat_apply (X : FVec Ideal S512x512 .f32) (h1 : S512x512.Reduces [1] S512) (h2 : S512.ShapeCasts S512x1)
    (h3 : S512x1.Broadcasts S512x512) (n k : Fin 512) :
    divf X (broadcastTo S512x512 (maximumf (sqrt (shapeCast S512x1
        (multiReduction .add [1] S512 (mulf X X) 0x00000000#32 h1 (.inl rfl) rfl) h2))
        (broadcast S512x1 (Scalar.ofBits (F := Ideal) .f32 0x2B8CBCCC#32))) h3) (ix2 n k)
      = Cert.Gcn.feat (fun a k => X (ix2 a k)) n k := by
  rw [divf_apply, Cert.Keepdims.broadcastTo_a1_ab_apply, maximumf_apply, broadcast_apply]
  show Ideal.div (X (ix2 n k)) (max (Ideal.sqrt (shapeCast S512x1 _ h2 (ix2 n (0 : Fin 1)))) _) = _
  rw [Cert.Keepdims.shapeCast_a_a1_apply, Cert.Keepdims.rowSum_apply]
  rfl

/-- The similarity: the inner product of two normalized rows. -/
theorem pay4_apply (v0 : Vec Ideal S1x512x512 .f32) (n m : Fin 512) :
    k0_pay4 (F := Ideal) v0 (ix2 n m) = Cert.Gcn.sim (fun a k => v0 (ix3 (0 : Fin 1) a k)) n m := by
  unfold k0_pay4
  refine (matmul_rows' dSS dSS_rank dSS_size dSS_l0 dSS_l1 dSS_r0 dSS_r1 _ _ n m).trans ?_
  unfold Cert.Gcn.sim
  refine Finset.sum_congr rfl fun k _ => ?_
  rw [transpose_ix2_apply, truncf_apply, truncf_apply, feat_apply, feat_apply]
  simp only [pay2_apply]

/-! ## The masks -/

/-- The strict-upper mask: row coordinate below column coordinate. -/
theorem upperMask_apply (h0 : S512x512.Iotas .tc 32 [0]) (h1 : S512x512.Iotas .tc 32 [1]) (n m : Fin 512) :
    cmpi .slt (iota .tc S512x512 32 [0] h0) (iota .tc S512x512 32 [1] h1) (ix2 n m) = BitVec.ofBool (decide (n < m)) := by
  show IntOp.cmpi .slt (iota .tc S512x512 32 [0] h0 (ix2 n m)) (iota .tc S512x512 32 [1] h1 (ix2 n m)) = _
  rw [iota_single_apply, iota_single_apply]
  exact cmpi_slt_coord n m

/-- The diagonal mask: row coordinate equal to column coordinate. -/
theorem pay5_apply (n m : Fin 512) : k0_pay5 (ix2 n m) = BitVec.ofBool (decide (n = m)) := by
  unfold k0_pay5
  show IntOp.cmpi .eq (iota .tc S512x512 32 [0] _ (ix2 n m)) (iota .tc S512x512 32 [1] _ (ix2 n m)) = _
  rw [iota_single_apply, iota_single_apply]
  exact cmpi_eq_coord n m

/-- The similarities strictly above the diagonal, zero elsewhere. -/
theorem upper_apply (A : FVec Ideal S512x512 .f32) (h0 : S512x512.Iotas .tc 32 [0]) (h1 : S512x512.Iotas .tc 32 [1])
    (n m : Fin 512) :
    select (cmpi .slt (iota .tc S512x512 32 [0] h0) (iota .tc S512x512 32 [1] h1)) A
        (broadcast S512x512 (Scalar.ofBits (F := Ideal) .f32 0x00000000#32)) (ix2 n m)
      = if n < m then A (ix2 n m) else 0 := by
  rw [select_apply, upperMask_apply, select_ofBool, broadcast_apply]
  show (if n < m then A (ix2 n m) else Ideal.ofBits .f32 0x00000000#32) = _
  rw [Ideal.ofBits_zero_f32]

/-- One where a similarity strictly above the diagonal is not zero, zero elsewhere. -/
theorem nz_apply (A : FVec Ideal S512x512 .f32) (h0 : S512x512.Iotas .tc 32 [0]) (h1 : S512x512.Iotas .tc 32 [1])
    (n m : Fin 512) :
    select (andi (cmpi .slt (iota .tc S512x512 32 [0] h0) (iota .tc S512x512 32 [1] h1))
          (cmpf .one A (broadcast S512x512 (Scalar.ofBits (F := Ideal) .f32 0x00000000#32))))
        (broadcast S512x512 (Scalar.ofBits (F := Ideal) .f32 0x3F800000#32))
        (broadcast S512x512 (Scalar.ofBits (F := Ideal) .f32 0x00000000#32)) (ix2 n m)
      = if n < m ∧ A (ix2 n m) ≠ 0 then 1 else 0 := by
  rw [select_apply]
  show Scalar.select (IntOp.andi (cmpi .slt _ _ (ix2 n m)) (Ideal.cmp .one (A (ix2 n m)) (Ideal.ofBits .f32 0x00000000#32)))
    (Ideal.ofBits .f32 0x3F800000#32) (Ideal.ofBits .f32 0x00000000#32) = _
  rw [upperMask_apply, Ideal.ofBits_zero_f32, Cert.Gcn.one_word]
  show Scalar.select (IntOp.andi (BitVec.ofBool (decide (n < m))) (BitVec.ofBool (decide (A (ix2 n m) ≠ 0)))) 1 0 = _
  rw [andi_ofBool, select_ofBool]

/-- Row sums viewed as a column, then the column's sum viewed as a `[1, 1]` array: the sum of all entries. -/
theorem total_apply (V : FVec Ideal S512x512 .f32) (h1 : S512x512.Reduces [1] S512) (h2 : S512.ShapeCasts S512x1)
    (h3 : S512x1.Reduces [0] S1) (h4 : S1.ShapeCasts S1x1) (u q : Fin 1) :
    shapeCast S1x1 (multiReduction .add [0] S1 (shapeCast S512x1
        (multiReduction .add [1] S512 V 0x00000000#32 h1 (.inl rfl) rfl) h2) 0x00000000#32 h3 (.inl rfl) rfl) h4 (ix2 u q)
      = ∑ n : Fin 512, ∑ m : Fin 512, V (ix2 n m) := by
  rw [Cert.Keepdims.shapeCast_a_a1_apply, Cert.Keepdims.colSum_apply]
  refine Finset.sum_congr rfl fun n _ => ?_
  rw [Cert.Keepdims.shapeCast_a_a1_apply, Cert.Keepdims.rowSum_apply]

/-! ## The threshold -/

/-- The mask of the similarities below the mean of the strict-upper ones (over the larger of one and the number of
    nonzero ones). -/
theorem thr_apply (A : FVec Ideal S512x512 .f32) (h0 : S512x512.Iotas .tc 32 [0]) (h1 : S512x512.Iotas .tc 32 [1])
    (hr : S512x512.Reduces [1] S512) (hc : S512.ShapeCasts S512x1) (hr' : S512x1.Reduces [0] S1)
    (hc' : S1.ShapeCasts S1x1) (hb : S1x1.Broadcasts S512x512) (n m : Fin 512) :
    cmpf .olt A (broadcastTo S512x512
      (divf
        (shapeCast S1x1 (multiReduction .add [0] S1 (shapeCast S512x1 (multiReduction .add [1] S512
          (select (cmpi .slt (iota .tc S512x512 32 [0] h0) (iota .tc S512x512 32 [1] h1)) A (broadcast S512x512 (Scalar.ofBits (F := Ideal) .f32 0x00000000#32)))
          0x00000000#32 hr (.inl rfl) rfl) hc) 0x00000000#32 hr' (.inl rfl) rfl) hc')
        (maximumf
          (shapeCast S1x1 (multiReduction .add [0] S1 (shapeCast S512x1 (multiReduction .add [1] S512
            (select (andi (cmpi .slt (iota .tc S512x512 32 [0] h0) (iota .tc S512x512 32 [1] h1)) (cmpf .one A (broadcast S512x512 (Scalar.ofBits (F := Ideal) .f32 0x00000000#32)))) (broadcast S512x512 (Scalar.ofBits (F := Ideal) .f32 0x3F800000#32)) (broadcast S512x512 (Scalar.ofBits (F := Ideal) .f32 0x00000000#32)))
            0x00000000#32 hr (.inl rfl) rfl) hc) 0x00000000#32 hr' (.inl rfl) rfl) hc')
          (broadcast S1x1 (Scalar.ofBits (F := Ideal) .f32 0x3F800000#32)))) hb) (ix2 n m)
      = BitVec.ofBool (decide (A (ix2 n m) <
          Ideal.div (∑ n : Fin 512, ∑ m : Fin 512, if n < m then A (ix2 n m) else 0)
            (max (∑ n : Fin 512, ∑ m : Fin 512, if n < m ∧ A (ix2 n m) ≠ 0 then 1 else 0) 1))) := by
  rw [cmpf_apply, broadcastTo_11_ab_apply, divf_apply, maximumf_apply, total_apply, total_apply, broadcast_apply]
  rw [Finset.sum_congr rfl fun x _ => Finset.sum_congr rfl fun y _ => upper_apply A h0 h1 x y,
    Finset.sum_congr rfl fun x _ => Finset.sum_congr rfl fun y _ => nz_apply A h0 h1 x y]
  show Ideal.cmp .olt _ (Ideal.div _ (max _ (Ideal.ofBits .f32 0x3F800000#32))) = _
  rw [Cert.Gcn.one_word]
  rfl

/-- The mask of the similarities below the mean. -/
theorem pay6_apply (v0 : Vec Ideal S1x512x512 .f32) (n m : Fin 512) :
    k0_pay6 (F := Ideal) v0 (ix2 n m)
      = BitVec.ofBool (decide (Cert.Gcn.sim (fun a k => v0 (ix3 (0 : Fin 1) a k)) n m
          < Cert.Gcn.mean (fun a k => v0 (ix3 (0 : Fin 1) a k)))) := by
  unfold k0_pay6
  refine (thr_apply (k0_pay4 v0) _ _ _ _ _ _ _ n m).trans ?_
  simp only [pay4_apply]
  rfl

/-! ## The adjacency and the scaled Laplacian -/

/-- The adjacency: zero on the diagonal; off it, one where the similarity zeroed below the threshold is not zero. -/
theorem adjV_apply (A : FVec Ideal S512x512 .f32) (D T : IVec S512x512 1) (a : Fin 512 → Fin 512 → EReal) (μ : EReal)
    (hA : ∀ n m, A (ix2 n m) = a n m) (hD : ∀ n m, D (ix2 n m) = BitVec.ofBool (decide (n = m)))
    (hT : ∀ n m, T (ix2 n m) = BitVec.ofBool (decide (a n m < μ))) (n m : Fin 512) :
    select D (broadcast S512x512 (Scalar.ofBits (F := Ideal) .f32 0x00000000#32)) (select (cmpf .one (select T (broadcast S512x512 (Scalar.ofBits (F := Ideal) .f32 0x00000000#32)) A) (broadcast S512x512 (Scalar.ofBits (F := Ideal) .f32 0x00000000#32))) (broadcast S512x512 (Scalar.ofBits (F := Ideal) .f32 0x3F800000#32)) (broadcast S512x512 (Scalar.ofBits (F := Ideal) .f32 0x00000000#32))) (ix2 n m)
      = if n = m then 0 else if (if a n m < μ then (0 : EReal) else a n m) ≠ 0 then 1 else 0 := by
  show Scalar.select (D (ix2 n m)) (Ideal.ofBits .f32 0x00000000#32)
    (Scalar.select (Ideal.cmp .one (Scalar.select (T (ix2 n m)) (Ideal.ofBits .f32 0x00000000#32) (A (ix2 n m)))
        (Ideal.ofBits .f32 0x00000000#32))
      (Ideal.ofBits .f32 0x3F800000#32) (Ideal.ofBits .f32 0x00000000#32)) = _
  rw [hD, hT, hA, Ideal.ofBits_zero_f32, Cert.Gcn.one_word, select_ofBool, select_ofBool]
  show (if n = m then 0 else
    Scalar.select (BitVec.ofBool (decide ((if a n m < μ then (0 : EReal) else a n m) ≠ 0))) 1 0) = _
  rw [select_ofBool]

/-- A row's scale: the inverse square root of its sum floored, zero where the sum is not positive. -/
theorem dinvRow_apply (J : FVec Ideal S512x512 .f32) (h1 : S512x512.Reduces [1] S512) (h2 : S512.ShapeCasts S512x1)
    (n : Fin 512) (q : Fin 1) :
    (select (cmpf .ogt (shapeCast S512x1 (multiReduction .add [1] S512 J 0x00000000#32 h1 (.inl rfl) rfl) h2) (broadcast S512x1 (Scalar.ofBits (F := Ideal) .f32 0x00000000#32))) (rsqrt (maximumf (shapeCast S512x1 (multiReduction .add [1] S512 J 0x00000000#32 h1 (.inl rfl) rfl) h2) (broadcast S512x1 (Scalar.ofBits (F := Ideal) .f32 0x2B8CBCCC#32)))) (broadcast S512x1 (Scalar.ofBits (F := Ideal) .f32 0x00000000#32))) (ix2 n q)
      = if 0 < ∑ k : Fin 512, J (ix2 n k) then Ideal.rsqrt (max (∑ k : Fin 512, J (ix2 n k)) Cert.Gcn.epsW) else 0 := by
  show Scalar.select (Ideal.cmp .ogt (shapeCast S512x1 _ h2 (ix2 n q)) (Ideal.ofBits .f32 0x00000000#32))
      (Ideal.rsqrt (max (shapeCast S512x1 _ h2 (ix2 n q)) (Ideal.ofBits .f32 0x2B8CBCCC#32)))
      (Ideal.ofBits .f32 0x00000000#32) = _
  rw [Cert.Keepdims.shapeCast_a_a1_apply, Cert.Keepdims.rowSum_apply, Ideal.ofBits_zero_f32]
  show Scalar.select (BitVec.ofBool (decide (0 < ∑ k : Fin 512, J (ix2 n k)))) _ _ = _
  rw [select_ofBool]
  rfl

/-- A column's scale: the inverse square root of its sum floored, zero where the sum is not positive. -/
theorem dinvCol_apply (J : FVec Ideal S512x512 .f32) (h3 : S512x512.Reduces [0] S512) (h4 : S512.ShapeCasts S1x512)
    (u : Fin 1) (m : Fin 512) :
    (select (cmpf .ogt (shapeCast S1x512 (multiReduction .add [0] S512 J 0x00000000#32 h3 (.inl rfl) rfl) h4) (broadcast S1x512 (Scalar.ofBits (F := Ideal) .f32 0x00000000#32))) (rsqrt (maximumf (shapeCast S1x512 (multiReduction .add [0] S512 J 0x00000000#32 h3 (.inl rfl) rfl) h4) (broadcast S1x512 (Scalar.ofBits (F := Ideal) .f32 0x2B8CBCCC#32)))) (broadcast S1x512 (Scalar.ofBits (F := Ideal) .f32 0x00000000#32))) (ix2 u m)
      = if 0 < ∑ a : Fin 512, J (ix2 a m) then Ideal.rsqrt (max (∑ a : Fin 512, J (ix2 a m)) Cert.Gcn.epsW) else 0 := by
  show Scalar.select (Ideal.cmp .ogt (shapeCast S1x512 _ h4 (ix2 u m)) (Ideal.ofBits .f32 0x00000000#32))
      (Ideal.rsqrt (max (shapeCast S1x512 _ h4 (ix2 u m)) (Ideal.ofBits .f32 0x2B8CBCCC#32)))
      (Ideal.ofBits .f32 0x00000000#32) = _
  rw [shapeCast_a_1a_apply, colSumAB_apply, Ideal.ofBits_zero_f32]
  show Scalar.select (BitVec.ofBool (decide (0 < ∑ a : Fin 512, J (ix2 a m)))) _ _ = _
  rw [select_ofBool]
  rfl

/-- The negated adjacency scaled by its row's and its column's scale. -/
theorem lapV_apply (J : FVec Ideal S512x512 .f32) (j : Fin 512 → Fin 512 → EReal)
    (hJ : ∀ n m, J (ix2 n m) = j n m) (h1 : S512x512.Reduces [1] S512) (h2 : S512.ShapeCasts S512x1)
    (h3 : S512x512.Reduces [0] S512) (h4 : S512.ShapeCasts S1x512) (hb : S512x1.Broadcasts S512x512)
    (hb' : S1x512.Broadcasts S512x512) (hbits : FTy.bits .bf16 < FTy.bits .f32) (n m : Fin 512) :
    truncf .bf16 (subf (broadcast S512x512 (Scalar.ofBits (F := Ideal) .f32 0x00000000#32))
      (mulf (mulf (broadcastTo S512x512 (select (cmpf .ogt (shapeCast S512x1 (multiReduction .add [1] S512 J 0x00000000#32 h1 (.inl rfl) rfl) h2) (broadcast S512x1 (Scalar.ofBits (F := Ideal) .f32 0x00000000#32))) (rsqrt (maximumf (shapeCast S512x1 (multiReduction .add [1] S512 J 0x00000000#32 h1 (.inl rfl) rfl) h2) (broadcast S512x1 (Scalar.ofBits (F := Ideal) .f32 0x2B8CBCCC#32)))) (broadcast S512x1 (Scalar.ofBits (F := Ideal) .f32 0x00000000#32))) hb) J) (broadcastTo S512x512 (select (cmpf .ogt (shapeCast S1x512 (multiReduction .add [0] S512 J 0x00000000#32 h3 (.inl rfl) rfl) h4) (broadcast S1x512 (Scalar.ofBits (F := Ideal) .f32 0x00000000#32))) (rsqrt (maximumf (shapeCast S1x512 (multiReduction .add [0] S512 J 0x00000000#32 h3 (.inl rfl) rfl) h4) (broadcast S1x512 (Scalar.ofBits (F := Ideal) .f32 0x2B8CBCCC#32)))) (broadcast S1x512 (Scalar.ofBits (F := Ideal) .f32 0x00000000#32))) hb'))) hbits (ix2 n m)
      = -((if 0 < ∑ k : Fin 512, j n k then Ideal.rsqrt (max (∑ k : Fin 512, j n k) Cert.Gcn.epsW) else 0)
          * j n m
          * (if 0 < ∑ a : Fin 512, j a m then Ideal.rsqrt (max (∑ a : Fin 512, j a m) Cert.Gcn.epsW) else 0)) := by
  rw [truncf_apply, subf_apply, mulf_apply, mulf_apply, broadcast_apply, Cert.Keepdims.broadcastTo_a1_ab_apply,
    broadcastTo_1b_ab_apply, dinvRow_apply, dinvCol_apply]
  show Ideal.ofBits .f32 0x00000000#32 - _ = _
  rw [Ideal.ofBits_zero_f32, sub_eq_add_neg, zero_add, hJ,
    Finset.sum_congr rfl fun k _ => hJ n k, Finset.sum_congr rfl fun a _ => hJ a m]

/-- The kernel's Laplacian is the specification's. -/
theorem pay7_apply (v0 : Vec Ideal S1x512x512 .f32) (n m : Fin 512) :
    k0_pay7 (F := Ideal) (k0_pay4 v0) k0_pay5 (k0_pay6 v0) (ix2 n m)
      = Cert.Gcn.lap (fun a k => v0 (ix3 (0 : Fin 1) a k)) n m := by
  unfold k0_pay7
  refine (lapV_apply _ (Cert.Gcn.adj (fun a k => v0 (ix3 (0 : Fin 1) a k)))
    (fun p q => adjV_apply (k0_pay4 v0) k0_pay5 (k0_pay6 v0) (Cert.Gcn.sim (fun a k => v0 (ix3 (0 : Fin 1) a k)))
      (Cert.Gcn.mean (fun a k => v0 (ix3 (0 : Fin 1) a k))) (pay4_apply v0) pay5_apply (pay6_apply v0) p q)
    _ _ _ _ _ _ _ n m).trans ?_
  rw [Cert.Gcn.deg_col]
  rfl

end Cert.KernelIdeal.KGraph

end
-- ==== Proof.LibRowForms.lean ====
/-
  Row forms of two-dimensional arrays read at an index, over any number of rows: a bias vector laid along every row, one
  column cut out of an array and flattened, sixteen one-column arrays joined side by side, and two arrays joined side by
  side. In each case the entry at row `r` depends only on row `r` of the operands. Two facts about tables of sixteen
  entries close the file.
-/
import Idealize.ShloMosaic.Lib.Pipeline.Value
import Idealize.ShloMosaic.Lib.ValueIdx

noncomputable section

namespace Cert.RowForms

open Idealize.ShloMosaic Idealize.ShloMosaic.ValueIdx

variable {α : Type}

/-- A length-`m` vector viewed as a `[1, m]` row and repeated down the `n` rows of an `[n, m]` array reads, at `(r, c)`,
    the vector at `c`. -/
theorem rowBias_apply {n m : ℕ} (b : (⟨1, ![m]⟩ : Shape).Idx → α)
    (h1 : (⟨1, ![m]⟩ : Shape).ShapeCasts ⟨2, ![1, m]⟩) (h2 : (⟨2, ![1, m]⟩ : Shape).Broadcasts ⟨2, ![n, m]⟩)
    (r : Fin n) (c : Fin m) :
    broadcastTo ⟨2, ![n, m]⟩ (shapeCast ⟨2, ![1, m]⟩ b h1) h2 (ix2 r c) = b (ix1 c) := by
  refine (broadcastTo_apply _ h2 (ix2 r c) (ix2 (0 : Fin 1) c) fun a => ?_).trans ?_
  · match a with
    | ⟨0, _⟩ =>
      show (0 : ℕ) = if (1 : ℕ) = 1 then 0 else r.val
      rw [if_pos rfl]
    | ⟨1, _⟩ =>
      show c.val = if m = 1 then 0 else c.val
      split
      · have := c.isLt; omega
      · rfl
  · refine shapeCast_apply b h1 _ (ix1 c) ?_
    rw [Shape.rowMajor_val_one, Shape.rowMajor_val_two]
    show c.val = 0 * m + c.val
    omega

/-- Column `o` cut out of an `[n, w]` array as an `[n, 1]` slice and flattened to a length-`n` vector reads, at `r`, the
    array at `(r, o)`. -/
theorem sliceCol_apply {n w : ℕ} (x : (⟨2, ![n, w]⟩ : Shape).Idx → α) (o : ℕ) (ho : o < w)
    (hs : (⟨2, ![n, w]⟩ : Shape).Slices ![0, o] ⟨2, ![n, 1]⟩)
    (hc : (⟨2, ![n, 1]⟩ : Shape).ShapeCasts ⟨1, ![n]⟩) (r : Fin n) :
    shapeCast ⟨1, ![n]⟩ (extractStridedSlice ⟨2, ![n, 1]⟩ ![0, o] x hs) hc (ix1 r) = x (ix2 r ⟨o, ho⟩) := by
  refine (shapeCast_apply _ hc (ix1 r) (ix2 r (0 : Fin 1)) ?_).trans ?_
  · rw [Shape.rowMajor_val_one, Shape.rowMajor_val_two]
    show r.val * 1 + 0 = r.val
    omega
  · refine extractStridedSlice_apply ![0, o] x hs _ (ix2 r ⟨o, ho⟩) fun a => ?_
    match a with
    | ⟨0, _⟩ => show r.val = 0 + r.val; omega
    | ⟨1, _⟩ => show o = o + 0; omega

/-- Sixteen `[n, 1]` columns joined side by side into an `[n, 16]` array read, at `(r, q)`, column `q` at row `r`. -/
theorem concatCols16_apply {n : ℕ} (f : Fin 16 → ((⟨2, ![n, 1]⟩ : Shape).Idx → α))
    (h : Shape.Concatenates ((List.ofFn fun k : Fin 16 => (⟨⟨2, ![n, 1]⟩, f k⟩ : (s : Shape) × (s.Idx → α))).map (·.1))
      ⟨2, ![n, 16]⟩ 1) (r : Fin n) (q : Fin 16) :
    concatenate ⟨2, ![n, 16]⟩ 1 (List.ofFn fun k : Fin 16 => (⟨⟨2, ![n, 1]⟩, f k⟩ : (s : Shape) × (s.Idx → α))) h (ix2 r q)
      = f q (ix2 r (0 : Fin 1)) :=
  concatenate_ofFn_unit_apply (t := ⟨2, ![n, 16]⟩) (s₁ := ⟨2, ![n, 1]⟩) 1 f h rfl rfl (ix2 r q) q rfl (ix2 r (0 : Fin 1))
    (fun b hb => by
      match b with
      | ⟨0, _⟩ => rfl
      | ⟨1, _⟩ => exact absurd rfl hb)

/-- An `[n, a]` array and an `[n, b]` array joined side by side read, at a column below `a`, the first array there. -/
theorem concatPair_apply_left {n a b c : ℕ} (x₁ : (⟨2, ![n, a]⟩ : Shape).Idx → α) (x₂ : (⟨2, ![n, b]⟩ : Shape).Idx → α)
    (h : Shape.Concatenates [⟨2, ![n, a]⟩, ⟨2, ![n, b]⟩] ⟨2, ![n, c]⟩ 1) (r : Fin n) (k : Fin c) (hk : k.val < a) :
    concatenate ⟨2, ![n, c]⟩ 1 [⟨⟨2, ![n, a]⟩, x₁⟩, ⟨⟨2, ![n, b]⟩, x₂⟩] h (ix2 r k) = x₁ (ix2 r ⟨k.val, hk⟩) :=
  concatenate_pair_apply_left (t := ⟨2, ![n, c]⟩) (s₁ := ⟨2, ![n, a]⟩) (s₂ := ⟨2, ![n, b]⟩) 1 x₁ x₂ h (ix2 r k) rfl
    (ix2 r ⟨k.val, hk⟩) (fun d => by
      match d with
      | ⟨0, _⟩ => rfl
      | ⟨1, _⟩ => rfl)

/-- and, at a column from `a` on, the second array at that column less `a`. -/
theorem concatPair_apply_right {n a b c : ℕ} (x₁ : (⟨2, ![n, a]⟩ : Shape).Idx → α) (x₂ : (⟨2, ![n, b]⟩ : Shape).Idx → α)
    (h : Shape.Concatenates [⟨2, ![n, a]⟩, ⟨2, ![n, b]⟩] ⟨2, ![n, c]⟩ 1) (r : Fin n) (k : Fin c) (hk : a ≤ k.val)
    (hb : k.val - a < b) :
    concatenate ⟨2, ![n, c]⟩ 1 [⟨⟨2, ![n, a]⟩, x₁⟩, ⟨⟨2, ![n, b]⟩, x₂⟩] h (ix2 r k) = x₂ (ix2 r ⟨k.val - a, hb⟩) :=
  concatenate_pair_apply_right (t := ⟨2, ![n, c]⟩) (s₁ := ⟨2, ![n, a]⟩) (s₂ := ⟨2, ![n, b]⟩) 1 x₁ x₂ h (ix2 r k) rfl rfl
    (ix2 r ⟨k.val - a, hb⟩) (fun d hd => by
      match d with
      | ⟨0, _⟩ => rfl
      | ⟨1, _⟩ => exact absurd rfl hd)
    (by show k.val - a + a = k.val; omega)

/-- Sixteen functions tabulated and then applied at one point are the table of their values there. -/
theorem eval16 {β γ : Type} (w0 w1 w2 w3 w4 w5 w6 w7 w8 w9 w10 w11 w12 w13 w14 w15 : β → γ) (i : β) (q : Fin 16) :
    (![w0, w1, w2, w3, w4, w5, w6, w7, w8, w9, w10, w11, w12, w13, w14, w15] q) i = ![w0 i, w1 i, w2 i, w3 i, w4 i, w5 i, w6 i, w7 i, w8 i, w9 i, w10 i, w11 i, w12 i, w13 i, w14 i, w15 i] q := by
  fin_cases q <;> rfl

/-- Two tables of sixteen entries that agree entry by entry are equal. -/
theorem ext16 {γ : Type} (a b : Fin 16 → γ) (h0 : a 0 = b 0) (h1 : a 1 = b 1) (h2 : a 2 = b 2) (h3 : a 3 = b 3) (h4 : a 4 = b 4) (h5 : a 5 = b 5) (h6 : a 6 = b 6) (h7 : a 7 = b 7) (h8 : a 8 = b 8) (h9 : a 9 = b 9) (h10 : a 10 = b 10) (h11 : a 11 = b 11) (h12 : a 12 = b 12) (h13 : a 13 = b 13) (h14 : a 14 = b 14) (h15 : a 15 = b 15) : a = b := by
  funext q
  fin_cases q
  exacts [h0, h1, h2, h3, h4, h5, h6, h7, h8, h9, h10, h11, h12, h13, h14, h15]

end Cert.RowForms

end
-- ==== Proof.KCheb.lean ====
/-
  The two Chebyshev layers and the stored block of the graph-convolution kernel, over the extended reals.

  Given that the kernel's scaled Laplacian `S` is the specification's `lap` (a hypothesis here), every later value of the
  kernel body is read at one index and identified with the specification's: a propagation step is the matrix product
  `(S x) n d = ∑ k, S n k · x k d` (a product into a zero accumulator; the narrower format of the operands rounds
  nothing over the extended reals); the third Chebyshev operand is `2 · S (S x) − x`; a layer is
  `max (x·w₀ + (S x)·w₁ + (2 S (S x) − x)·w₂ + b) 0`, each `wᵢ` a slab cut from the `[3, 128, 128]` weights and the bias
  laid along every row; the second layer repeats the first on the first layer's result; and the stored `[1, 512, 640]`
  block is the second layer's 128 columns followed by the 512 columns of the node features.
-/
import proofs.«170040_j60687887892590_1_alg».proof.Proof.Gen.KernelIdeal.Skeleton
import proofs.«170040_j60687887892590_1_alg».proof.Proof.Spec
import proofs.«170040_j60687887892590_1_alg».proof.Proof.LibDense
import proofs.«170040_j60687887892590_1_alg».proof.Proof.LibRowForms
import Idealize.ShloMosaic.Lib.ValueLayout

set_option synthInstance.maxSize 4096

noncomputable section

namespace Cert.KernelIdeal.KCheb

open Cert.KernelIdeal Cert.KernelIdeal.Gen Idealize.ShloMosaic Idealize.ShloMosaic.ValueIdx

/-! ### The two dimension records' coordinates -/

abbrev DS := dot_S512x512_S512x128_S512x128_1_0_0_1_n_n
abbrev DW := dot_S512x128_S128x128_S512x128_1_0_0_1_n_n

theorem DS_l0 (j : S512x128.Idx) (q : DS.contr.Idx) : (DS.lhsIdx j q 0).val = (j 0).val := by
  simp [DotDims.lhsIdx, DS, dot_S512x512_S512x128_S512x128_1_0_0_1_n_n]; rfl
theorem DS_l1 (j : S512x128.Idx) (q : DS.contr.Idx) : (DS.lhsIdx j q 1).val = (q ⟨0, by decide⟩).val := by
  simp [DotDims.lhsIdx, DS, dot_S512x512_S512x128_S512x128_1_0_0_1_n_n]; rfl
theorem DS_r0 (j : S512x128.Idx) (q : DS.contr.Idx) : (DS.rhsIdx j q 0).val = (q ⟨0, by decide⟩).val := by
  simp [DotDims.rhsIdx, DS, dot_S512x512_S512x128_S512x128_1_0_0_1_n_n]; rfl
theorem DS_r1 (j : S512x128.Idx) (q : DS.contr.Idx) : (DS.rhsIdx j q 1).val = (j 1).val := by
  simp [DotDims.rhsIdx, DS, dot_S512x512_S512x128_S512x128_1_0_0_1_n_n]; rfl

theorem DW_l0 (j : S512x128.Idx) (q : DW.contr.Idx) : (DW.lhsIdx j q 0).val = (j 0).val := by
  simp [DotDims.lhsIdx, DW, dot_S512x128_S128x128_S512x128_1_0_0_1_n_n]; rfl
theorem DW_l1 (j : S512x128.Idx) (q : DW.contr.Idx) : (DW.lhsIdx j q 1).val = (q ⟨0, by decide⟩).val := by
  simp [DotDims.lhsIdx, DW, dot_S512x128_S128x128_S512x128_1_0_0_1_n_n]; rfl
theorem DW_r0 (j : S512x128.Idx) (q : DW.contr.Idx) : (DW.rhsIdx j q 0).val = (q ⟨0, by decide⟩).val := by
  simp [DotDims.rhsIdx, DW, dot_S512x128_S128x128_S512x128_1_0_0_1_n_n]; rfl
theorem DW_r1 (j : S512x128.Idx) (q : DW.contr.Idx) : (DW.rhsIdx j q 1).val = (j 1).val := by
  simp [DotDims.rhsIdx, DW, dot_S512x128_S128x128_S512x128_1_0_0_1_n_n]; rfl

/-- A product into a zero accumulator at `(p, q)`, whatever the operands' formats: over the extended reals the formats
    carry no rounding, so the entry is the sum over `k` of `x p k · w k q`. -/
theorem mm_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl0 : ∀ (j : (⟨2, ![R, N]⟩ : Shape).Idx) (q : d.contr.Idx), (d.lhsIdx j q 0).val = (j 0).val)
    (hl1 : ∀ (j : (⟨2, ![R, N]⟩ : Shape).Idx) (q : d.contr.Idx), (d.lhsIdx j q 1).val = (q ⟨0, by omega⟩).val)
    (hr0 : ∀ (j : (⟨2, ![R, N]⟩ : Shape).Idx) (q : d.contr.Idx), (d.rhsIdx j q 0).val = (q ⟨0, by omega⟩).val)
    (hr1 : ∀ (j : (⟨2, ![R, N]⟩ : Shape).Idx) (q : d.contr.Idx), (d.rhsIdx j q 1).val = (j 1).val)
    (x : FVec Ideal ⟨2, ![R, K]⟩ φ₁) (w : FVec Ideal ⟨2, ![K, N]⟩ φ₂) (p : Fin R) (q : Fin N) :
    matmul d none x w (constant (F := Ideal) ⟨2, ![R, N]⟩ .f32 0x00000000#32) (ix2 p q) = ∑ k : Fin K, x (ix2 p k) * w (ix2 k q) :=
  Cert.Dense.matmul_rows d hr hs hl0 hl1 hr0 hr1 x w p q

/-- The Laplacian-sized product: `[512, 512] × [512, 128]`. -/
theorem mmS_apply {φ₁ φ₂ : FTy} (s : FVec Ideal S512x512 φ₁) (x : FVec Ideal S512x128 φ₂) (n : Fin 512) (d : Fin 128) :
    matmul DS none s x (constant (F := Ideal) S512x128 .f32 0x00000000#32) (ix2 n d) = ∑ k : Fin 512, s (ix2 n k) * x (ix2 k d) :=
  mm_apply DS rfl rfl DS_l0 DS_l1 DS_r0 DS_r1 s x n d

/-- The weight-sized product: `[512, 128] × [128, 128]`. -/
theorem mmW_apply {φ₁ φ₂ : FTy} (x : FVec Ideal S512x128 φ₁) (w : FVec Ideal S128x128 φ₂) (n : Fin 512) (j : Fin 128) :
    matmul DW none x w (constant (F := Ideal) S512x128 .f32 0x00000000#32) (ix2 n j) = ∑ d : Fin 128, x (ix2 n d) * w (ix2 d j) :=
  mm_apply DW rfl rfl DW_l0 DW_l1 DW_r0 DW_r1 x w n j

/-- Slab `o` of the three weight matrices, cut out and viewed as a `[128, 128]` matrix. -/
theorem wslice_apply (v : Vec Ideal S3x128x128 .f32) (o : ℕ) (ho : o < 3) (hs : S3x128x128.Slices ![o, 0, 0] S1x128x128)
    (hc : S1x128x128.ShapeCasts S128x128) (d j : Fin 128) :
    shapeCast S128x128 (extractStridedSlice S1x128x128 ![o, 0, 0] v hs) hc (ix2 d j) = v (ix3 (⟨o, ho⟩ : Fin 3) d j) := by
  refine (shapeCast_1ab_ab_apply _ hc d j).trans ?_
  refine extractStridedSlice_apply _ v hs _ _ fun a => ?_
  match a with
  | ⟨0, _⟩ => show o = o + 0; omega
  | ⟨1, _⟩ => show d.val = 0 + d.val; omega
  | ⟨2, _⟩ => show j.val = 0 + j.val; omega

/-- One of a layer's three products: an array times slab `o` of the weights. -/
theorem term_apply {φ : FTy} (x : FVec Ideal S512x128 φ) (v : Vec Ideal S3x128x128 .f32) (o : ℕ) (ho : o < 3)
    (hs : S3x128x128.Slices ![o, 0, 0] S1x128x128) (hc : S1x128x128.ShapeCasts S128x128) (hb : FTy.bits .bf16 < FTy.bits .f32)
    (n : Fin 512) (j : Fin 128) :
    matmul DW none x (truncf .bf16 (shapeCast S128x128 (extractStridedSlice S1x128x128 ![o, 0, 0] v hs) hc) hb)
        (constant (F := Ideal) S512x128 .f32 0x00000000#32) (ix2 n j)
      = ∑ d : Fin 128, x (ix2 n d) * v (ix3 (⟨o, ho⟩ : Fin 3) d j) := by
  refine (mmW_apply _ _ n j).trans (Finset.sum_congr rfl fun d _ => ?_)
  exact congrArg (x (ix2 n d) * ·) (wslice_apply v o ho hs hc d j)

/-! ### The payloads read at an index -/

/-- The `[1, 512, 512]` block of node features viewed as a matrix. -/
theorem pay2_apply (x0 : Vec Ideal S1x512x512 .f32) (n k : Fin 512) :
    k0_pay2 (F := Ideal) x0 (ix2 n k) = x0 (ix3 (0 : Fin 1) n k) := by
  unfold k0_pay2
  exact shapeCast_1ab_ab_apply x0 _ n k

/-- The `[1, 512, 128]` block of inputs viewed as a matrix. -/
theorem pay3_apply (x1 : Vec Ideal S1x512x128 .f32) (n : Fin 512) (d : Fin 128) :
    k0_pay3 (F := Ideal) x1 (ix2 n d) = x1 (ix3 (0 : Fin 1) n d) := by
  unfold k0_pay3
  exact shapeCast_1ab_ab_apply x1 _ n d

/-- One propagation step of the kernel: the scaled Laplacian applied to the input's columns. -/
theorem pay8_apply (v3 : FVec Ideal S512x128 .f32) (v15 : FVec Ideal S512x512 .f32) (v19 v40 : IVec S512x512 1)
    (n : Fin 512) (d : Fin 128) :
    k0_pay8 (F := Ideal) v3 v15 v19 v40 (ix2 n d)
      = ∑ k : Fin 512, k0_pay7 (F := Ideal) v15 v19 v40 (ix2 n k) * v3 (ix2 k d) := by
  unfold k0_pay8
  exact mmS_apply _ _ n d

/-- The third Chebyshev operand: twice the Laplacian applied to the propagated input, less the input. -/
theorem pay9_apply (v3 : FVec Ideal S512x128 .f32) (v15 : FVec Ideal S512x512 .f32) (v19 v40 : IVec S512x512 1)
    (n : Fin 512) (d : Fin 128) :
    k0_pay9 (F := Ideal) v3 v15 v19 v40 (ix2 n d)
      = Cert.Gcn.twoW * (∑ k : Fin 512, k0_pay7 (F := Ideal) v15 v19 v40 (ix2 n k) * k0_pay8 (F := Ideal) v3 v15 v19 v40 (ix2 k d))
        - v3 (ix2 n d) := by
  unfold k0_pay9
  refine (subf_apply _ _ _).trans ?_
  refine congrArg (· - v3 (ix2 n d)) ?_
  refine (mulf_apply _ _ _).trans ?_
  refine congrArg (Cert.Gcn.twoW * ·) ?_
  exact mmS_apply _ _ n d

/-- A layer of the kernel: the three products summed, the bias laid along every row, the positive part. -/
theorem pay10_apply (v3 v76 v81 : FVec Ideal S512x128 .f32) (v82 : Vec Ideal S3x128x128 .f32) (v83 : Vec Ideal S128 .f32)
    (n : Fin 512) (j : Fin 128) :
    k0_pay10 (F := Ideal) v3 v76 v81 v82 v83 (ix2 n j)
      = max ((∑ d : Fin 128, v3 (ix2 n d) * v82 (ix3 (0 : Fin 3) d j)) + (∑ d : Fin 128, v76 (ix2 n d) * v82 (ix3 (1 : Fin 3) d j))
          + (∑ d : Fin 128, v81 (ix2 n d) * v82 (ix3 (2 : Fin 3) d j)) + v83 (ix1 j)) 0 := by
  unfold k0_pay10
  refine (maximumf_apply _ _ _).trans ?_
  refine congrArg₂ max ?_ Ideal.ofBits_zero_f32
  refine (addf_apply _ _ _).trans ?_
  refine congrArg₂ (· + ·) ?_ (Cert.RowForms.rowBias_apply v83 _ _ n j)
  refine (addf_apply _ _ _).trans ?_
  refine congrArg₂ (· + ·) ?_ (term_apply _ v82 2 (by decide) _ _ _ n j)
  refine (addf_apply _ _ _).trans ?_
  exact congrArg₂ (· + ·) (term_apply _ v82 0 (by decide) _ _ _ n j) (term_apply _ v82 1 (by decide) _ _ _ n j)

/-- The second layer's propagation step: the Laplacian applied to the first layer's result. -/
theorem pay11_apply (v3 : FVec Ideal S512x128 .f32) (v74 : FVec Ideal S512x512 .bf16) (v76 v81 : FVec Ideal S512x128 .f32)
    (v82 : Vec Ideal S3x128x128 .f32) (v83 : Vec Ideal S128 .f32) (n : Fin 512) (d : Fin 128) :
    k0_pay11 (F := Ideal) v3 v74 v76 v81 v82 v83 (ix2 n d)
      = ∑ k : Fin 512, v74 (ix2 n k) * k0_pay10 (F := Ideal) v3 v76 v81 v82 v83 (ix2 k d) := by
  unfold k0_pay11
  exact mmS_apply _ _ n d

/-- The second layer's first two products, summed. -/
theorem pay12_apply (v3 : FVec Ideal S512x128 .f32) (v74 : FVec Ideal S512x512 .bf16) (v76 v81 : FVec Ideal S512x128 .f32)
    (v82 : Vec Ideal S3x128x128 .f32) (v83 : Vec Ideal S128 .f32) (v113 : Vec Ideal S3x128x128 .f32) (n : Fin 512) (j : Fin 128) :
    k0_pay12 (F := Ideal) v3 v74 v76 v81 v82 v83 v113 (ix2 n j)
      = (∑ d : Fin 128, k0_pay10 (F := Ideal) v3 v76 v81 v82 v83 (ix2 n d) * v113 (ix3 (0 : Fin 3) d j))
        + (∑ d : Fin 128, k0_pay11 (F := Ideal) v3 v74 v76 v81 v82 v83 (ix2 n d) * v113 (ix3 (1 : Fin 3) d j)) := by
  unfold k0_pay12
  refine (addf_apply _ _ _).trans ?_
  exact congrArg₂ (· + ·) (term_apply _ v113 0 (by decide) _ _ _ n j) (term_apply _ v113 1 (by decide) _ _ _ n j)

/-- The second layer's third operand. -/
theorem pay13_apply (v3 : FVec Ideal S512x128 .f32) (v74 : FVec Ideal S512x512 .bf16) (v76 v81 : FVec Ideal S512x128 .f32)
    (v82 : Vec Ideal S3x128x128 .f32) (v83 : Vec Ideal S128 .f32) (n : Fin 512) (d : Fin 128) :
    k0_pay13 (F := Ideal) v3 v74 v76 v81 v82 v83 (ix2 n d)
      = Cert.Gcn.twoW * (∑ k : Fin 512, v74 (ix2 n k) * k0_pay11 (F := Ideal) v3 v74 v76 v81 v82 v83 (ix2 k d))
        - k0_pay10 (F := Ideal) v3 v76 v81 v82 v83 (ix2 n d) := by
  unfold k0_pay13
  refine (subf_apply _ _ _).trans ?_
  refine congrArg (· - k0_pay10 (F := Ideal) v3 v76 v81 v82 v83 (ix2 n d)) ?_
  refine (mulf_apply _ _ _).trans ?_
  refine congrArg (Cert.Gcn.twoW * ·) ?_
  exact mmS_apply _ _ n d

/-- The stored block at a column below 128: the second layer's entry. -/
theorem pay1_apply_left (v1 : FVec Ideal S512x512 .f32) (v113 : Vec Ideal S3x128x128 .f32) (v114 : Vec Ideal S128 .f32)
    (v125 : FVec Ideal S512x128 .f32) (v126 : FVec Ideal S512x128 .bf16) (n : Fin 512) (j : Fin 640) (h : j.val < 128) :
    k0_pay1 (F := Ideal) v1 v113 v114 v125 v126 (ix3 (0 : Fin 1) n j)
      = max (v125 (ix2 n ⟨j.val, h⟩) + (∑ d : Fin 128, v126 (ix2 n d) * v113 (ix3 (2 : Fin 3) d ⟨j.val, h⟩)) + v114 (ix1 ⟨j.val, h⟩)) 0 := by
  unfold k0_pay1
  refine (shapeCast_ab_1ab_apply _ _ (0 : Fin 1) n j).trans ?_
  refine (Cert.RowForms.concatPair_apply_left _ _ _ n j h).trans ?_
  refine (maximumf_apply _ _ _).trans ?_
  refine congrArg₂ max ?_ Ideal.ofBits_zero_f32
  refine (addf_apply _ _ _).trans ?_
  refine congrArg₂ (· + ·) ?_ (Cert.RowForms.rowBias_apply v114 _ _ n ⟨j.val, h⟩)
  refine (addf_apply _ _ _).trans ?_
  exact congrArg (v125 (ix2 n ⟨j.val, h⟩) + ·) (term_apply _ v113 2 (by decide) _ _ _ n ⟨j.val, h⟩)

/-- The stored block at a column from 128 on: the node features. -/
theorem pay1_apply_right (v1 : FVec Ideal S512x512 .f32) (v113 : Vec Ideal S3x128x128 .f32) (v114 : Vec Ideal S128 .f32)
    (v125 : FVec Ideal S512x128 .f32) (v126 : FVec Ideal S512x128 .bf16) (n : Fin 512) (j : Fin 640) (h : ¬ j.val < 128) :
    k0_pay1 (F := Ideal) v1 v113 v114 v125 v126 (ix3 (0 : Fin 1) n j)
      = v1 (ix2 n ⟨j.val - 128, by have := j.isLt; omega⟩) := by
  unfold k0_pay1
  refine (shapeCast_ab_1ab_apply _ _ (0 : Fin 1) n j).trans ?_
  exact Cert.RowForms.concatPair_apply_right _ _ _ n j (by omega) (by have := j.isLt; omega)

/-! ### The payloads against the specification -/

section Spec
variable (L : Fin 512 → Fin 512 → EReal)

/-- The kernel's propagation step is the specification's, once its Laplacian operand is `L` and its input `X`. -/
theorem prop_of (v3 : FVec Ideal S512x128 .f32) (v15 : FVec Ideal S512x512 .f32) (v19 v40 : IVec S512x512 1)
    (hS : ∀ n m : Fin 512, k0_pay7 (F := Ideal) v15 v19 v40 (ix2 n m) = L n m)
    (X : Fin 512 → Fin 128 → EReal) (h3 : ∀ (n : Fin 512) (d : Fin 128), v3 (ix2 n d) = X n d) (n : Fin 512) (d : Fin 128) :
    k0_pay8 (F := Ideal) v3 v15 v19 v40 (ix2 n d) = Cert.Gcn.prop L X n d := by
  rw [pay8_apply]
  unfold Cert.Gcn.prop
  exact Finset.sum_congr rfl fun k _ => by rw [hS, h3]

/-- The kernel's third operand is the specification's `2 L (L X) − X`. -/
theorem third_of (v3 : FVec Ideal S512x128 .f32) (v15 : FVec Ideal S512x512 .f32) (v19 v40 : IVec S512x512 1)
    (hS : ∀ n m : Fin 512, k0_pay7 (F := Ideal) v15 v19 v40 (ix2 n m) = L n m)
    (X : Fin 512 → Fin 128 → EReal) (h3 : ∀ (n : Fin 512) (d : Fin 128), v3 (ix2 n d) = X n d) (n : Fin 512) (d : Fin 128) :
    k0_pay9 (F := Ideal) v3 v15 v19 v40 (ix2 n d)
      = Cert.Gcn.twoW * Cert.Gcn.prop L (Cert.Gcn.prop L X) n d - X n d := by
  rw [pay9_apply, h3 n d]
  simp only [hS, prop_of L v3 v15 v19 v40 hS X h3]
  rfl

/-- A layer of the kernel is a layer of the specification, once its three operands are the specification's. -/
theorem layer_of (v3 v76 v81 : FVec Ideal S512x128 .f32) (v82 : Vec Ideal S3x128x128 .f32) (v83 : Vec Ideal S128 .f32)
    (X : Fin 512 → Fin 128 → EReal) (h3 : ∀ (n : Fin 512) (d : Fin 128), v3 (ix2 n d) = X n d)
    (h76 : ∀ (n : Fin 512) (d : Fin 128), v76 (ix2 n d) = Cert.Gcn.prop L X n d)
    (h81 : ∀ (n : Fin 512) (d : Fin 128), v81 (ix2 n d) = Cert.Gcn.twoW * Cert.Gcn.prop L (Cert.Gcn.prop L X) n d - X n d)
    (n : Fin 512) (j : Fin 128) :
    k0_pay10 (F := Ideal) v3 v76 v81 v82 v83 (ix2 n j)
      = Cert.Gcn.layer L X (fun i a c => v82 (ix3 i a c)) (fun a => v83 (ix1 a)) n j := by
  rw [pay10_apply]
  simp only [h3, h76, h81]
  rfl

/-- The stored block's first 128 columns are the second layer over the first. -/
theorem second_of (v1 : FVec Ideal S512x512 .f32) (v3 : FVec Ideal S512x128 .f32) (v74 : FVec Ideal S512x512 .bf16)
    (v76 v81 : FVec Ideal S512x128 .f32) (v82 v113 : Vec Ideal S3x128x128 .f32) (v83 v114 : Vec Ideal S128 .f32)
    (hS : ∀ n m : Fin 512, v74 (ix2 n m) = L n m)
    (X : Fin 512 → Fin 128 → EReal) (h3 : ∀ (n : Fin 512) (d : Fin 128), v3 (ix2 n d) = X n d)
    (h76 : ∀ (n : Fin 512) (d : Fin 128), v76 (ix2 n d) = Cert.Gcn.prop L X n d)
    (h81 : ∀ (n : Fin 512) (d : Fin 128), v81 (ix2 n d) = Cert.Gcn.twoW * Cert.Gcn.prop L (Cert.Gcn.prop L X) n d - X n d)
    (n : Fin 512) (j : Fin 640) (h : j.val < 128) :
    k0_pay1 (F := Ideal) v1 v113 v114 (k0_pay12 v3 v74 v76 v81 v82 v83 v113) (k0_pay13 v3 v74 v76 v81 v82 v83) (ix3 (0 : Fin 1) n j)
      = Cert.Gcn.layer L (Cert.Gcn.layer L X (fun i a c => v82 (ix3 i a c)) (fun a => v83 (ix1 a)))
          (fun i a c => v113 (ix3 i a c)) (fun a => v114 (ix1 a)) n ⟨j.val, h⟩ := by
  rw [pay1_apply_left _ _ _ _ _ n j h, pay12_apply]
  simp only [pay13_apply, pay11_apply, hS, layer_of L v3 v76 v81 v82 v83 X h3 h76 h81]
  rfl

end Spec

/-- The stored block is the specification's result row: the second layer's 128 entries, then the node features' 512. -/
theorem out_apply (x0 : Vec Ideal S1x512x512 .f32) (x1 : Vec Ideal S1x512x128 .f32) (x2 : Vec Ideal S3x128x128 .f32) (x3 : Vec Ideal S128 .f32)
    (x4 : Vec Ideal S3x128x128 .f32) (x5 : Vec Ideal S128 .f32)
    (hL : ∀ n m : Fin 512, k0_pay7 (F := Ideal) (k0_pay4 x0) k0_pay5 (k0_pay6 x0) (ix2 n m) = Cert.Gcn.lap (fun a k => x0 (ix3 (0 : Fin 1) a k)) n m)
    (n : Fin 512) (j : Fin 640) :
    k0_pay1 (F := Ideal) (k0_pay2 x0) x4 x5
        (k0_pay12 (k0_pay3 x1) (k0_pay7 (k0_pay4 x0) k0_pay5 (k0_pay6 x0)) (k0_pay8 (k0_pay3 x1) (k0_pay4 x0) k0_pay5 (k0_pay6 x0))
          (k0_pay9 (k0_pay3 x1) (k0_pay4 x0) k0_pay5 (k0_pay6 x0)) x2 x3 x4)
        (k0_pay13 (k0_pay3 x1) (k0_pay7 (k0_pay4 x0) k0_pay5 (k0_pay6 x0)) (k0_pay8 (k0_pay3 x1) (k0_pay4 x0) k0_pay5 (k0_pay6 x0))
          (k0_pay9 (k0_pay3 x1) (k0_pay4 x0) k0_pay5 (k0_pay6 x0)) x2 x3)
        (ix3 (0 : Fin 1) n j)
      = Cert.Gcn.out (fun a k => x0 (ix3 (0 : Fin 1) a k)) (fun a d => x1 (ix3 (0 : Fin 1) a d))
          (fun i a c => x2 (ix3 i a c)) (fun a => x3 (ix1 a)) (fun i a c => x4 (ix3 i a c)) (fun a => x5 (ix1 a)) n j := by
  have h3 : ∀ (a : Fin 512) (d : Fin 128), k0_pay3 (F := Ideal) x1 (ix2 a d) = x1 (ix3 (0 : Fin 1) a d) :=
    fun a d => pay3_apply x1 a d
  unfold Cert.Gcn.out
  by_cases h : j.val < 128
  · rw [dif_pos h]
    exact second_of (Cert.Gcn.lap fun a k => x0 (ix3 (0 : Fin 1) a k)) (k0_pay2 x0) (k0_pay3 x1)
      (k0_pay7 (k0_pay4 x0) k0_pay5 (k0_pay6 x0)) (k0_pay8 (k0_pay3 x1) (k0_pay4 x0) k0_pay5 (k0_pay6 x0))
      (k0_pay9 (k0_pay3 x1) (k0_pay4 x0) k0_pay5 (k0_pay6 x0)) x2 x4 x3 x5 hL (fun a d => x1 (ix3 (0 : Fin 1) a d)) h3
      (prop_of _ (k0_pay3 x1) (k0_pay4 x0) k0_pay5 (k0_pay6 x0) hL _ h3)
      (third_of _ (k0_pay3 x1) (k0_pay4 x0) k0_pay5 (k0_pay6 x0) hL _ h3) n j h
  · rw [dif_neg h, pay1_apply_right _ _ _ _ _ n j h]
    exact pay2_apply x0 n _

end Cert.KernelIdeal.KCheb

end
-- ==== Proof.KValue.lean ====
/-
  The kernel's result array. The grid has one point per graph: point `t` reads block `t` of the two gathered feature
  arrays (the 512 rows of graph `t`) and the whole of the weights and biases, and writes block `t` of the
  [128, 512, 640] result. What point `t` writes back is therefore block `t` of ONE whole-array function of the arrays
  the region finds (`GW`), the 128 blocks tile the result, and the result array ends at that function; the last host
  line views it as [65536, 640].
-/
import proofs.«170040_j60687887892590_1_alg».proof.Proof.Gen.KernelIdeal.Frame
import proofs.«170040_j60687887892590_1_alg».proof.Proof.Whole
import proofs.«170040_j60687887892590_1_alg».proof.Proof.KGraph
import proofs.«170040_j60687887892590_1_alg».proof.Proof.KCheb
import Idealize.ShloMosaic.Lib.Pipeline.Value
import Idealize.ShloMosaic.Lib.ValueIdx
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen

variable (m : (ℓ : Loc nD τ sig) → Buf (Elt Ideal) ℓ) (ρ : Dev nD → PrngReg)

theorem hz3 : (![0, 0, 0] : Fin 3 → Nat) = fun _ => 0 := funext fun a => by fin_cases a <;> rfl
theorem hz1 : (![0] : Fin 1 → Nat) = fun _ => 0 := funext fun a => by fin_cases a <;> rfl

/-- The printed index maps over the grid: the two feature windows and the result window sit at block `t` of their
    leading axis, the weight and bias windows at block 0. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = 0 ∧ win0_2.index t (1 : Fin 3) = 0 ∧ win0_2.index t (2 : Fin 3) = 0
    ∧ win0_3.index t (0 : Fin 1) = 0
    ∧ win0_4.index t (0 : Fin 3) = 0 ∧ win0_4.index t (1 : Fin 3) = 0 ∧ win0_4.index t (2 : Fin 3) = 0
    ∧ win0_5.index t (0 : Fin 1) = 0
    ∧ win0_6.index t (0 : Fin 3) = t.val ∧ win0_6.index t (1 : Fin 3) = 0 ∧ win0_6.index t (2 : Fin 3) = 0 :=
  (by decide +kernel : ∀ t : Fin grid0.N, _)

/-- A grid point as a graph number. -/
def gb (t : Fin cfg0.N) : Fin 128 := ⟨t.val, by have h := t.isLt; have e : cfg0.N = 128 := N_0; omega⟩

/-- Window 0's block at point `t` is graph `t`'s rows of the gathered node features. -/
theorem iblk0_apply (c : Dev nD) (t : Fin cfg0.N) (a k : Fin 512) :
    (iblk m c 0 t : Vec Ideal S1x512x512 .f32) (ix3 (0 : Fin 1) a k) = (V m c main_v6 : S128x512x512.Idx → EReal) (ix3 (gb t) a k) := by
  obtain ⟨e0, e1, e2, -⟩ := idx_facts t
  unfold iblk
  rw [View.read_apply]
  show V m c main_v6 _ = V m c main_v6 _
  congr 1
  funext x
  apply Fin.ext
  match x with
  | ⟨0, _⟩ => show win0_0.index t (0 : Fin 3) * 1 + 1 * 0 = t.val; rw [e0]; omega
  | ⟨1, _⟩ => show win0_0.index t (1 : Fin 3) * 512 + 1 * a.val = a.val; rw [e1]; omega
  | ⟨2, _⟩ => show win0_0.index t (2 : Fin 3) * 512 + 1 * k.val = k.val; rw [e2]; omega

/-- Window 1's block at point `t` is graph `t`'s rows of the gathered layer input. -/
theorem iblk1_apply (c : Dev nD) (t : Fin cfg0.N) (a : Fin 512) (d : Fin 128) :
    (iblk m c 1 t : Vec Ideal S1x512x128 .f32) (ix3 (0 : Fin 1) a d) = (V m c main_v13 : S128x512x128.Idx → EReal) (ix3 (gb t) a d) := by
  obtain ⟨-, -, -, e0, e1, e2, -⟩ := idx_facts t
  unfold iblk
  rw [View.read_apply]
  show V m c main_v13 _ = V m c main_v13 _
  congr 1
  funext x
  apply Fin.ext
  match x with
  | ⟨0, _⟩ => show win0_1.index t (0 : Fin 3) * 1 + 1 * 0 = t.val; rw [e0]; omega
  | ⟨1, _⟩ => show win0_1.index t (1 : Fin 3) * 512 + 1 * a.val = a.val; rw [e1]; omega
  | ⟨2, _⟩ => show win0_1.index t (2 : Fin 3) * 128 + 1 * d.val = d.val; rw [e2]; omega

/-- The first layer's weights are read whole at every point. -/
theorem iblk2_apply (c : Dev nD) (t : Fin cfg0.N) (q : Fin 3) (a d : Fin 128) :
    (iblk m c 2 t : Vec Ideal S3x128x128 .f32) (ix3 q a d) = (V m c main_arg4 : S3x128x128.Idx → EReal) (ix3 q a d) := by
  obtain ⟨-, -, -, -, -, -, e0, e1, e2, -⟩ := idx_facts t
  unfold iblk
  rw [View.read_apply]
  show V m c main_arg4 _ = V m c main_arg4 _
  congr 1
  funext x
  apply Fin.ext
  match x with
  | ⟨0, _⟩ => show win0_2.index t (0 : Fin 3) * 3 + 1 * q.val = q.val; rw [e0]; omega
  | ⟨1, _⟩ => show win0_2.index t (1 : Fin 3) * 128 + 1 * a.val = a.val; rw [e1]; omega
  | ⟨2, _⟩ => show win0_2.index t (2 : Fin 3) * 128 + 1 * d.val = d.val; rw [e2]; omega

/-- The first layer's bias is read whole at every point. -/
theorem iblk3_apply (c : Dev nD) (t : Fin cfg0.N) (a : Fin 128) :
    (iblk m c 3 t : Vec Ideal S128 .f32) (ix1 a) = (V m c main_arg5 : S128.Idx → EReal) (ix1 a) := by
  obtain ⟨-, -, -, -, -, -, -, -, -, e0, -⟩ := idx_facts t
  unfold iblk
  rw [View.read_apply]
  show V m c main_arg5 _ = V m c main_arg5 _
  congr 1
  funext x
  apply Fin.ext
  match x with
  | ⟨0, _⟩ => show win0_3.index t (0 : Fin 1) * 128 + 1 * a.val = a.val; rw [e0]; omega

/-- The second layer's weights are read whole at every point. -/
theorem iblk4_apply (c : Dev nD) (t : Fin cfg0.N) (q : Fin 3) (a d : Fin 128) :
    (iblk m c 4 t : Vec Ideal S3x128x128 .f32) (ix3 q a d) = (V m c main_arg6 : S3x128x128.Idx → EReal) (ix3 q a d) := by
  obtain ⟨-, -, -, -, -, -, -, -, -, -, e0, e1, e2, -⟩ := idx_facts t
  unfold iblk
  rw [View.read_apply]
  show V m c main_arg6 _ = V m c main_arg6 _
  congr 1
  funext x
  apply Fin.ext
  match x with
  | ⟨0, _⟩ => show win0_4.index t (0 : Fin 3) * 3 + 1 * q.val = q.val; rw [e0]; omega
  | ⟨1, _⟩ => show win0_4.index t (1 : Fin 3) * 128 + 1 * a.val = a.val; rw [e1]; omega
  | ⟨2, _⟩ => show win0_4.index t (2 : Fin 3) * 128 + 1 * d.val = d.val; rw [e2]; omega

/-- The second layer's bias is read whole at every point. -/
theorem iblk5_apply (c : Dev nD) (t : Fin cfg0.N) (a : Fin 128) :
    (iblk m c 5 t : Vec Ideal S128 .f32) (ix1 a) = (V m c main_arg7 : S128.Idx → EReal) (ix1 a) := by
  obtain ⟨-, -, -, -, -, -, -, -, -, -, -, -, -, e0, -⟩ := idx_facts t
  unfold iblk
  rw [View.read_apply]
  show V m c main_arg7 _ = V m c main_arg7 _
  congr 1
  funext x
  apply Fin.ext
  match x with
  | ⟨0, _⟩ => show win0_5.index t (0 : Fin 1) * 128 + 1 * a.val = a.val; rw [e0]; omega

/-- The result array as the region's arrays determine it. -/
def GW (c : Dev nD) : Buf (Elt Ideal) ((c : Thread nD τ).loc main_v14) :=
  Cert.Gcn.whole (V m c main_v6) (V m c main_v13) (V m c main_arg4) (V m c main_arg5) (V m c main_arg6) (V m c main_arg7)

/-- What the body computes at a point, row by row: graph `t`'s result rows. -/
theorem blockval (c : Dev nD) (t : Fin cfg0.N) (y : S1x512x640.Idx) :
    k0_pay1 (F := Ideal) (k0_pay2 (iblk m c 0 t)) (iblk m c 4 t) (iblk m c 5 t)
        (k0_pay12 (k0_pay3 (iblk m c 1 t)) (k0_pay7 (k0_pay4 (iblk m c 0 t)) k0_pay5 (k0_pay6 (iblk m c 0 t)))
          (k0_pay8 (k0_pay3 (iblk m c 1 t)) (k0_pay4 (iblk m c 0 t)) k0_pay5 (k0_pay6 (iblk m c 0 t)))
          (k0_pay9 (k0_pay3 (iblk m c 1 t)) (k0_pay4 (iblk m c 0 t)) k0_pay5 (k0_pay6 (iblk m c 0 t))) (iblk m c 2 t)
          (iblk m c 3 t) (iblk m c 4 t))
        (k0_pay13 (k0_pay3 (iblk m c 1 t)) (k0_pay7 (k0_pay4 (iblk m c 0 t)) k0_pay5 (k0_pay6 (iblk m c 0 t)))
          (k0_pay8 (k0_pay3 (iblk m c 1 t)) (k0_pay4 (iblk m c 0 t)) k0_pay5 (k0_pay6 (iblk m c 0 t)))
          (k0_pay9 (k0_pay3 (iblk m c 1 t)) (k0_pay4 (iblk m c 0 t)) k0_pay5 (k0_pay6 (iblk m c 0 t))) (iblk m c 2 t)
          (iblk m c 3 t)) y
      = GW m c (ix3 (gb t) (y 1) (y 2)) := by
  obtain ⟨p, n, q, rfl⟩ : ∃ (p : Fin 1) (n : Fin 512) (q : Fin 640), y = ix3 p n q := ⟨y 0, y 1, y 2, eq_ix3 y⟩
  obtain rfl : p = 0 := Subsingleton.elim _ _
  refine (Cert.KernelIdeal.KCheb.out_apply (iblk m c 0 t) (iblk m c 1 t) (iblk m c 2 t) (iblk m c 3 t) (iblk m c 4 t) (iblk m c 5 t)
    (fun n m' => Cert.KernelIdeal.KGraph.pay7_apply _ n m') n q).trans ?_
  show _ = Cert.Gcn.whole _ _ _ _ _ _ (ix3 (gb t) n q)
  rw [Cert.Gcn.whole_apply]
  simp only [iblk0_apply m c t, iblk1_apply m c t, iblk2_apply m c t, iblk3_apply m c t, iblk4_apply m c t, iblk5_apply m c t]

/-- What point `t` writes back is block `t` of `GW`. -/
theorem flushed_eq (c : Dev nD) (t : Fin cfg0.N) :
    (dats m 0 c).flushed 6 t = ((cfg0.win 6).blk t).view.read (Elt Ideal) (GW m c) := by
  show (cfg0.win 6).cut (grid0.coords t) ((dats m 0 c).after 6 t) = _
  rw [after0_6]
  unfold out0_6
  rw [View.canon_unit_zero hz3]
  simp only [View.ld_unit_zero (S := S1x512x512) hz3, View.ld_unit_zero (S := S1x512x128) hz3, View.ld_unit_zero (S := S3x128x128) hz3, View.ld_unit_zero (S := S128) hz1]
  funext j
  refine (blockval m c t j).trans ?_
  rw [View.read_apply]
  obtain ⟨-, -, -, -, -, -, -, -, -, -, -, -, -, -, e0, e1, e2⟩ := idx_facts t
  show GW m c _ = GW m c _
  congr 1
  funext x
  apply Fin.ext
  have h0 : (j 0).val < 1 := (j 0).isLt
  match x with
  | ⟨0, _⟩ => show t.val = win0_6.index t (0 : Fin 3) * 1 + 1 * (j 0).val; rw [e0]; omega
  | ⟨1, _⟩ => show (j 1).val = win0_6.index t (1 : Fin 3) * 512 + 1 * (j 1).val; rw [e1]; omega
  | ⟨2, _⟩ => show (j 2).val = win0_6.index t (2 : Fin 3) * 640 + 1 * (j 2).val; rw [e2]; omega

/-- An index of the result is in point `t`'s block iff each coordinate is in the block's range on its axis. -/
theorem mem_blk (t : Fin cfg0.N) (i : S128x512x640.Idx) :
    i ∈ ((cfg0.win 6).blk t).view.set ↔ ∀ a : Fin 3, win0_6.index t a * S1x512x640.size a ≤ (i a).val ∧ (i a).val < win0_6.index t a * S1x512x640.size a + S1x512x640.size a := by
  show i ∈ ((View.whole main_v14).slice (win0_6.rect t)).set ↔ _
  rw [View.set_slice_whole, Rect.mem_set_unit]
  exact Iff.rfl

/-- Every index of the result is in the block of the point of its graph. -/
theorem cover (i : S128x512x640.Idx) : ∃ t : Fin cfg0.N, (cfg0.win 6).flush t = true ∧ i ∈ ((cfg0.win 6).blk t).view.set := by
  have hN : cfg0.N = 128 := N_0
  have hi0 : (i 0).val < 128 := (i 0).isLt
  have hi1 : (i 1).val < 512 := (i 1).isLt
  have hi2 : (i 2).val < 640 := (i 2).isLt
  refine ⟨⟨(i 0).val, by omega⟩, flush0_6 _, ?_⟩
  rw [mem_blk]
  obtain ⟨-, -, -, -, -, -, -, -, -, -, -, -, -, -, e0, e1, e2⟩ := idx_facts ⟨(i 0).val, by omega⟩
  intro a
  match a with
  | ⟨0, _⟩ => show win0_6.index _ (0 : Fin 3) * 1 ≤ (i 0).val ∧ (i 0).val < win0_6.index _ (0 : Fin 3) * 1 + 1; rw [e0]; constructor <;> (simp only []; omega)
  | ⟨1, _⟩ => show win0_6.index _ (1 : Fin 3) * 512 ≤ (i 1).val ∧ (i 1).val < win0_6.index _ (1 : Fin 3) * 512 + 512; rw [e1]; omega
  | ⟨2, _⟩ => show win0_6.index _ (2 : Fin 3) * 640 ≤ (i 2).val ∧ (i 2).val < win0_6.index _ (2 : Fin 3) * 640 + 640; rw [e2]; omega

/-- The result array after the run. -/
theorem final (c : Dev nD) : (dats m 0 c).arrAt 6 cfg0.N = GW m c :=
  (dats m 0 c).arrAt_eq_of_cover 6 (GW m c) (fun t _ => flushed_eq m c t) (cover)

/-- The last host line reads the region's result array and views it as [65536, 640]. -/
theorem tail_eq (c : Dev nD) :
    Pipeline.afterTail₀ cfgs (dats m) 0 (V0 m) [hostOps1] c main_v15 = shapeCast S65536x640 (GW m c) shapeCasts_S128x512x640_S65536x640 := by
  unfold Pipeline.afterTail₀
  show StableHlo.after hostOps1 _ (Proc.devRef .tc main_v15) = _
  after_results
  have e : Pipeline.withArrays (cfgs 0).spec c (V0 m c) (fun w => (dats m 0 c).arrAt w (cfgs 0).N) (Proc.tc.devRef main_v14) = GW m c :=
    (Pipeline.withArrays_arr spec0 launch0.win.arr_inj c _ _ 6).trans (final m c)
  rw [e]
  rfl

/-- The run, read: the result at the whole-array function viewed [65536, 640], the arguments unchanged. -/
theorem run : θ_run defs (onTc (τ := τ) (main (F := Ideal))) ⟨m, fun _ => 0, ρ⟩ fun r => ∀ c : Dev nD,
      r.2.mem ((c.tc : Thread nD τ).loc main_v15) = shapeCast S65536x640 (GW m c) shapeCasts_S128x512x640_S65536x640
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨((h c).2 main_v15 (Pipeline.mem_restRefs_of main_v15 (by decide) (by decide))).trans (tail_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      ((h c).1 2).trans (((dats m 0 c).arrAt_in 2 rfl _).trans ((A_eq m c 2).trans (V_main_arg4 m c))),
      ((h c).1 3).trans (((dats m 0 c).arrAt_in 3 rfl _).trans ((A_eq m c 3).trans (V_main_arg5 m c))),
      ((h c).1 4).trans (((dats m 0 c).arrAt_in 4 rfl _).trans ((A_eq m c 4).trans (V_main_arg6 m c))),
      ((h c).1 5).trans (((dats m 0 c).arrAt_in 5 rfl _).trans ((A_eq m c 5).trans (V_main_arg7 m c)))⟩)
    (run_main m ρ)

end Cert.KernelIdeal.KValue

end
-- ==== Proof.Bridge.lean ====
/-
  The two gathered feature arrays. Both programs compute them with the same host lines (normalize a negative token,
  gather the token's table row), so the array the kernel's region finds is the reference's stage of the same name.
-/
import proofs.«170040_j60687887892590_1_alg».proof.Proof.Gen.KernelIdeal.Frame
import proofs.«170040_j60687887892590_1_alg».proof.Proof.RefReadP
import Idealize.ShloMosaic.Lib.StableHlo.Run
import Idealize.ShloMosaic.Lib.Tactic

set_option maxRecDepth 16384

noncomputable section

open Idealize.ShloMosaic Idealize.ShloMosaic.TcCoe Idealize.SL.Sem

namespace Cert.Proof.Bridge

variable (m : (ℓ : Loc Cert.KernelIdeal.nD Cert.KernelIdeal.τ Cert.KernelIdeal.sig) → Buf (Elt Ideal) ℓ)

theorem V_v6 (c : Dev Cert.KernelIdeal.nD) :
    Cert.KernelIdeal.Gen.V m c Cert.KernelIdeal.main_v6
      = Cert.ReferenceIdeal.ReadP.val_main_v6 (F := Ideal)
          (m ((c.tc : Thread Cert.KernelIdeal.nD Cert.KernelIdeal.τ).loc Cert.KernelIdeal.main_arg1))
          (m ((c.tc : Thread Cert.KernelIdeal.nD Cert.KernelIdeal.τ).loc Cert.KernelIdeal.main_arg3)) := by
  show StableHlo.after Cert.KernelIdeal.Gen.hostOps0 (fun b => m (c, b)) (Proc.devRef .tc Cert.KernelIdeal.main_v6) = _
  after_results
  rfl

theorem V_v13 (c : Dev Cert.KernelIdeal.nD) :
    Cert.KernelIdeal.Gen.V m c Cert.KernelIdeal.main_v13
      = Cert.ReferenceIdeal.ReadP.val_main_v61 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg2)) := by
  show StableHlo.after Cert.KernelIdeal.Gen.hostOps0 (fun b => m (c, b)) (Proc.devRef .tc Cert.KernelIdeal.main_v13) = _
  after_results
  rfl

end Cert.Proof.Bridge

end
-- ==== Proof.LibIdx.lean ====
/-
  Sums over the index set of a rank-3 or rank-4 array as iterated sums over the coordinates:
  the index set is the product of its coordinate ranges.
-/
import Idealize.ShloMosaic.Lib.ValueIdx

namespace Cert.LibIdx

open Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set is the product of its four coordinate ranges … -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

end Cert.LibIdx
-- ==== Proof.RGraph.lean ====
/-
  The reference's graph part, one stage at a time: for each graph of the batch the program's similarity matrix,
  its strict upper triangle, the count and the sum of the triangle's entries, their mean, the thresholded adjacency,
  the degrees and the scaled Laplacian are the quantities of the specification, computed from that graph's node features.
-/
import proofs.«170040_j60687887892590_1_alg».proof.Proof.RefReadP
import proofs.«170040_j60687887892590_1_alg».proof.Proof.Spec
import proofs.«170040_j60687887892590_1_alg».proof.Proof.LibIdx
import Idealize.ShloMosaic.Lib.ReduceAll
import Idealize.ShloMosaic.PureOps.Ideal.Laws

noncomputable section

namespace Cert.ReferenceIdeal.RGraph

open Cert.ReferenceIdeal Cert.ReferenceIdeal.Gen Cert.ReferenceIdeal.ReadP Idealize.ShloMosaic Idealize.ShloMosaic.ValueIdx Cert.Gcn

variable (x1 : (⟨S128x512, .i32⟩ : BufTy).Contents (Elt Ideal)) (x3 : (⟨S5000x512, .f32⟩ : BufTy).Contents (Elt Ideal))

/-- The node features of graph `b`: row `a`, entry `k`. -/
abbrev E (b : Fin 128) (a k : Fin 512) : EReal := val_main_v6 (F := Ideal) x1 x3 (ix3 b a k)

/-! ## The normalized rows -/

/-- The squared norm of a row: the sum of the squares of its entries. -/
theorem normsq_apply (b : Fin 128) (n : Fin 512) :
    val_main_call0_v1 (F := Ideal) x1 x3 (ix2 b n) = ∑ r : Fin 512, E x1 x3 b n r * E x1 x3 b n r := by
  rw [val_main_call0_v1_apply, val_main_call0_cst_apply]
  simp only [Ideal.ofBits_def, Ideal.ofBits_zero_f32, zero_add]
  refine Finset.sum_congr rfl fun k _ => ?_
  rw [val_main_call0_v0_apply]
  have e : idx_main_call0_v1 (ix2 b n) k = ix3 b n k :=
    funext fun a => Fin.ext (by match a with | ⟨0, _⟩ => rfl | ⟨1, _⟩ => rfl | ⟨2, _⟩ => rfl)
  rw [e]
  rfl

/-- A row's entry divided by the larger of the row's norm and the floor. -/
theorem feat_apply (b : Fin 128) (n k : Fin 512) :
    val_main_v11 (F := Ideal) x1 x3 (ix3 b n k) = feat (E x1 x3 b) n k := by
  rw [val_main_v11_apply, val_main_v10_apply, val_main_v9_apply, val_main_v7_apply, val_main_call0_v2_apply,
    val_main_v8_apply, val_main_cst_apply]
  have e1 : idx_main_call0_v2 (idx_main_v10 (ix3 b n k)) = ix2 b n :=
    funext fun a => Fin.ext (by match a with | ⟨0, _⟩ => rfl | ⟨1, _⟩ => rfl)
  rw [e1, normsq_apply]
  rfl

/-! ## The similarity matrix and its strict upper triangle -/

/-- The inner product of two normalized rows. -/
theorem sim_apply (b : Fin 128) (n m : Fin 512) :
    val_main_v12 (F := Ideal) x1 x3 (ix3 b n m) = sim (E x1 x3 b) n m := by
  rw [val_main_v12_apply]
  refine Finset.sum_congr rfl fun k _ => ?_
  have el : lidx_main_v12 (ix3 b n m) k = ix3 b n k :=
    funext fun a => Fin.ext (by match a with | ⟨0, _⟩ => rfl | ⟨1, _⟩ => rfl | ⟨2, _⟩ => rfl)
  have er : ridx_main_v12 (ix3 b n m) k = ix3 b m k :=
    funext fun a => Fin.ext (by match a with | ⟨0, _⟩ => rfl | ⟨1, _⟩ => rfl | ⟨2, _⟩ => rfl)
  rw [el, er, feat_apply, feat_apply]

/-- A coordinate below 512, as a 32-bit word read signed, is itself. -/
theorem toInt_small (a : Nat) (ha : a < 512) : (BitVec.ofNat 32 a).toInt = (a : Int) := by
  rw [BitVec.toInt_ofNat']
  apply Int.bmod_eq_of_le <;> omega

/-- The signed comparison "row + 0 ≥ column" of two coordinate words is the comparison of the coordinates. -/
theorem sge_iota (a c : Nat) (ha : a < 512) (hc : c < 512) :
    IntOp.cmpi .sge (IntOp.addi (BitVec.ofNat 32 a) 0#32) (BitVec.ofNat 32 c) = BitVec.ofBool (decide (c ≤ a)) := by
  have h : (BitVec.ofNat 32 c).sle (BitVec.ofNat 32 a) = decide (c ≤ a) := by
    rw [BitVec.sle_eq_decide, toInt_small a ha, toInt_small c hc]
    exact decide_eq_decide.2 Int.ofNat_le
  show BitVec.ofBool ((BitVec.ofNat 32 c).sle (BitVec.ofNat 32 a + 0#32)) = _
  rw [BitVec.add_zero, h]

/-- The equality "row + 0 = column" of two coordinate words is the equality of the coordinates. -/
theorem eq_iota (a c : Nat) (ha : a < 512) (hc : c < 512) :
    IntOp.cmpi .eq (IntOp.addi (BitVec.ofNat 32 a) 0#32) (BitVec.ofNat 32 c) = BitVec.ofBool (decide (a = c)) := by
  show BitVec.ofBool (BitVec.ofNat 32 a + 0#32 == BitVec.ofNat 32 c) = _
  rw [BitVec.add_zero]
  congr 1
  have key : (BitVec.ofNat 32 a = BitVec.ofNat 32 c) → a = c := by
    intro h
    have h' := congrArg BitVec.toNat h
    simp only [BitVec.toNat_ofNat] at h'
    omega
  by_cases h : a = c
  · subst h; simp
  · rw [decide_eq_false h]
    exact beq_eq_false_iff_ne.2 (fun e => h (key e))

/-- A one-bit word made from a truth value is the word 1 exactly when the value is true. -/
theorem ofBool_eq_one (p : Bool) : (BitVec.ofBool p = (1 : BitVec 1)) ↔ p = true := by cases p <;> decide

/-- The similarity strictly above the diagonal, and zero on and below it. -/
theorem upper_apply (b : Fin 128) (n m : Fin 512) :
    val_main_v13 (F := Ideal) x1 x3 (ix3 b n m) = if n < m then sim (E x1 x3 b) n m else 0 := by
  rw [val_main_v13_apply, val_main_call1_v5_apply, val_main_call1_v4_apply, val_main_call1_v2_apply,
    val_main_call1_v0_apply, val_main_call1_v1_apply, val_main_call1_c_apply, val_main_call1_v3_apply,
    val_main_call1_v6_apply, val_main_call1_cst_apply, sim_apply]
  have e0 : ((idx_main_call1_v5 (ix3 b n m)) 0).val = n.val := rfl
  have e1 : ((idx_main_call1_v5 (ix3 b n m)) 1).val = m.val := rfl
  rw [e0, e1, sge_iota n.val m.val n.isLt m.isLt]
  unfold Scalar.select
  simp only [Ideal.ofBits_def, Ideal.ofBits_zero_f32, ofBool_eq_one, decide_eq_true_eq]
  by_cases h : n < m
  · rw [if_pos h, if_neg (by exact Nat.not_le.2 h)]
  · rw [if_neg h, if_pos (by exact Nat.not_lt.1 h)]

/-! ## Sums over one graph's matrix -/

/-- Dropping the two matrix coordinates of an index leaves the graph's number. -/
theorem drop_eq_iff (h : S128x512x512.ReducesTo [1, 2] S128) (a b : Fin 128) (n m : Fin 512) :
    h.drop (ix3 a n m) = ix1 b ↔ a = b := by
  have hv : ((h.drop (ix3 a n m)) 0 : Nat) = a.val := Shape.ReducesTo.drop_apply_val_of_eq h (ix3 a n m) 0 0
  constructor
  · intro e
    have e0 := congrArg Fin.val (congrFun e 0)
    exact Fin.ext (hv.symm.trans e0)
  · rintro rfl
    funext d
    match d with
    | ⟨0, _⟩ => exact Fin.ext hv

/-- A sum over the indices that reduce to graph `b` is the double sum over that graph's matrix. -/
theorem sum_filter_drop {M : Type*} [AddCommMonoid M] (h : S128x512x512.ReducesTo [1, 2] S128) (b : Fin 128)
    (f : S128x512x512.Idx → M) :
    ∑ i ∈ Finset.univ.filter (fun i => h.drop i = ix1 b), f i = ∑ n : Fin 512, ∑ m : Fin 512, f (ix3 b n m) := by
  rw [Finset.sum_filter, Cert.LibIdx.sum_idx3, Finset.sum_eq_single b]
  · refine Finset.sum_congr rfl fun n _ => Finset.sum_congr rfl fun m _ => ?_
    rw [if_pos ((drop_eq_iff h b b n m).2 rfl)]
  · intro a _ hab
    refine Finset.sum_eq_zero fun n _ => Finset.sum_eq_zero fun m _ => ?_
    rw [if_neg (fun e => hab ((drop_eq_iff h a b n m).1 e))]
  · intro hb; exact absurd (Finset.mem_univ b) hb

/-- The sum of the strict upper triangle. -/
theorem upTot_apply (b : Fin 128) : val_main_v19 (F := Ideal) x1 x3 (ix1 b) = upTot (E x1 x3 b) := by
  show val_main_cst_3 (F := Ideal) (Shape.Idx.first h_S_)
      + ∑ i ∈ Finset.univ.filter (fun i => reducesTo_S128x512x512_S128_d1_2.drop i = ix1 b), val_main_v13 (F := Ideal) x1 x3 i = _
  rw [sum_filter_drop, val_main_cst_3_apply]
  simp only [Ideal.ofBits_def, Ideal.ofBits_zero_f32, zero_add]
  unfold upTot
  refine Finset.sum_congr rfl fun n _ => Finset.sum_congr rfl fun m _ => ?_
  exact upper_apply x1 x3 b n m

/-! ## The count of the triangle's entries that are not zero -/

instance : Std.Commutative (IntOp.addi (w := 32)) := ⟨fun a b => BitVec.add_comm a b⟩
instance : Std.Associative (IntOp.addi (w := 32)) := ⟨fun a b c => BitVec.add_assoc a b c⟩

/-- A wrapping 32-bit sum, in any order, of words that hold natural numbers is the word of the numbers' sum. -/
theorem fold_addi_ofNat {ι : Type} (S : Finset ι) (f : ι → BitVec 32) (g : ι → Nat) (hf : ∀ i, f i = BitVec.ofNat 32 (g i)) :
    S.fold IntOp.addi 0#32 f = BitVec.ofNat 32 (∑ i ∈ S, g i) := by
  induction S using Finset.cons_induction with
  | empty => rfl
  | cons a S ha ih =>
    rw [Finset.fold_cons, Finset.sum_cons, ih, hf a]
    show BitVec.ofNat 32 (g a) + BitVec.ofNat 32 _ = _
    rw [← BitVec.ofNat_add]

/-- A finite sum of natural numbers, read as an extended real, is the sum of the numbers read so. -/
theorem coe_nat_sum {ι : Type} (S : Finset ι) (g : ι → Nat) :
    ((((∑ i ∈ S, g i : Nat) : Int) : ℝ) : EReal) = ∑ i ∈ S, ((((g i : Nat) : Int) : ℝ) : EReal) := by
  induction S using Finset.cons_induction with
  | empty => simp
  | cons a S ha ih =>
    rw [Finset.sum_cons, Finset.sum_cons, ← ih]
    push_cast
    rfl

/-- The 0/1 word of "this entry of the triangle is not zero". -/
theorem word_apply (i : S128x512x512.Idx) :
    val_main_v16 (F := Ideal) x1 x3 i = BitVec.ofNat 32 (if val_main_v13 (F := Ideal) x1 x3 i ≠ 0 then 1 else 0) := by
  rw [val_main_v16_apply, val_main_v15_apply, val_main_v14_apply, val_main_cst_1_apply, Ideal.cmpf_def]
  simp only [Ideal.ofBits_def, Ideal.ofBits_zero_f32]
  show (BitVec.ofBool (decide (val_main_v13 (F := Ideal) x1 x3 i ≠ 0))).setWidth 32 = _
  by_cases h : val_main_v13 (F := Ideal) x1 x3 i ≠ 0
  · rw [if_pos h, decide_eq_true h]; rfl
  · rw [if_neg h, decide_eq_false h]; rfl

/-- The number of entries of the strict upper triangle that are not zero. -/
theorem upCnt_apply (b : Fin 128) : val_main_v18 (F := Ideal) x1 x3 (ix1 b) = upCnt (E x1 x3 b) := by
  rw [val_main_v18_apply]
  unfold val_main_v17
  rw [Host.reduce_eq_fold, val_main_c_2_apply,
    fold_addi_ofNat _ _ (fun i => if val_main_v13 (F := Ideal) x1 x3 i ≠ 0 then 1 else 0) (word_apply x1 x3),
    sum_filter_drop]
  have hN : (∑ n : Fin 512, ∑ m : Fin 512, if val_main_v13 (F := Ideal) x1 x3 (ix3 b n m) ≠ 0 then 1 else 0) ≤ 262144 := by
    calc (∑ n : Fin 512, ∑ m : Fin 512, if val_main_v13 (F := Ideal) x1 x3 (ix3 b n m) ≠ 0 then 1 else 0)
        ≤ ∑ n : Fin 512, ∑ m : Fin 512, 1 :=
          Finset.sum_le_sum fun n _ => Finset.sum_le_sum fun m _ => by split_ifs <;> omega
      _ = 262144 := by simp
  show (((BitVec.ofNat 32 _).toInt : ℝ) : EReal) = _
  have hI : ∀ N : Nat, N ≤ 262144 → (BitVec.ofNat 32 N).toInt = (N : Int) := by
    intro N hN
    rw [BitVec.toInt_ofNat']
    apply Int.bmod_eq_of_le <;> omega
  rw [hI _ hN, coe_nat_sum]
  unfold upCnt
  refine Finset.sum_congr rfl fun n _ => ?_
  rw [coe_nat_sum]
  refine Finset.sum_congr rfl fun m _ => ?_
  rw [upper_apply]
  by_cases h1 : n < m
  · rw [if_pos h1]
    by_cases h2 : sim (E x1 x3 b) n m ≠ 0
    · rw [if_pos h2, if_pos (show n < m ∧ sim (E x1 x3 b) n m ≠ 0 from ⟨h1, h2⟩)]; simp
    · rw [if_neg h2, if_neg (show ¬(n < m ∧ sim (E x1 x3 b) n m ≠ 0) from fun h => h2 h.2)]; simp
  · rw [if_neg h1, if_neg (show ¬((0 : EReal) ≠ 0) from fun h => h rfl),
      if_neg (show ¬(n < m ∧ sim (E x1 x3 b) n m ≠ 0) from fun h => h1 h.1)]; simp

/-! ## The mean, the adjacency, the degrees and the Laplacian -/

/-- The triangle's sum over the larger of its count and one. -/
theorem mean_apply (b : Fin 128) : val_main_v22 (F := Ideal) x1 x3 (ix1 b) = mean (E x1 x3 b) := by
  rw [val_main_v22_apply, val_main_v21_apply, val_main_v20_apply, val_main_cst_4_apply, upTot_apply, upCnt_apply]
  simp only [Ideal.ofBits_def, Ideal.hostDivf_def, Ideal.maximumf_def, one_word]
  rfl

/-- A truth value's one-bit word, read unsigned, is 1 or 0. -/
theorem uitofp_ofBool (p : Bool) :
    (FloatOps.uitofp (F := Ideal) .f32 (BitVec.ofBool p) : EReal) = if p = true then 1 else 0 := by
  show (((BitVec.ofBool p).toNat : ℝ) : EReal) = _
  cases p <;> simp

theorem one_sub_one : (1 : EReal) - 1 = 0 := by
  rw [← EReal.coe_one, ← EReal.coe_sub, sub_self, EReal.coe_zero]

/-- The similarity, zeroed where it is below the mean. -/
theorem thresh_apply (b : Fin 128) (n m : Fin 512) :
    val_main_v26 (F := Ideal) x1 x3 (ix3 b n m)
      = if sim (E x1 x3 b) n m < mean (E x1 x3 b) then (0 : EReal) else sim (E x1 x3 b) n m := by
  rw [val_main_v26_apply, val_main_v25_apply, val_main_v24_apply, val_main_v23_apply, val_main_call2_v1_apply,
    val_main_call2_v0_apply, val_main_cst_5_apply, sim_apply, Ideal.cmpf_def]
  have e : idx_main_v23 (idx_main_v24 (ix3 b n m)) = ix1 b :=
    funext fun a => Fin.ext (by match a with | ⟨0, _⟩ => rfl)
  rw [e, mean_apply]
  show Scalar.select (BitVec.ofBool (decide (sim (E x1 x3 b) n m < mean (E x1 x3 b)))) _ _ = _
  unfold Scalar.select
  simp only [Ideal.ofBits_def, Ideal.ofBits_zero_f32, ofBool_eq_one, decide_eq_true_eq]

/-- One minus the identity matrix. -/
theorem offdiag_apply (b : Fin 128) (n m : Fin 512) :
    val_main_v39 (F := Ideal) (ix3 b n m) = if n = m then 0 else 1 := by
  rw [val_main_v39_apply, val_main_v38_apply, val_main_v37_apply, val_main_v36_apply, val_main_cst_8_apply,
    val_main_v35_apply, val_main_v34_apply, val_main_v33_apply, val_main_v30_apply, val_main_v32_apply,
    val_main_c_7_apply, val_main_v31_apply]
  have e0 : ((idx_main_v38 (idx_main_v39 (ix3 b n m))) 0).val = n.val := rfl
  have e1 : ((idx_main_v38 (idx_main_v39 (ix3 b n m))) 1).val = m.val := rfl
  rw [e0, e1, eq_iota n.val m.val n.isLt m.isLt, uitofp_ofBool]
  simp only [Ideal.ofBits_def, Ideal.subf_def, one_word, decide_eq_true_eq]
  by_cases h : n = m
  · rw [if_pos h, if_pos (congrArg Fin.val h), one_sub_one]
  · rw [if_neg h, if_neg (fun e => h (Fin.ext e)), sub_zero]

/-- The adjacency matrix. -/
theorem adj_apply (b : Fin 128) (n m : Fin 512) :
    val_main_v40 (F := Ideal) x1 x3 (ix3 b n m) = adj (E x1 x3 b) n m := by
  rw [val_main_v40_apply, val_main_v29_apply, val_main_v28_apply, val_main_v27_apply, val_main_cst_6_apply,
    thresh_apply, offdiag_apply, Ideal.cmpf_def]
  simp only [Ideal.ofBits_def, Ideal.ofBits_zero_f32, Ideal.mulf_def]
  show FloatOps.uitofp (F := Ideal) .f32 (BitVec.ofBool (decide (_ ≠ (0 : EReal)))) * _ = _
  rw [uitofp_ofBool]
  unfold adj
  simp only [decide_eq_true_eq]
  by_cases h : n = m
  · rw [if_pos h, if_pos h, mul_zero]
  · rw [if_neg h, if_neg h, mul_one]

/-- A node's number of edges. -/
theorem deg_apply (b : Fin 128) (n : Fin 512) :
    val_main_v41 (F := Ideal) x1 x3 (ix2 b n) = deg (E x1 x3 b) n := by
  rw [val_main_v41_apply, val_main_cst_9_apply]
  simp only [Ideal.ofBits_def, Ideal.ofBits_zero_f32, zero_add]
  unfold deg
  refine Finset.sum_congr rfl fun k _ => ?_
  have e : idx_main_v41 (ix2 b n) k = ix3 b n k :=
    funext fun a => Fin.ext (by match a with | ⟨0, _⟩ => rfl | ⟨1, _⟩ => rfl | ⟨2, _⟩ => rfl)
  rw [e, adj_apply]

/-- The inverse square root of the degree, zero at an isolated node. -/
theorem dinv_apply (b : Fin 128) (n : Fin 512) :
    val_main_v47 (F := Ideal) x1 x3 (ix2 b n) = dinv (E x1 x3 b) n := by
  rw [val_main_v47_apply, val_main_v43_apply, val_main_v42_apply, val_main_cst_10_apply, val_main_v46_apply,
    val_main_v45_apply, val_main_v44_apply, val_main_cst_11_apply, val_main_call3_v1_apply, val_main_call3_v0_apply,
    val_main_cst_12_apply, deg_apply, Ideal.cmpf_def]
  simp only [Ideal.ofBits_def, Ideal.ofBits_zero_f32, Ideal.hostUnary_rsqrt_def, Ideal.maximumf_def]
  show Scalar.select (BitVec.ofBool (decide ((0 : EReal) < deg (E x1 x3 b) n))) _ _ = _
  unfold Scalar.select dinv
  simp only [ofBool_eq_one, decide_eq_true_eq]
  rfl

/-- The scaled Laplacian of graph `b`. -/
theorem v54_apply (x1 : (⟨S128x512, .i32⟩ : BufTy).Contents (Elt Ideal)) (x3 : (⟨S5000x512, .f32⟩ : BufTy).Contents (Elt Ideal))
    (b : Fin 128) (n m : Fin 512) :
    Cert.ReferenceIdeal.ReadP.val_main_v54 (F := Ideal) x1 x3 (ix3 b n m)
      = Cert.Gcn.lap (fun a k => Cert.ReferenceIdeal.ReadP.val_main_v6 (F := Ideal) x1 x3 (ix3 b a k)) n m := by
  rw [val_main_v54_apply, val_main_v53_apply, val_main_v50_apply, val_main_v49_apply, val_main_v48_apply,
    val_main_v52_apply, val_main_v51_apply, adj_apply]
  have e1 : idx_main_v48 (idx_main_v49 (ix3 b n m)) = ix2 b n :=
    funext fun a => Fin.ext (by match a with | ⟨0, _⟩ => rfl | ⟨1, _⟩ => rfl)
  have e2 : idx_main_v51 (idx_main_v52 (ix3 b n m)) = ix2 b m :=
    funext fun a => Fin.ext (by match a with | ⟨0, _⟩ => rfl | ⟨1, _⟩ => rfl)
  rw [e1, e2, dinv_apply, dinv_apply]
  rfl

end Cert.ReferenceIdeal.RGraph

end
-- ==== Proof.RCheb.lean ====
/-
  The reference's two Chebyshev layers and its result row, read at an index.

  With `L` the scaled Laplacian of one graph (taken as a hypothesis on the array that holds it), each batched product
  with `L` is one propagation step, the three products with the 128-by-128 slices of the weights are the three terms of
  the order-three filter, the bias is added along the last axis, and the positive part is taken; the second layer
  repeats this over the first layer's result, and the result row is the second layer's 128 entries followed by the
  512 node features.
-/
import proofs.«170040_j60687887892590_1_alg».proof.Proof.RefReadP
import proofs.«170040_j60687887892590_1_alg».proof.Proof.Spec

noncomputable section

namespace Cert.ReferenceIdeal.RCheb

open Cert.ReferenceIdeal Cert.ReferenceIdeal.ReadP Idealize.ShloMosaic Idealize.ShloMosaic.ValueIdx

/-! ### The first layer -/

theorem lidx_v62 (b : Fin 128) (n : Fin 512) (d : Fin 128) (k : Fin 512) :
    lidx_main_v62 (ix3 b n d) k = ix3 b n k :=
  funext fun a => Fin.ext (by match a with | ⟨0, _⟩ => rfl | ⟨1, _⟩ => rfl | ⟨2, _⟩ => rfl)
theorem ridx_v62 (b : Fin 128) (n : Fin 512) (d : Fin 128) (k : Fin 512) :
    ridx_main_v62 (ix3 b n d) k = ix3 b k d :=
  funext fun a => Fin.ext (by match a with | ⟨0, _⟩ => rfl | ⟨1, _⟩ => rfl | ⟨2, _⟩ => rfl)
theorem lidx_v63 (b : Fin 128) (n : Fin 512) (d : Fin 128) (k : Fin 512) :
    lidx_main_v63 (ix3 b n d) k = ix3 b n k :=
  funext fun a => Fin.ext (by match a with | ⟨0, _⟩ => rfl | ⟨1, _⟩ => rfl | ⟨2, _⟩ => rfl)
theorem ridx_v63 (b : Fin 128) (n : Fin 512) (d : Fin 128) (k : Fin 512) :
    ridx_main_v63 (ix3 b n d) k = ix3 b k d :=
  funext fun a => Fin.ext (by match a with | ⟨0, _⟩ => rfl | ⟨1, _⟩ => rfl | ⟨2, _⟩ => rfl)
theorem lidx_v69 (b : Fin 128) (n : Fin 512) (j : Fin 128) (k : Fin 128) :
    lidx_main_v69 (ix3 b n j) k = ix3 b n k :=
  funext fun a => Fin.ext (by match a with | ⟨0, _⟩ => rfl | ⟨1, _⟩ => rfl | ⟨2, _⟩ => rfl)
theorem ridx_v69 (b : Fin 128) (n : Fin 512) (j : Fin 128) (k : Fin 128) :
    ridx_main_v69 (ix3 b n j) k = ix2 k j :=
  funext fun a => Fin.ext (by match a with | ⟨0, _⟩ => rfl | ⟨1, _⟩ => rfl)
theorem lidx_v72 (b : Fin 128) (n : Fin 512) (j : Fin 128) (k : Fin 128) :
    lidx_main_v72 (ix3 b n j) k = ix3 b n k :=
  funext fun a => Fin.ext (by match a with | ⟨0, _⟩ => rfl | ⟨1, _⟩ => rfl | ⟨2, _⟩ => rfl)
theorem ridx_v72 (b : Fin 128) (n : Fin 512) (j : Fin 128) (k : Fin 128) :
    ridx_main_v72 (ix3 b n j) k = ix2 k j :=
  funext fun a => Fin.ext (by match a with | ⟨0, _⟩ => rfl | ⟨1, _⟩ => rfl)
theorem lidx_v76 (b : Fin 128) (n : Fin 512) (j : Fin 128) (k : Fin 128) :
    lidx_main_v76 (ix3 b n j) k = ix3 b n k :=
  funext fun a => Fin.ext (by match a with | ⟨0, _⟩ => rfl | ⟨1, _⟩ => rfl | ⟨2, _⟩ => rfl)
theorem ridx_v76 (b : Fin 128) (n : Fin 512) (j : Fin 128) (k : Fin 128) :
    ridx_main_v76 (ix3 b n j) k = ix2 k j :=
  funext fun a => Fin.ext (by match a with | ⟨0, _⟩ => rfl | ⟨1, _⟩ => rfl)

section
variable (x0 x1 : (⟨S128x512, .i32⟩ : BufTy).Contents (Elt Ideal)) (x2 : (⟨S30000x128, .f32⟩ : BufTy).Contents (Elt Ideal))
  (x3 : (⟨S5000x512, .f32⟩ : BufTy).Contents (Elt Ideal)) (x4 : (⟨S3x128x128, .f32⟩ : BufTy).Contents (Elt Ideal))
  (x5 : (⟨S128, .f32⟩ : BufTy).Contents (Elt Ideal)) (x6 : (⟨S3x128x128, .f32⟩ : BufTy).Contents (Elt Ideal))
  (x7 : (⟨S128, .f32⟩ : BufTy).Contents (Elt Ideal))

/-- The node features of graph `b`. -/
abbrev nodeE (b : Fin 128) : Fin 512 → Fin 512 → EReal :=
  fun a k => val_main_v6 (F := Ideal) x1 x3 (ix3 b a k)
/-- The embedded input of graph `b`. -/
abbrev embX (b : Fin 128) : Fin 512 → Fin 128 → EReal :=
  fun a d => val_main_v61 (F := Ideal) x0 x2 (ix3 b a d)

/-- The first product with the Laplacian is one propagation step of the layer's input. -/
theorem v62_ix (hL : ∀ (b : Fin 128) (n m : Fin 512), val_main_v54 (F := Ideal) x1 x3 (ix3 b n m)
        = Cert.Gcn.lap (nodeE x1 x3 b) n m)
    (b : Fin 128) (n : Fin 512) (d : Fin 128) :
    val_main_v62 (F := Ideal) x0 x1 x2 x3 (ix3 b n d) = Cert.Gcn.prop (Cert.Gcn.lap (nodeE x1 x3 b)) (embX x0 x2 b) n d := by
  refine (val_main_v62_apply x0 x1 x2 x3 (ix3 b n d)).trans ?_
  exact Finset.sum_congr rfl fun k _ => by rw [lidx_v62, ridx_v62, hL]

/-- The second product is a second step. -/
theorem v63_ix (hL : ∀ (b : Fin 128) (n m : Fin 512), val_main_v54 (F := Ideal) x1 x3 (ix3 b n m)
        = Cert.Gcn.lap (nodeE x1 x3 b) n m)
    (b : Fin 128) (n : Fin 512) (d : Fin 128) :
    val_main_v63 (F := Ideal) x0 x1 x2 x3 (ix3 b n d) = Cert.Gcn.prop (Cert.Gcn.lap (nodeE x1 x3 b)) (Cert.Gcn.prop (Cert.Gcn.lap (nodeE x1 x3 b)) (embX x0 x2 b)) n d := by
  refine (val_main_v63_apply x0 x1 x2 x3 (ix3 b n d)).trans ?_
  exact Finset.sum_congr rfl fun k _ => by rw [lidx_v63, ridx_v63, hL, v62_ix x0 x1 x2 x3 hL]

/-- The third term of the recurrence: twice the second step less the input. -/
theorem v66_ix (hL : ∀ (b : Fin 128) (n m : Fin 512), val_main_v54 (F := Ideal) x1 x3 (ix3 b n m)
        = Cert.Gcn.lap (nodeE x1 x3 b) n m)
    (b : Fin 128) (n : Fin 512) (d : Fin 128) :
    val_main_v66 (F := Ideal) x0 x1 x2 x3 (ix3 b n d)
      = Cert.Gcn.twoW * Cert.Gcn.prop (Cert.Gcn.lap (nodeE x1 x3 b)) (Cert.Gcn.prop (Cert.Gcn.lap (nodeE x1 x3 b)) (embX x0 x2 b)) n d - (embX x0 x2 b) n d := by
  rw [val_main_v66_apply, val_main_v65_apply, val_main_v64_apply, val_main_cst_15_apply,
    v63_ix x0 x1 x2 x3 hL, Ideal.subf_def, Ideal.mulf_def, Ideal.ofBits_def]
  rfl

/-- The three 128-by-128 slices of the weights. -/
theorem v68_ix (d j : Fin 128) : val_main_v68 (F := Ideal) x4 (ix2 d j) = x4 (ix3 (0 : Fin 3) d j) := by
  rw [val_main_v68_apply, val_main_v67_apply]
  refine congrArg x4 (funext fun a => Fin.ext ?_)
  have hd := d.isLt; have hj := j.isLt
  match a with
  | ⟨0, _⟩ => rfl
  | ⟨1, _⟩ => show (d.val * 128 + j.val) / 128 % 128 = d.val; omega
  | ⟨2, _⟩ => show (d.val * 128 + j.val) % 128 = j.val; omega
theorem v71_ix (d j : Fin 128) : val_main_v71 (F := Ideal) x4 (ix2 d j) = x4 (ix3 (1 : Fin 3) d j) := by
  rw [val_main_v71_apply, val_main_v70_apply]
  refine congrArg x4 (funext fun a => Fin.ext ?_)
  have hd := d.isLt; have hj := j.isLt
  match a with
  | ⟨0, _⟩ => rfl
  | ⟨1, _⟩ => show (d.val * 128 + j.val) / 128 % 128 = d.val; omega
  | ⟨2, _⟩ => show (d.val * 128 + j.val) % 128 = j.val; omega
theorem v75_ix (d j : Fin 128) : val_main_v75 (F := Ideal) x4 (ix2 d j) = x4 (ix3 (2 : Fin 3) d j) := by
  rw [val_main_v75_apply, val_main_v74_apply]
  refine congrArg x4 (funext fun a => Fin.ext ?_)
  have hd := d.isLt; have hj := j.isLt
  match a with
  | ⟨0, _⟩ => rfl
  | ⟨1, _⟩ => show (d.val * 128 + j.val) / 128 % 128 = d.val; omega
  | ⟨2, _⟩ => show (d.val * 128 + j.val) % 128 = j.val; omega

/-- The three products with the weight slices. -/
theorem v69_ix (b : Fin 128) (n : Fin 512) (j : Fin 128) :
    val_main_v69 (F := Ideal) x0 x2 x4 (ix3 b n j) = ∑ d : Fin 128, (embX x0 x2 b) n d * x4 (ix3 (0 : Fin 3) d j) := by
  refine (val_main_v69_apply x0 x2 x4 (ix3 b n j)).trans ?_
  exact Finset.sum_congr rfl fun k _ => by rw [lidx_v69, ridx_v69, v68_ix]
theorem v72_ix (hL : ∀ (b : Fin 128) (n m : Fin 512), val_main_v54 (F := Ideal) x1 x3 (ix3 b n m)
        = Cert.Gcn.lap (nodeE x1 x3 b) n m)
    (b : Fin 128) (n : Fin 512) (j : Fin 128) :
    val_main_v72 (F := Ideal) x0 x1 x2 x3 x4 (ix3 b n j)
      = ∑ d : Fin 128, Cert.Gcn.prop (Cert.Gcn.lap (nodeE x1 x3 b)) (embX x0 x2 b) n d * x4 (ix3 (1 : Fin 3) d j) := by
  refine (val_main_v72_apply x0 x1 x2 x3 x4 (ix3 b n j)).trans ?_
  exact Finset.sum_congr rfl fun k _ => by rw [lidx_v72, ridx_v72, v71_ix, v62_ix x0 x1 x2 x3 hL]
theorem v76_ix (hL : ∀ (b : Fin 128) (n m : Fin 512), val_main_v54 (F := Ideal) x1 x3 (ix3 b n m)
        = Cert.Gcn.lap (nodeE x1 x3 b) n m)
    (b : Fin 128) (n : Fin 512) (j : Fin 128) :
    val_main_v76 (F := Ideal) x0 x1 x2 x3 x4 (ix3 b n j)
      = ∑ d : Fin 128, (Cert.Gcn.twoW * Cert.Gcn.prop (Cert.Gcn.lap (nodeE x1 x3 b)) (Cert.Gcn.prop (Cert.Gcn.lap (nodeE x1 x3 b)) (embX x0 x2 b)) n d - (embX x0 x2 b) n d)
          * x4 (ix3 (2 : Fin 3) d j) := by
  refine (val_main_v76_apply x0 x1 x2 x3 x4 (ix3 b n j)).trans ?_
  exact Finset.sum_congr rfl fun k _ => by rw [lidx_v76, ridx_v76, v75_ix, v66_ix x0 x1 x2 x3 hL]

/-- The bias, broadcast along the batch and the nodes. -/
theorem v79_ix (b : Fin 128) (n : Fin 512) (j : Fin 128) :
    val_main_v79 (F := Ideal) x5 (ix3 b n j) = x5 (ix1 j) := by
  rw [val_main_v79_apply, val_main_v78_apply]
  exact congrArg x5 (funext fun a => Fin.ext (by match a with | ⟨0, _⟩ => rfl))

/-- The broadcast zero of the positive part. -/
theorem call4_v0_ix (i : S128x512x128.Idx) : val_main_call4_v0 (F := Ideal) i = (0 : EReal) := by
  rw [val_main_call4_v0_apply, val_main_call4_cst_apply, Ideal.ofBits_def, Ideal.ofBits_zero_f32]

/-- The layer: the filter with its bias, then the positive part. -/
theorem v81_ix (hL : ∀ (b : Fin 128) (n m : Fin 512), val_main_v54 (F := Ideal) x1 x3 (ix3 b n m)
        = Cert.Gcn.lap (nodeE x1 x3 b) n m)
    (b : Fin 128) (n : Fin 512) (j : Fin 128) :
    val_main_v81 (F := Ideal) x0 x1 x2 x3 x4 x5 (ix3 b n j)
      = Cert.Gcn.layer (Cert.Gcn.lap (nodeE x1 x3 b)) (embX x0 x2 b) (fun i a c => x4 (ix3 i a c)) (fun a => x5 (ix1 a)) n j := by
  rw [val_main_v81_apply, val_main_v80_apply, val_main_v77_apply, val_main_v73_apply,
    v69_ix, v72_ix x0 x1 x2 x3 x4 hL, v76_ix x0 x1 x2 x3 x4 hL, v79_ix, call4_v0_ix,
    Ideal.maximumf_def, Ideal.addf_def, Ideal.addf_def, Ideal.addf_def]
  rfl

end

/-! ### The second layer -/

theorem lidx_v82 (b : Fin 128) (n : Fin 512) (d : Fin 128) (k : Fin 512) :
    lidx_main_v82 (ix3 b n d) k = ix3 b n k :=
  funext fun a => Fin.ext (by match a with | ⟨0, _⟩ => rfl | ⟨1, _⟩ => rfl | ⟨2, _⟩ => rfl)
theorem ridx_v82 (b : Fin 128) (n : Fin 512) (d : Fin 128) (k : Fin 512) :
    ridx_main_v82 (ix3 b n d) k = ix3 b k d :=
  funext fun a => Fin.ext (by match a with | ⟨0, _⟩ => rfl | ⟨1, _⟩ => rfl | ⟨2, _⟩ => rfl)
theorem lidx_v83 (b : Fin 128) (n : Fin 512) (d : Fin 128) (k : Fin 512) :
    lidx_main_v83 (ix3 b n d) k = ix3 b n k :=
  funext fun a => Fin.ext (by match a with | ⟨0, _⟩ => rfl | ⟨1, _⟩ => rfl | ⟨2, _⟩ => rfl)
theorem ridx_v83 (b : Fin 128) (n : Fin 512) (d : Fin 128) (k : Fin 512) :
    ridx_main_v83 (ix3 b n d) k = ix3 b k d :=
  funext fun a => Fin.ext (by match a with | ⟨0, _⟩ => rfl | ⟨1, _⟩ => rfl | ⟨2, _⟩ => rfl)
theorem lidx_v89 (b : Fin 128) (n : Fin 512) (j : Fin 128) (k : Fin 128) :
    lidx_main_v89 (ix3 b n j) k = ix3 b n k :=
  funext fun a => Fin.ext (by match a with | ⟨0, _⟩ => rfl | ⟨1, _⟩ => rfl | ⟨2, _⟩ => rfl)
theorem ridx_v89 (b : Fin 128) (n : Fin 512) (j : Fin 128) (k : Fin 128) :
    ridx_main_v89 (ix3 b n j) k = ix2 k j :=
  funext fun a => Fin.ext (by match a with | ⟨0, _⟩ => rfl | ⟨1, _⟩ => rfl)
theorem lidx_v92 (b : Fin 128) (n : Fin 512) (j : Fin 128) (k : Fin 128) :
    lidx_main_v92 (ix3 b n j) k = ix3 b n k :=
  funext fun a => Fin.ext (by match a with | ⟨0, _⟩ => rfl | ⟨1, _⟩ => rfl | ⟨2, _⟩ => rfl)
theorem ridx_v92 (b : Fin 128) (n : Fin 512) (j : Fin 128) (k : Fin 128) :
    ridx_main_v92 (ix3 b n j) k = ix2 k j :=
  funext fun a => Fin.ext (by match a with | ⟨0, _⟩ => rfl | ⟨1, _⟩ => rfl)
theorem lidx_v96 (b : Fin 128) (n : Fin 512) (j : Fin 128) (k : Fin 128) :
    lidx_main_v96 (ix3 b n j) k = ix3 b n k :=
  funext fun a => Fin.ext (by match a with | ⟨0, _⟩ => rfl | ⟨1, _⟩ => rfl | ⟨2, _⟩ => rfl)
theorem ridx_v96 (b : Fin 128) (n : Fin 512) (j : Fin 128) (k : Fin 128) :
    ridx_main_v96 (ix3 b n j) k = ix2 k j :=
  funext fun a => Fin.ext (by match a with | ⟨0, _⟩ => rfl | ⟨1, _⟩ => rfl)

section
variable (x0 x1 : (⟨S128x512, .i32⟩ : BufTy).Contents (Elt Ideal)) (x2 : (⟨S30000x128, .f32⟩ : BufTy).Contents (Elt Ideal))
  (x3 : (⟨S5000x512, .f32⟩ : BufTy).Contents (Elt Ideal)) (x4 : (⟨S3x128x128, .f32⟩ : BufTy).Contents (Elt Ideal))
  (x5 : (⟨S128, .f32⟩ : BufTy).Contents (Elt Ideal)) (x6 : (⟨S3x128x128, .f32⟩ : BufTy).Contents (Elt Ideal))
  (x7 : (⟨S128, .f32⟩ : BufTy).Contents (Elt Ideal))

/-- The first layer's result for graph `b`, the second layer's input. -/
abbrev hidX (b : Fin 128) : Fin 512 → Fin 128 → EReal :=
  fun a d => val_main_v81 (F := Ideal) x0 x1 x2 x3 x4 x5 (ix3 b a d)

/-- The first product with the Laplacian is one propagation step of the layer's input. -/
theorem v82_ix (hL : ∀ (b : Fin 128) (n m : Fin 512), val_main_v54 (F := Ideal) x1 x3 (ix3 b n m)
        = Cert.Gcn.lap (nodeE x1 x3 b) n m)
    (b : Fin 128) (n : Fin 512) (d : Fin 128) :
    val_main_v82 (F := Ideal) x0 x1 x2 x3 x4 x5 (ix3 b n d) = Cert.Gcn.prop (Cert.Gcn.lap (nodeE x1 x3 b)) (hidX x0 x1 x2 x3 x4 x5 b) n d := by
  refine (val_main_v82_apply x0 x1 x2 x3 x4 x5 (ix3 b n d)).trans ?_
  exact Finset.sum_congr rfl fun k _ => by rw [lidx_v82, ridx_v82, hL]

/-- The second product is a second step. -/
theorem v83_ix (hL : ∀ (b : Fin 128) (n m : Fin 512), val_main_v54 (F := Ideal) x1 x3 (ix3 b n m)
        = Cert.Gcn.lap (nodeE x1 x3 b) n m)
    (b : Fin 128) (n : Fin 512) (d : Fin 128) :
    val_main_v83 (F := Ideal) x0 x1 x2 x3 x4 x5 (ix3 b n d) = Cert.Gcn.prop (Cert.Gcn.lap (nodeE x1 x3 b)) (Cert.Gcn.prop (Cert.Gcn.lap (nodeE x1 x3 b)) (hidX x0 x1 x2 x3 x4 x5 b)) n d := by
  refine (val_main_v83_apply x0 x1 x2 x3 x4 x5 (ix3 b n d)).trans ?_
  exact Finset.sum_congr rfl fun k _ => by rw [lidx_v83, ridx_v83, hL, v82_ix x0 x1 x2 x3 x4 x5 hL]

/-- The third term of the recurrence: twice the second step less the input. -/
theorem v86_ix (hL : ∀ (b : Fin 128) (n m : Fin 512), val_main_v54 (F := Ideal) x1 x3 (ix3 b n m)
        = Cert.Gcn.lap (nodeE x1 x3 b) n m)
    (b : Fin 128) (n : Fin 512) (d : Fin 128) :
    val_main_v86 (F := Ideal) x0 x1 x2 x3 x4 x5 (ix3 b n d)
      = Cert.Gcn.twoW * Cert.Gcn.prop (Cert.Gcn.lap (nodeE x1 x3 b)) (Cert.Gcn.prop (Cert.Gcn.lap (nodeE x1 x3 b)) (hidX x0 x1 x2 x3 x4 x5 b)) n d - (hidX x0 x1 x2 x3 x4 x5 b) n d := by
  rw [val_main_v86_apply, val_main_v85_apply, val_main_v84_apply, val_main_cst_16_apply,
    v83_ix x0 x1 x2 x3 x4 x5 hL, Ideal.subf_def, Ideal.mulf_def, Ideal.ofBits_def]
  rfl

/-- The three 128-by-128 slices of the weights. -/
theorem v88_ix (d j : Fin 128) : val_main_v88 (F := Ideal) x6 (ix2 d j) = x6 (ix3 (0 : Fin 3) d j) := by
  rw [val_main_v88_apply, val_main_v87_apply]
  refine congrArg x6 (funext fun a => Fin.ext ?_)
  have hd := d.isLt; have hj := j.isLt
  match a with
  | ⟨0, _⟩ => rfl
  | ⟨1, _⟩ => show (d.val * 128 + j.val) / 128 % 128 = d.val; omega
  | ⟨2, _⟩ => show (d.val * 128 + j.val) % 128 = j.val; omega
theorem v91_ix (d j : Fin 128) : val_main_v91 (F := Ideal) x6 (ix2 d j) = x6 (ix3 (1 : Fin 3) d j) := by
  rw [val_main_v91_apply, val_main_v90_apply]
  refine congrArg x6 (funext fun a => Fin.ext ?_)
  have hd := d.isLt; have hj := j.isLt
  match a with
  | ⟨0, _⟩ => rfl
  | ⟨1, _⟩ => show (d.val * 128 + j.val) / 128 % 128 = d.val; omega
  | ⟨2, _⟩ => show (d.val * 128 + j.val) % 128 = j.val; omega
theorem v95_ix (d j : Fin 128) : val_main_v95 (F := Ideal) x6 (ix2 d j) = x6 (ix3 (2 : Fin 3) d j) := by
  rw [val_main_v95_apply, val_main_v94_apply]
  refine congrArg x6 (funext fun a => Fin.ext ?_)
  have hd := d.isLt; have hj := j.isLt
  match a with
  | ⟨0, _⟩ => rfl
  | ⟨1, _⟩ => show (d.val * 128 + j.val) / 128 % 128 = d.val; omega
  | ⟨2, _⟩ => show (d.val * 128 + j.val) % 128 = j.val; omega

/-- The three products with the weight slices. -/
theorem v89_ix (b : Fin 128) (n : Fin 512) (j : Fin 128) :
    val_main_v89 (F := Ideal) x0 x1 x2 x3 x4 x5 x6 (ix3 b n j) = ∑ d : Fin 128, (hidX x0 x1 x2 x3 x4 x5 b) n d * x6 (ix3 (0 : Fin 3) d j) := by
  refine (val_main_v89_apply x0 x1 x2 x3 x4 x5 x6 (ix3 b n j)).trans ?_
  exact Finset.sum_congr rfl fun k _ => by rw [lidx_v89, ridx_v89, v88_ix]
theorem v92_ix (hL : ∀ (b : Fin 128) (n m : Fin 512), val_main_v54 (F := Ideal) x1 x3 (ix3 b n m)
        = Cert.Gcn.lap (nodeE x1 x3 b) n m)
    (b : Fin 128) (n : Fin 512) (j : Fin 128) :
    val_main_v92 (F := Ideal) x0 x1 x2 x3 x4 x5 x6 (ix3 b n j)
      = ∑ d : Fin 128, Cert.Gcn.prop (Cert.Gcn.lap (nodeE x1 x3 b)) (hidX x0 x1 x2 x3 x4 x5 b) n d * x6 (ix3 (1 : Fin 3) d j) := by
  refine (val_main_v92_apply x0 x1 x2 x3 x4 x5 x6 (ix3 b n j)).trans ?_
  exact Finset.sum_congr rfl fun k _ => by rw [lidx_v92, ridx_v92, v91_ix, v82_ix x0 x1 x2 x3 x4 x5 hL]
theorem v96_ix (hL : ∀ (b : Fin 128) (n m : Fin 512), val_main_v54 (F := Ideal) x1 x3 (ix3 b n m)
        = Cert.Gcn.lap (nodeE x1 x3 b) n m)
    (b : Fin 128) (n : Fin 512) (j : Fin 128) :
    val_main_v96 (F := Ideal) x0 x1 x2 x3 x4 x5 x6 (ix3 b n j)
      = ∑ d : Fin 128, (Cert.Gcn.twoW * Cert.Gcn.prop (Cert.Gcn.lap (nodeE x1 x3 b)) (Cert.Gcn.prop (Cert.Gcn.lap (nodeE x1 x3 b)) (hidX x0 x1 x2 x3 x4 x5 b)) n d - (hidX x0 x1 x2 x3 x4 x5 b) n d)
          * x6 (ix3 (2 : Fin 3) d j) := by
  refine (val_main_v96_apply x0 x1 x2 x3 x4 x5 x6 (ix3 b n j)).trans ?_
  exact Finset.sum_congr rfl fun k _ => by rw [lidx_v96, ridx_v96, v95_ix, v86_ix x0 x1 x2 x3 x4 x5 hL]

/-- The bias, broadcast along the batch and the nodes. -/
theorem v99_ix (b : Fin 128) (n : Fin 512) (j : Fin 128) :
    val_main_v99 (F := Ideal) x7 (ix3 b n j) = x7 (ix1 j) := by
  rw [val_main_v99_apply, val_main_v98_apply]
  exact congrArg x7 (funext fun a => Fin.ext (by match a with | ⟨0, _⟩ => rfl))

/-- The broadcast zero of the positive part. -/
theorem call5_v0_ix (i : S128x512x128.Idx) : val_main_call5_v0 (F := Ideal) i = (0 : EReal) := by
  rw [val_main_call5_v0_apply, val_main_call5_cst_apply, Ideal.ofBits_def, Ideal.ofBits_zero_f32]

/-- The layer: the filter with its bias, then the positive part. -/
theorem v101_ix (hL : ∀ (b : Fin 128) (n m : Fin 512), val_main_v54 (F := Ideal) x1 x3 (ix3 b n m)
        = Cert.Gcn.lap (nodeE x1 x3 b) n m)
    (b : Fin 128) (n : Fin 512) (j : Fin 128) :
    val_main_v101 (F := Ideal) x0 x1 x2 x3 x4 x5 x6 x7 (ix3 b n j)
      = Cert.Gcn.layer (Cert.Gcn.lap (nodeE x1 x3 b)) (hidX x0 x1 x2 x3 x4 x5 b) (fun i a c => x6 (ix3 i a c)) (fun a => x7 (ix1 a)) n j := by
  rw [val_main_v101_apply, val_main_v100_apply, val_main_v97_apply, val_main_v93_apply,
    v89_ix, v92_ix x0 x1 x2 x3 x4 x5 x6 hL, v96_ix x0 x1 x2 x3 x4 x5 x6 hL, v99_ix, call5_v0_ix,
    Ideal.maximumf_def, Ideal.addf_def, Ideal.addf_def, Ideal.addf_def]
  rfl

end

/-! ### The result row -/

section
variable {α : Type}

/-- An `[p, q, a]` array and an `[p, q, c]` array joined along the last axis read, at a last coordinate below `a`,
    the first array there. -/
theorem concat3_apply_left {p q a c t : ℕ} (x₁ : (⟨3, ![p, q, a]⟩ : Shape).Idx → α) (x₂ : (⟨3, ![p, q, c]⟩ : Shape).Idx → α)
    (h : Shape.Concatenates [⟨3, ![p, q, a]⟩, ⟨3, ![p, q, c]⟩] ⟨3, ![p, q, t]⟩ 2) (r : Fin p) (s : Fin q) (k : Fin t)
    (hk : k.val < a) :
    concatenate ⟨3, ![p, q, t]⟩ 2 [⟨⟨3, ![p, q, a]⟩, x₁⟩, ⟨⟨3, ![p, q, c]⟩, x₂⟩] h (ix3 r s k) = x₁ (ix3 r s ⟨k.val, hk⟩) :=
  concatenate_pair_apply_left (t := ⟨3, ![p, q, t]⟩) (s₁ := ⟨3, ![p, q, a]⟩) (s₂ := ⟨3, ![p, q, c]⟩) 2 x₁ x₂ h (ix3 r s k) rfl
    (ix3 r s ⟨k.val, hk⟩) (fun d => by
      match d with
      | ⟨0, _⟩ => rfl
      | ⟨1, _⟩ => rfl
      | ⟨2, _⟩ => rfl)

/-- and, at a last coordinate from `a` on, the second array at that coordinate less `a`. -/
theorem concat3_apply_right {p q a c t : ℕ} (x₁ : (⟨3, ![p, q, a]⟩ : Shape).Idx → α) (x₂ : (⟨3, ![p, q, c]⟩ : Shape).Idx → α)
    (h : Shape.Concatenates [⟨3, ![p, q, a]⟩, ⟨3, ![p, q, c]⟩] ⟨3, ![p, q, t]⟩ 2) (r : Fin p) (s : Fin q) (k : Fin t)
    (hk : a ≤ k.val) (hb : k.val - a < c) :
    concatenate ⟨3, ![p, q, t]⟩ 2 [⟨⟨3, ![p, q, a]⟩, x₁⟩, ⟨⟨3, ![p, q, c]⟩, x₂⟩] h (ix3 r s k) = x₂ (ix3 r s ⟨k.val - a, hb⟩) :=
  concatenate_pair_apply_right (t := ⟨3, ![p, q, t]⟩) (s₁ := ⟨3, ![p, q, a]⟩) (s₂ := ⟨3, ![p, q, c]⟩) 2 x₁ x₂ h (ix3 r s k) rfl rfl
    (ix3 r s ⟨k.val - a, hb⟩) (fun d hd => by
      match d with
      | ⟨0, _⟩ => rfl
      | ⟨1, _⟩ => rfl
      | ⟨2, _⟩ => exact absurd rfl hd)
    (by show k.val - a + a = k.val; omega)

end

/-- The first layer's result, as a function of the node and the feature, is the specification's layer. -/
theorem hidX_eq (x0 x1 : (⟨S128x512, .i32⟩ : BufTy).Contents (Elt Ideal)) (x2 : (⟨S30000x128, .f32⟩ : BufTy).Contents (Elt Ideal))
    (x3 : (⟨S5000x512, .f32⟩ : BufTy).Contents (Elt Ideal)) (x4 : (⟨S3x128x128, .f32⟩ : BufTy).Contents (Elt Ideal))
    (x5 : (⟨S128, .f32⟩ : BufTy).Contents (Elt Ideal))
    (hL : ∀ (b : Fin 128) (n m : Fin 512), val_main_v54 (F := Ideal) x1 x3 (ix3 b n m)
        = Cert.Gcn.lap (nodeE x1 x3 b) n m) (b : Fin 128) :
    hidX x0 x1 x2 x3 x4 x5 b
      = Cert.Gcn.layer (Cert.Gcn.lap (nodeE x1 x3 b)) (embX x0 x2 b) (fun i a c => x4 (ix3 i a c)) (fun a => x5 (ix1 a)) :=
  funext fun a => funext fun d => v81_ix x0 x1 x2 x3 x4 x5 hL b a d

/-- The reference's result before its last reshape, at batch `b`, node `n` and column `j`: the specification's
    result row of graph `b`. -/
theorem v102_apply (x0 x1 : (⟨S128x512, .i32⟩ : BufTy).Contents (Elt Ideal)) (x2 : (⟨S30000x128, .f32⟩ : BufTy).Contents (Elt Ideal))
    (x3 : (⟨S5000x512, .f32⟩ : BufTy).Contents (Elt Ideal)) (x4 : (⟨S3x128x128, .f32⟩ : BufTy).Contents (Elt Ideal))
    (x5 : (⟨S128, .f32⟩ : BufTy).Contents (Elt Ideal)) (x6 : (⟨S3x128x128, .f32⟩ : BufTy).Contents (Elt Ideal))
    (x7 : (⟨S128, .f32⟩ : BufTy).Contents (Elt Ideal))
    (hL : ∀ (b : Fin 128) (n m : Fin 512), Cert.ReferenceIdeal.ReadP.val_main_v54 (F := Ideal) x1 x3 (ix3 b n m)
        = Cert.Gcn.lap (fun a k => Cert.ReferenceIdeal.ReadP.val_main_v6 (F := Ideal) x1 x3 (ix3 b a k)) n m)
    (b : Fin 128) (n : Fin 512) (j : Fin 640) :
    Cert.ReferenceIdeal.ReadP.val_main_v102 (F := Ideal) x0 x1 x2 x3 x4 x5 x6 x7 (ix3 b n j)
      = Cert.Gcn.out (fun a k => Cert.ReferenceIdeal.ReadP.val_main_v6 (F := Ideal) x1 x3 (ix3 b a k))
          (fun a d => Cert.ReferenceIdeal.ReadP.val_main_v61 (F := Ideal) x0 x2 (ix3 b a d))
          (fun i a c => x4 (ix3 i a c)) (fun a => x5 (ix1 a)) (fun i a c => x6 (ix3 i a c)) (fun a => x7 (ix1 a)) n j := by
  unfold val_main_v102 Cert.Gcn.out
  by_cases h : j.val < 128
  · rw [dif_pos h]
    refine (concat3_apply_left _ _ _ b n j h).trans ?_
    rw [v101_ix x0 x1 x2 x3 x4 x5 x6 x7 hL, hidX_eq x0 x1 x2 x3 x4 x5 hL]
  · rw [dif_neg h]
    exact concat3_apply_right _ _ _ b n j (by omega) (by have := j.isLt; omega)

end Cert.ReferenceIdeal.RCheb

end
-- ==== Proof.RefSegs.lean ====
/-
  The reference's @main as nine consecutive pieces of its operation list. Each piece ends where few buffers are still
  needed by later operations: the gathered node features; the similarity matrix; the mean of its upper triangle; the
  adjacency; the scaled Laplacian; the gathered layer input; the first layer's result; the second layer's result; the
  result. Reading the whole list at the result buffer at once would repeat every shared intermediate once per use; read
  piece by piece, each piece's results are short terms of what the piece finds.
-/
import proofs.«170040_j60687887892590_1_alg».proof.Proof.RefRunP

set_option maxRecDepth 16384

noncomputable section

namespace Cert.ReferenceIdeal.RefSegs

open Cert.ReferenceIdeal Cert.ReferenceIdeal.Gen Idealize.ShloMosaic Idealize.ShloMosaic.TcCoe Idealize.SL.Sem Idealize.ShloMosaic.StableHlo

variable {F : FTy → Type} [FloatOps F]

/-- Running two lists one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

abbrev seg1 : List (HloOp τ sig (Elt F)) :=
  [ nullary main_c (constantI S_ 32 0#32),
    unary main_c main_v0 (broadcastInDim S128x512 ![] bcast_S_S128x512 : (⟨S_, .i32⟩ : BufTy).Contents (Elt F) → (⟨S128x512, .i32⟩ : BufTy).Contents (Elt F)),
    binary main_arg1 main_v0 main_v1 (cmpi .slt : (⟨S128x512, .i32⟩ : BufTy).Contents (Elt F) → (⟨S128x512, .i32⟩ : BufTy).Contents (Elt F) → (⟨S128x512, .i1⟩ : BufTy).Contents (Elt F)),
    nullary main_c_0 (constantI S_ 32 5000#32),
    unary main_c_0 main_v2 (broadcastInDim S128x512 ![] bcast_S_S128x512 : (⟨S_, .i32⟩ : BufTy).Contents (Elt F) → (⟨S128x512, .i32⟩ : BufTy).Contents (Elt F)),
    binary main_arg1 main_v2 main_v3 (addi : (⟨S128x512, .i32⟩ : BufTy).Contents (Elt F) → (⟨S128x512, .i32⟩ : BufTy).Contents (Elt F) → (⟨S128x512, .i32⟩ : BufTy).Contents (Elt F)),
    ternary main_v1 main_v3 main_arg1 main_v4 (select : (⟨S128x512, .i1⟩ : BufTy).Contents (Elt F) → (⟨S128x512, .i32⟩ : BufTy).Contents (Elt F) → (⟨S128x512, .i32⟩ : BufTy).Contents (Elt F) → (⟨S128x512, .i32⟩ : BufTy).Contents (Elt F)),
    unary main_v4 main_v5 (broadcastInDim S128x512x1 ![0, 1] bcast_S128x512_S128x512x1_0_1 : (⟨S128x512, .i32⟩ : BufTy).Contents (Elt F) → (⟨S128x512x1, .i32⟩ : BufTy).Contents (Elt F)),
    binary main_arg3 main_v5 main_v6 ((fun x i => Host.gather gather_S5000x512_S128x512x1_S128x512x512_2_0_n_n_0_2_1512 x i) : (⟨S5000x512, .f32⟩ : BufTy).Contents (Elt F) → (⟨S128x512x1, .i32⟩ : BufTy).Contents (Elt F) → (⟨S128x512x512, .f32⟩ : BufTy).Contents (Elt F)) ]

abbrev seg2 : List (HloOp τ sig (Elt F)) :=
  [ TRef.binary (TRef.of (T := ⟨S128x512x512, .f32⟩) main_v6) (TRef.of (T := ⟨S128x512x512, .f32⟩) main_v6) (TRef.of (T := ⟨S128x512x512, .f32⟩) main_call0_v0) mulf,
    TRef.nullary (TRef.of (T := ⟨S_, .f32⟩) main_call0_cst) (constant S_ .f32 0x00000000#32),
    TRef.binary (TRef.of (T := ⟨S128x512x512, .f32⟩) main_call0_v0) (TRef.of (T := ⟨S_, .f32⟩) main_call0_cst) (TRef.of (T := ⟨S128x512, .f32⟩) main_call0_v1) (fun x v => Host.reduceAdd x v reducesTo_S128x512x512_S128x512_d2 h_S_),
    TRef.unary (TRef.of (T := ⟨S128x512, .f32⟩) main_call0_v1) (TRef.of (T := ⟨S128x512x1, .f32⟩) main_call0_v2) (broadcastInDim S128x512x1 ![0, 1] bcast_S128x512_S128x512x1_0_1),
    TRef.unary (TRef.of (T := ⟨S128x512x1, .f32⟩) main_call0_v2) (TRef.of (T := ⟨S128x512x1, .f32⟩) main_v7) Host.sqrt,
    nullary main_cst (constant S_ .f32 0x2B8CBCCC#32),
    unary main_cst main_v8 (broadcastInDim S128x512x1 ![] bcast_S_S128x512x1 : (⟨S_, .f32⟩ : BufTy).Contents (Elt F) → (⟨S128x512x1, .f32⟩ : BufTy).Contents (Elt F)),
    binary main_v7 main_v8 main_v9 (maximumf : (⟨S128x512x1, .f32⟩ : BufTy).Contents (Elt F) → (⟨S128x512x1, .f32⟩ : BufTy).Contents (Elt F) → (⟨S128x512x1, .f32⟩ : BufTy).Contents (Elt F)),
    unary main_v9 main_v10 (broadcastInDim S128x512x512 ![0, 1, 2] bcast_S128x512x1_S128x512x512_0_1_2 : (⟨S128x512x1, .f32⟩ : BufTy).Contents (Elt F) → (⟨S128x512x512, .f32⟩ : BufTy).Contents (Elt F)),
    binary main_v6 main_v10 main_v11 (Host.divf : (⟨S128x512x512, .f32⟩ : BufTy).Contents (Elt F) → (⟨S128x512x512, .f32⟩ : BufTy).Contents (Elt F) → (⟨S128x512x512, .f32⟩ : BufTy).Contents (Elt F)),
    binary main_v11 main_v11 main_v12 ((fun l r => Host.dotGeneral dot_S128x512x512_S128x512x512_S128x512x512_2_2_1_1_0_0 none l r) : (⟨S128x512x512, .f32⟩ : BufTy).Contents (Elt F) → (⟨S128x512x512, .f32⟩ : BufTy).Contents (Elt F) → (⟨S128x512x512, .f32⟩ : BufTy).Contents (Elt F)) ]

abbrev seg3 : List (HloOp τ sig (Elt F)) :=
  [ TRef.nullary (TRef.of (T := ⟨S512x512, .i32⟩) main_call1_v0) (iotaInDim S512x512 32 0),
    TRef.nullary (TRef.of (T := ⟨S_, .i32⟩) main_call1_c) (constantI S_ 32 0#32),
    TRef.unary (TRef.of (T := ⟨S_, .i32⟩) main_call1_c) (TRef.of (T := ⟨S512x512, .i32⟩) main_call1_v1) (broadcastInDim S512x512 ![] bcast_S_S512x512),
    TRef.binary (TRef.of (T := ⟨S512x512, .i32⟩) main_call1_v0) (TRef.of (T := ⟨S512x512, .i32⟩) main_call1_v1) (TRef.of (T := ⟨S512x512, .i32⟩) main_call1_v2) addi,
    TRef.nullary (TRef.of (T := ⟨S512x512, .i32⟩) main_call1_v3) (iotaInDim S512x512 32 1),
    TRef.binary (TRef.of (T := ⟨S512x512, .i32⟩) main_call1_v2) (TRef.of (T := ⟨S512x512, .i32⟩) main_call1_v3) (TRef.of (T := ⟨S512x512, .i1⟩) main_call1_v4) (cmpi .sge),
    TRef.unary (TRef.of (T := ⟨S512x512, .i1⟩) main_call1_v4) (TRef.of (T := ⟨S128x512x512, .i1⟩) main_call1_v5) (broadcastInDim S128x512x512 ![1, 2] bcast_S512x512_S128x512x512_1_2),
    TRef.nullary (TRef.of (T := ⟨S_, .f32⟩) main_call1_cst) (constant S_ .f32 0x00000000#32),
    TRef.unary (TRef.of (T := ⟨S_, .f32⟩) main_call1_cst) (TRef.of (T := ⟨S128x512x512, .f32⟩) main_call1_v6) (broadcastInDim S128x512x512 ![] bcast_S_S128x512x512),
    TRef.ternary (TRef.of (T := ⟨S128x512x512, .i1⟩) main_call1_v5) (TRef.of (T := ⟨S128x512x512, .f32⟩) main_call1_v6) (TRef.of (T := ⟨S128x512x512, .f32⟩) main_v12) (TRef.of (T := ⟨S128x512x512, .f32⟩) main_v13) select,
    nullary main_cst_1 (constant S_ .f32 0x00000000#32),
    unary main_cst_1 main_v14 (broadcastInDim S128x512x512 ![] bcast_S_S128x512x512 : (⟨S_, .f32⟩ : BufTy).Contents (Elt F) → (⟨S128x512x512, .f32⟩ : BufTy).Contents (Elt F)),
    binary main_v13 main_v14 main_v15 (cmpf .une : (⟨S128x512x512, .f32⟩ : BufTy).Contents (Elt F) → (⟨S128x512x512, .f32⟩ : BufTy).Contents (Elt F) → (⟨S128x512x512, .i1⟩ : BufTy).Contents (Elt F)),
    unary main_v15 main_v16 ((extui 32 · natLt_1_32) : (⟨S128x512x512, .i1⟩ : BufTy).Contents (Elt F) → (⟨S128x512x512, .i32⟩ : BufTy).Contents (Elt F)),
    nullary main_c_2 (constantI S_ 32 0#32),
    binary main_v16 main_c_2 main_v17 ((fun x v => Host.reduce IntOp.addi x v reducesTo_S128x512x512_S128_d1_2 h_S_) : (⟨S128x512x512, .i32⟩ : BufTy).Contents (Elt F) → (⟨S_, .i32⟩ : BufTy).Contents (Elt F) → (⟨S128, .i32⟩ : BufTy).Contents (Elt F)),
    unary main_v17 main_v18 (sitofp .f32 : (⟨S128, .i32⟩ : BufTy).Contents (Elt F) → (⟨S128, .f32⟩ : BufTy).Contents (Elt F)),
    nullary main_cst_3 (constant S_ .f32 0x00000000#32),
    binary main_v13 main_cst_3 main_v19 ((fun x v => Host.reduceAdd x v reducesTo_S128x512x512_S128_d1_2 h_S_) : (⟨S128x512x512, .f32⟩ : BufTy).Contents (Elt F) → (⟨S_, .f32⟩ : BufTy).Contents (Elt F) → (⟨S128, .f32⟩ : BufTy).Contents (Elt F)),
    nullary main_cst_4 (constant S_ .f32 0x3F800000#32),
    unary main_cst_4 main_v20 (broadcastInDim S128 ![] bcast_S_S128 : (⟨S_, .f32⟩ : BufTy).Contents (Elt F) → (⟨S128, .f32⟩ : BufTy).Contents (Elt F)),
    binary main_v18 main_v20 main_v21 (maximumf : (⟨S128, .f32⟩ : BufTy).Contents (Elt F) → (⟨S128, .f32⟩ : BufTy).Contents (Elt F) → (⟨S128, .f32⟩ : BufTy).Contents (Elt F)),
    binary main_v19 main_v21 main_v22 (Host.divf : (⟨S128, .f32⟩ : BufTy).Contents (Elt F) → (⟨S128, .f32⟩ : BufTy).Contents (Elt F) → (⟨S128, .f32⟩ : BufTy).Contents (Elt F)) ]

abbrev seg4 : List (HloOp τ sig (Elt F)) :=
  [ unary main_v22 main_v23 (broadcastInDim S128x1x1 ![0] bcast_S128_S128x1x1_0 : (⟨S128, .f32⟩ : BufTy).Contents (Elt F) → (⟨S128x1x1, .f32⟩ : BufTy).Contents (Elt F)),
    unary main_v23 main_v24 (broadcastInDim S128x512x512 ![0, 1, 2] bcast_S128x1x1_S128x512x512_0_1_2 : (⟨S128x1x1, .f32⟩ : BufTy).Contents (Elt F) → (⟨S128x512x512, .f32⟩ : BufTy).Contents (Elt F)),
    binary main_v12 main_v24 main_v25 (cmpf .olt : (⟨S128x512x512, .f32⟩ : BufTy).Contents (Elt F) → (⟨S128x512x512, .f32⟩ : BufTy).Contents (Elt F) → (⟨S128x512x512, .i1⟩ : BufTy).Contents (Elt F)),
    nullary main_cst_5 (constant S_ .f32 0x00000000#32),
    TRef.unary (TRef.of (T := ⟨S_, .f32⟩) main_cst_5) (TRef.of (T := ⟨S_, .f32⟩) main_call2_v0) id,
    TRef.unary (TRef.of (T := ⟨S_, .f32⟩) main_call2_v0) (TRef.of (T := ⟨S128x512x512, .f32⟩) main_call2_v1) (broadcastInDim S128x512x512 ![] bcast_S_S128x512x512),
    TRef.ternary (TRef.of (T := ⟨S128x512x512, .i1⟩) main_v25) (TRef.of (T := ⟨S128x512x512, .f32⟩) main_call2_v1) (TRef.of (T := ⟨S128x512x512, .f32⟩) main_v12) (TRef.of (T := ⟨S128x512x512, .f32⟩) main_v26) select,
    nullary main_cst_6 (constant S_ .f32 0x00000000#32),
    unary main_cst_6 main_v27 (broadcastInDim S128x512x512 ![] bcast_S_S128x512x512 : (⟨S_, .f32⟩ : BufTy).Contents (Elt F) → (⟨S128x512x512, .f32⟩ : BufTy).Contents (Elt F)),
    binary main_v26 main_v27 main_v28 (cmpf .une : (⟨S128x512x512, .f32⟩ : BufTy).Contents (Elt F) → (⟨S128x512x512, .f32⟩ : BufTy).Contents (Elt F) → (⟨S128x512x512, .i1⟩ : BufTy).Contents (Elt F)),
    unary main_v28 main_v29 (uitofp .f32 : (⟨S128x512x512, .i1⟩ : BufTy).Contents (Elt F) → (⟨S128x512x512, .f32⟩ : BufTy).Contents (Elt F)),
    nullary main_v30 (iotaInDim S512x512 32 0),
    nullary main_v31 (iotaInDim S512x512 32 1),
    nullary main_c_7 (constantI S_ 32 0#32),
    unary main_c_7 main_v32 (broadcastInDim S512x512 ![] bcast_S_S512x512 : (⟨S_, .i32⟩ : BufTy).Contents (Elt F) → (⟨S512x512, .i32⟩ : BufTy).Contents (Elt F)),
    binary main_v30 main_v32 main_v33 (addi : (⟨S512x512, .i32⟩ : BufTy).Contents (Elt F) → (⟨S512x512, .i32⟩ : BufTy).Contents (Elt F) → (⟨S512x512, .i32⟩ : BufTy).Contents (Elt F)),
    binary main_v33 main_v31 main_v34 (cmpi .eq : (⟨S512x512, .i32⟩ : BufTy).Contents (Elt F) → (⟨S512x512, .i32⟩ : BufTy).Contents (Elt F) → (⟨S512x512, .i1⟩ : BufTy).Contents (Elt F)),
    unary main_v34 main_v35 (uitofp .f32 : (⟨S512x512, .i1⟩ : BufTy).Contents (Elt F) → (⟨S512x512, .f32⟩ : BufTy).Contents (Elt F)),
    nullary main_cst_8 (constant S_ .f32 0x3F800000#32),
    unary main_cst_8 main_v36 (broadcastInDim S512x512 ![] bcast_S_S512x512 : (⟨S_, .f32⟩ : BufTy).Contents (Elt F) → (⟨S512x512, .f32⟩ : BufTy).Contents (Elt F)),
    binary main_v36 main_v35 main_v37 (subf : (⟨S512x512, .f32⟩ : BufTy).Contents (Elt F) → (⟨S512x512, .f32⟩ : BufTy).Contents (Elt F) → (⟨S512x512, .f32⟩ : BufTy).Contents (Elt F)),
    unary main_v37 main_v38 (broadcastInDim S1x512x512 ![1, 2] bcast_S512x512_S1x512x512_1_2 : (⟨S512x512, .f32⟩ : BufTy).Contents (Elt F) → (⟨S1x512x512, .f32⟩ : BufTy).Contents (Elt F)),
    unary main_v38 main_v39 (broadcastInDim S128x512x512 ![0, 1, 2] bcast_S1x512x512_S128x512x512_0_1_2 : (⟨S1x512x512, .f32⟩ : BufTy).Contents (Elt F) → (⟨S128x512x512, .f32⟩ : BufTy).Contents (Elt F)),
    binary main_v29 main_v39 main_v40 (mulf : (⟨S128x512x512, .f32⟩ : BufTy).Contents (Elt F) → (⟨S128x512x512, .f32⟩ : BufTy).Contents (Elt F) → (⟨S128x512x512, .f32⟩ : BufTy).Contents (Elt F)) ]

abbrev seg5 : List (HloOp τ sig (Elt F)) :=
  [ nullary main_cst_9 (constant S_ .f32 0x00000000#32),
    binary main_v40 main_cst_9 main_v41 ((fun x v => Host.reduceAdd x v reducesTo_S128x512x512_S128x512_d2 h_S_) : (⟨S128x512x512, .f32⟩ : BufTy).Contents (Elt F) → (⟨S_, .f32⟩ : BufTy).Contents (Elt F) → (⟨S128x512, .f32⟩ : BufTy).Contents (Elt F)),
    nullary main_cst_10 (constant S_ .f32 0x00000000#32),
    unary main_cst_10 main_v42 (broadcastInDim S128x512 ![] bcast_S_S128x512 : (⟨S_, .f32⟩ : BufTy).Contents (Elt F) → (⟨S128x512, .f32⟩ : BufTy).Contents (Elt F)),
    binary main_v41 main_v42 main_v43 (cmpf .ogt : (⟨S128x512, .f32⟩ : BufTy).Contents (Elt F) → (⟨S128x512, .f32⟩ : BufTy).Contents (Elt F) → (⟨S128x512, .i1⟩ : BufTy).Contents (Elt F)),
    nullary main_cst_11 (constant S_ .f32 0x2B8CBCCC#32),
    unary main_cst_11 main_v44 (broadcastInDim S128x512 ![] bcast_S_S128x512 : (⟨S_, .f32⟩ : BufTy).Contents (Elt F) → (⟨S128x512, .f32⟩ : BufTy).Contents (Elt F)),
    binary main_v41 main_v44 main_v45 (maximumf : (⟨S128x512, .f32⟩ : BufTy).Contents (Elt F) → (⟨S128x512, .f32⟩ : BufTy).Contents (Elt F) → (⟨S128x512, .f32⟩ : BufTy).Contents (Elt F)),
    unary main_v45 main_v46 (Host.rsqrt : (⟨S128x512, .f32⟩ : BufTy).Contents (Elt F) → (⟨S128x512, .f32⟩ : BufTy).Contents (Elt F)),
    nullary main_cst_12 (constant S_ .f32 0x00000000#32),
    TRef.unary (TRef.of (T := ⟨S_, .f32⟩) main_cst_12) (TRef.of (T := ⟨S_, .f32⟩) main_call3_v0) id,
    TRef.unary (TRef.of (T := ⟨S_, .f32⟩) main_call3_v0) (TRef.of (T := ⟨S128x512, .f32⟩) main_call3_v1) (broadcastInDim S128x512 ![] bcast_S_S128x512),
    TRef.ternary (TRef.of (T := ⟨S128x512, .i1⟩) main_v43) (TRef.of (T := ⟨S128x512, .f32⟩) main_v46) (TRef.of (T := ⟨S128x512, .f32⟩) main_call3_v1) (TRef.of (T := ⟨S128x512, .f32⟩) main_v47) select,
    unary main_v47 main_v48 (broadcastInDim S128x512x1 ![0, 1] bcast_S128x512_S128x512x1_0_1 : (⟨S128x512, .f32⟩ : BufTy).Contents (Elt F) → (⟨S128x512x1, .f32⟩ : BufTy).Contents (Elt F)),
    unary main_v48 main_v49 (broadcastInDim S128x512x512 ![0, 1, 2] bcast_S128x512x1_S128x512x512_0_1_2 : (⟨S128x512x1, .f32⟩ : BufTy).Contents (Elt F) → (⟨S128x512x512, .f32⟩ : BufTy).Contents (Elt F)),
    binary main_v49 main_v40 main_v50 (mulf : (⟨S128x512x512, .f32⟩ : BufTy).Contents (Elt F) → (⟨S128x512x512, .f32⟩ : BufTy).Contents (Elt F) → (⟨S128x512x512, .f32⟩ : BufTy).Contents (Elt F)),
    unary main_v47 main_v51 (broadcastInDim S128x1x512 ![0, 2] bcast_S128x512_S128x1x512_0_2 : (⟨S128x512, .f32⟩ : BufTy).Contents (Elt F) → (⟨S128x1x512, .f32⟩ : BufTy).Contents (Elt F)),
    unary main_v51 main_v52 (broadcastInDim S128x512x512 ![0, 1, 2] bcast_S128x1x512_S128x512x512_0_1_2 : (⟨S128x1x512, .f32⟩ : BufTy).Contents (Elt F) → (⟨S128x512x512, .f32⟩ : BufTy).Contents (Elt F)),
    binary main_v50 main_v52 main_v53 (mulf : (⟨S128x512x512, .f32⟩ : BufTy).Contents (Elt F) → (⟨S128x512x512, .f32⟩ : BufTy).Contents (Elt F) → (⟨S128x512x512, .f32⟩ : BufTy).Contents (Elt F)),
    unary main_v53 main_v54 (Host.negf : (⟨S128x512x512, .f32⟩ : BufTy).Contents (Elt F) → (⟨S128x512x512, .f32⟩ : BufTy).Contents (Elt F)) ]

abbrev seg6 : List (HloOp τ sig (Elt F)) :=
  [ nullary main_c_13 (constantI S_ 32 0#32),
    unary main_c_13 main_v55 (broadcastInDim S128x512 ![] bcast_S_S128x512 : (⟨S_, .i32⟩ : BufTy).Contents (Elt F) → (⟨S128x512, .i32⟩ : BufTy).Contents (Elt F)),
    binary main_arg0 main_v55 main_v56 (cmpi .slt : (⟨S128x512, .i32⟩ : BufTy).Contents (Elt F) → (⟨S128x512, .i32⟩ : BufTy).Contents (Elt F) → (⟨S128x512, .i1⟩ : BufTy).Contents (Elt F)),
    nullary main_c_14 (constantI S_ 32 30000#32),
    unary main_c_14 main_v57 (broadcastInDim S128x512 ![] bcast_S_S128x512 : (⟨S_, .i32⟩ : BufTy).Contents (Elt F) → (⟨S128x512, .i32⟩ : BufTy).Contents (Elt F)),
    binary main_arg0 main_v57 main_v58 (addi : (⟨S128x512, .i32⟩ : BufTy).Contents (Elt F) → (⟨S128x512, .i32⟩ : BufTy).Contents (Elt F) → (⟨S128x512, .i32⟩ : BufTy).Contents (Elt F)),
    ternary main_v56 main_v58 main_arg0 main_v59 (select : (⟨S128x512, .i1⟩ : BufTy).Contents (Elt F) → (⟨S128x512, .i32⟩ : BufTy).Contents (Elt F) → (⟨S128x512, .i32⟩ : BufTy).Contents (Elt F) → (⟨S128x512, .i32⟩ : BufTy).Contents (Elt F)),
    unary main_v59 main_v60 (broadcastInDim S128x512x1 ![0, 1] bcast_S128x512_S128x512x1_0_1 : (⟨S128x512, .i32⟩ : BufTy).Contents (Elt F) → (⟨S128x512x1, .i32⟩ : BufTy).Contents (Elt F)),
    binary main_arg2 main_v60 main_v61 ((fun x i => Host.gather gather_S30000x128_S128x512x1_S128x512x128_2_0_n_n_0_2_1128 x i) : (⟨S30000x128, .f32⟩ : BufTy).Contents (Elt F) → (⟨S128x512x1, .i32⟩ : BufTy).Contents (Elt F) → (⟨S128x512x128, .f32⟩ : BufTy).Contents (Elt F)) ]

abbrev seg7 : List (HloOp τ sig (Elt F)) :=
  [ binary main_v54 main_v61 main_v62 ((fun l r => Host.dotGeneral dot_S128x512x512_S128x512x128_S128x512x128_2_1_1_2_0_0 none l r) : (⟨S128x512x512, .f32⟩ : BufTy).Contents (Elt F) → (⟨S128x512x128, .f32⟩ : BufTy).Contents (Elt F) → (⟨S128x512x128, .f32⟩ : BufTy).Contents (Elt F)),
    binary main_v54 main_v62 main_v63 ((fun l r => Host.dotGeneral dot_S128x512x512_S128x512x128_S128x512x128_2_1_1_2_0_0 none l r) : (⟨S128x512x512, .f32⟩ : BufTy).Contents (Elt F) → (⟨S128x512x128, .f32⟩ : BufTy).Contents (Elt F) → (⟨S128x512x128, .f32⟩ : BufTy).Contents (Elt F)),
    nullary main_cst_15 (constant S_ .f32 0x40000000#32),
    unary main_cst_15 main_v64 (broadcastInDim S128x512x128 ![] bcast_S_S128x512x128 : (⟨S_, .f32⟩ : BufTy).Contents (Elt F) → (⟨S128x512x128, .f32⟩ : BufTy).Contents (Elt F)),
    binary main_v64 main_v63 main_v65 (mulf : (⟨S128x512x128, .f32⟩ : BufTy).Contents (Elt F) → (⟨S128x512x128, .f32⟩ : BufTy).Contents (Elt F) → (⟨S128x512x128, .f32⟩ : BufTy).Contents (Elt F)),
    binary main_v65 main_v61 main_v66 (subf : (⟨S128x512x128, .f32⟩ : BufTy).Contents (Elt F) → (⟨S128x512x128, .f32⟩ : BufTy).Contents (Elt F) → (⟨S128x512x128, .f32⟩ : BufTy).Contents (Elt F)),
    unary main_arg4 main_v67 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v67 main_v68 rfl shapeCasts_S1x128x128_S128x128,
    binary main_v61 main_v68 main_v69 ((fun l r => Host.dotGeneral dot_S128x512x128_S128x128_S128x512x128_2_0_01_1_n_n none l r) : (⟨S128x512x128, .f32⟩ : BufTy).Contents (Elt F) → (⟨S128x128, .f32⟩ : BufTy).Contents (Elt F) → (⟨S128x512x128, .f32⟩ : BufTy).Contents (Elt F)),
    unary main_arg4 main_v70 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v70 main_v71 rfl shapeCasts_S1x128x128_S128x128,
    binary main_v62 main_v71 main_v72 ((fun l r => Host.dotGeneral dot_S128x512x128_S128x128_S128x512x128_2_0_01_1_n_n none l r) : (⟨S128x512x128, .f32⟩ : BufTy).Contents (Elt F) → (⟨S128x128, .f32⟩ : BufTy).Contents (Elt F) → (⟨S128x512x128, .f32⟩ : BufTy).Contents (Elt F)),
    binary main_v69 main_v72 main_v73 (addf : (⟨S128x512x128, .f32⟩ : BufTy).Contents (Elt F) → (⟨S128x512x128, .f32⟩ : BufTy).Contents (Elt F) → (⟨S128x512x128, .f32⟩ : BufTy).Contents (Elt F)),
    unary main_arg4 main_v74 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v74 main_v75 rfl shapeCasts_S1x128x128_S128x128,
    binary main_v66 main_v75 main_v76 ((fun l r => Host.dotGeneral dot_S128x512x128_S128x128_S128x512x128_2_0_01_1_n_n none l r) : (⟨S128x512x128, .f32⟩ : BufTy).Contents (Elt F) → (⟨S128x128, .f32⟩ : BufTy).Contents (Elt F) → (⟨S128x512x128, .f32⟩ : BufTy).Contents (Elt F)),
    binary main_v73 main_v76 main_v77 (addf : (⟨S128x512x128, .f32⟩ : BufTy).Contents (Elt F) → (⟨S128x512x128, .f32⟩ : BufTy).Contents (Elt F) → (⟨S128x512x128, .f32⟩ : BufTy).Contents (Elt F)),
    unary main_arg5 main_v78 (broadcastInDim S1x1x128 ![2] bcast_S128_S1x1x128_2 : (⟨S128, .f32⟩ : BufTy).Contents (Elt F) → (⟨S1x1x128, .f32⟩ : BufTy).Contents (Elt F)),
    unary main_v78 main_v79 (broadcastInDim S128x512x128 ![0, 1, 2] bcast_S1x1x128_S128x512x128_0_1_2 : (⟨S1x1x128, .f32⟩ : BufTy).Contents (Elt F) → (⟨S128x512x128, .f32⟩ : BufTy).Contents (Elt F)),
    binary main_v77 main_v79 main_v80 (addf : (⟨S128x512x128, .f32⟩ : BufTy).Contents (Elt F) → (⟨S128x512x128, .f32⟩ : BufTy).Contents (Elt F) → (⟨S128x512x128, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S128x512x128, .f32⟩) main_call4_v0) (broadcastInDim S128x512x128 ![] bcast_S_S128x512x128),
    TRef.binary (TRef.of (T := ⟨S128x512x128, .f32⟩) main_v80) (TRef.of (T := ⟨S128x512x128, .f32⟩) main_call4_v0) (TRef.of (T := ⟨S128x512x128, .f32⟩) main_v81) maximumf ]

abbrev seg8 : List (HloOp τ sig (Elt F)) :=
  [ binary main_v54 main_v81 main_v82 ((fun l r => Host.dotGeneral dot_S128x512x512_S128x512x128_S128x512x128_2_1_1_2_0_0 none l r) : (⟨S128x512x512, .f32⟩ : BufTy).Contents (Elt F) → (⟨S128x512x128, .f32⟩ : BufTy).Contents (Elt F) → (⟨S128x512x128, .f32⟩ : BufTy).Contents (Elt F)),
    binary main_v54 main_v82 main_v83 ((fun l r => Host.dotGeneral dot_S128x512x512_S128x512x128_S128x512x128_2_1_1_2_0_0 none l r) : (⟨S128x512x512, .f32⟩ : BufTy).Contents (Elt F) → (⟨S128x512x128, .f32⟩ : BufTy).Contents (Elt F) → (⟨S128x512x128, .f32⟩ : BufTy).Contents (Elt F)),
    nullary main_cst_16 (constant S_ .f32 0x40000000#32),
    unary main_cst_16 main_v84 (broadcastInDim S128x512x128 ![] bcast_S_S128x512x128 : (⟨S_, .f32⟩ : BufTy).Contents (Elt F) → (⟨S128x512x128, .f32⟩ : BufTy).Contents (Elt F)),
    binary main_v84 main_v83 main_v85 (mulf : (⟨S128x512x128, .f32⟩ : BufTy).Contents (Elt F) → (⟨S128x512x128, .f32⟩ : BufTy).Contents (Elt F) → (⟨S128x512x128, .f32⟩ : BufTy).Contents (Elt F)),
    binary main_v85 main_v81 main_v86 (subf : (⟨S128x512x128, .f32⟩ : BufTy).Contents (Elt F) → (⟨S128x512x128, .f32⟩ : BufTy).Contents (Elt F) → (⟨S128x512x128, .f32⟩ : BufTy).Contents (Elt F)),
    unary main_arg6 main_v87 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v87 main_v88 rfl shapeCasts_S1x128x128_S128x128,
    binary main_v81 main_v88 main_v89 ((fun l r => Host.dotGeneral dot_S128x512x128_S128x128_S128x512x128_2_0_01_1_n_n none l r) : (⟨S128x512x128, .f32⟩ : BufTy).Contents (Elt F) → (⟨S128x128, .f32⟩ : BufTy).Contents (Elt F) → (⟨S128x512x128, .f32⟩ : BufTy).Contents (Elt F)),
    unary main_arg6 main_v90 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v90 main_v91 rfl shapeCasts_S1x128x128_S128x128,
    binary main_v82 main_v91 main_v92 ((fun l r => Host.dotGeneral dot_S128x512x128_S128x128_S128x512x128_2_0_01_1_n_n none l r) : (⟨S128x512x128, .f32⟩ : BufTy).Contents (Elt F) → (⟨S128x128, .f32⟩ : BufTy).Contents (Elt F) → (⟨S128x512x128, .f32⟩ : BufTy).Contents (Elt F)),
    binary main_v89 main_v92 main_v93 (addf : (⟨S128x512x128, .f32⟩ : BufTy).Contents (Elt F) → (⟨S128x512x128, .f32⟩ : BufTy).Contents (Elt F) → (⟨S128x512x128, .f32⟩ : BufTy).Contents (Elt F)),
    unary main_arg6 main_v94 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v94 main_v95 rfl shapeCasts_S1x128x128_S128x128,
    binary main_v86 main_v95 main_v96 ((fun l r => Host.dotGeneral dot_S128x512x128_S128x128_S128x512x128_2_0_01_1_n_n none l r) : (⟨S128x512x128, .f32⟩ : BufTy).Contents (Elt F) → (⟨S128x128, .f32⟩ : BufTy).Contents (Elt F) → (⟨S128x512x128, .f32⟩ : BufTy).Contents (Elt F)),
    binary main_v93 main_v96 main_v97 (addf : (⟨S128x512x128, .f32⟩ : BufTy).Contents (Elt F) → (⟨S128x512x128, .f32⟩ : BufTy).Contents (Elt F) → (⟨S128x512x128, .f32⟩ : BufTy).Contents (Elt F)),
    unary main_arg7 main_v98 (broadcastInDim S1x1x128 ![2] bcast_S128_S1x1x128_2 : (⟨S128, .f32⟩ : BufTy).Contents (Elt F) → (⟨S1x1x128, .f32⟩ : BufTy).Contents (Elt F)),
    unary main_v98 main_v99 (broadcastInDim S128x512x128 ![0, 1, 2] bcast_S1x1x128_S128x512x128_0_1_2 : (⟨S1x1x128, .f32⟩ : BufTy).Contents (Elt F) → (⟨S128x512x128, .f32⟩ : BufTy).Contents (Elt F)),
    binary main_v97 main_v99 main_v100 (addf : (⟨S128x512x128, .f32⟩ : BufTy).Contents (Elt F) → (⟨S128x512x128, .f32⟩ : BufTy).Contents (Elt F) → (⟨S128x512x128, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S128x512x128, .f32⟩) main_call5_v0) (broadcastInDim S128x512x128 ![] bcast_S_S128x512x128),
    TRef.binary (TRef.of (T := ⟨S128x512x128, .f32⟩) main_v100) (TRef.of (T := ⟨S128x512x128, .f32⟩) main_call5_v0) (TRef.of (T := ⟨S128x512x128, .f32⟩) main_v101) maximumf ]

abbrev seg9 : List (HloOp τ sig (Elt F)) :=
  [ binary main_v101 main_v6 main_v102 ((fun a b => concatenate S128x512x640 2 [⟨S128x512x128, a⟩, ⟨S128x512x512, b⟩] concatenates_S128x512x128_S128x512x512_S128x512x640_d2) : (⟨S128x512x128, .f32⟩ : BufTy).Contents (Elt F) → (⟨S128x512x512, .f32⟩ : BufTy).Contents (Elt F) → (⟨S128x512x640, .f32⟩ : BufTy).Contents (Elt F)),
    reshape main_v102 main_v103 rfl shapeCasts_S128x512x640_S65536x640 ]

set_option maxHeartbeats 4000000 in
/-- The operation list is the nine pieces in order. -/
theorem ops_split : (Cert.ReferenceIdeal.ValueP.ops : List (HloOp τ sig (Elt F)))
    = seg1 ++ (seg2 ++ (seg3 ++ (seg4 ++ (seg5 ++ (seg6 ++ (seg7 ++ (seg8 ++ seg9))))))) := rfl

end Cert.ReferenceIdeal.RefSegs

end
-- ==== Proof.LibTRef.lean ====
/-
  A called function's buffers hold values at the function's own types; an operation inside the call reads and writes a
  buffer through a transport along the equation between the buffer's type and the value's type. Carrying a value to the
  buffer's type and back gives the value again, so a chain of operations inside a call composes as if there were no
  transports.
-/
import Idealize.ShloMosaic.Lib.StableHlo

namespace Cert.TRefLemmas

open Idealize.ShloMosaic

/-- Contents carried to a buffer's type and back are unchanged. -/
theorem ofBuf_toBuf {sg : RefSig} {Vl : EltTy → Type} {T : BufTy} (x : StableHlo.TRef sg T) (v : T.Contents Vl) :
    x.ofBuf (x.toBuf v) = v := by
  unfold StableHlo.TRef.ofBuf StableHlo.TRef.toBuf
  simp

end Cert.TRefLemmas
-- ==== Proof.RefRun.lean ====
/-
  The reference's run, read piece by piece. For each of the nine pieces of the operation list (Proof/RefSegs.lean): what
  the piece writes at the buffers later pieces read, as the operation-by-operation stages (Proof/RefReadP.lean) of the
  argument arrays, given that the buffers the piece reads hold their stages; and which buffers it leaves alone. Chained,
  the result buffer after the whole list holds the last stage; with the library's run of a straight line of host
  operations this is the reference's run.
-/
import proofs.«170040_j60687887892590_1_alg».proof.Proof.RefSegs
import proofs.«170040_j60687887892590_1_alg».proof.Proof.RefReadP
import proofs.«170040_j60687887892590_1_alg».proof.Proof.LibTRef
import Idealize.ShloMosaic.Lib.StableHlo.Run
import Idealize.ShloMosaic.Lib.Tactic

set_option maxRecDepth 16384

noncomputable section

namespace Cert.ReferenceIdeal.RefRun

open Cert.ReferenceIdeal Cert.ReferenceIdeal.Gen Cert.ReferenceIdeal.ReadP Cert.ReferenceIdeal.RefSegs
open Idealize.ShloMosaic Idealize.ShloMosaic.TcCoe Idealize.SL.Sem Idealize.ShloMosaic.StableHlo
open Cert.TRefLemmas

variable {F : FTy → Type} [FloatOps F]

/-! ### Piece 1: the gathered node features -/

theorem s1_v6 (W : Valuation τ sig (Elt F)) :
    after seg1 W (Proc.devRef .tc main_v6) = val_main_v6 (F := F) (W (Proc.devRef .tc main_arg1)) (W (Proc.devRef .tc main_arg3)) := by
  after_results_simp
  rfl

/-- Piece 1 leaves these buffers as it finds them. -/
theorem s1_keep (W : Valuation τ sig (Elt F)) :
    after seg1 W (Proc.devRef .tc main_arg0) = W (Proc.devRef .tc main_arg0)
    ∧ after seg1 W (Proc.devRef .tc main_arg2) = W (Proc.devRef .tc main_arg2)
    ∧ after seg1 W (Proc.devRef .tc main_arg4) = W (Proc.devRef .tc main_arg4)
    ∧ after seg1 W (Proc.devRef .tc main_arg5) = W (Proc.devRef .tc main_arg5)
    ∧ after seg1 W (Proc.devRef .tc main_arg6) = W (Proc.devRef .tc main_arg6)
    ∧ after seg1 W (Proc.devRef .tc main_arg7) = W (Proc.devRef .tc main_arg7) := by
  refine ⟨?_, ?_, ?_, ?_, ?_, ?_⟩ <;> after_results_simp

/-! ### Piece 2: the similarity matrix -/

theorem s2_v12 (W : Valuation τ sig (Elt F)) (x1 : (⟨S128x512, .i32⟩ : BufTy).Contents (Elt F)) (x3 : (⟨S5000x512, .f32⟩ : BufTy).Contents (Elt F))
    (h6 : W (Proc.devRef .tc main_v6) = val_main_v6 (F := F) x1 x3) :
    after seg2 W (Proc.devRef .tc main_v12) = val_main_v12 (F := F) x1 x3 := by
  after_results_simp
  simp only [ofBuf_toBuf, h6]
  rfl

/-- Piece 2 leaves these buffers as it finds them. -/
theorem s2_keep (W : Valuation τ sig (Elt F)) :
    after seg2 W (Proc.devRef .tc main_v6) = W (Proc.devRef .tc main_v6)
    ∧ after seg2 W (Proc.devRef .tc main_arg0) = W (Proc.devRef .tc main_arg0)
    ∧ after seg2 W (Proc.devRef .tc main_arg2) = W (Proc.devRef .tc main_arg2)
    ∧ after seg2 W (Proc.devRef .tc main_arg4) = W (Proc.devRef .tc main_arg4)
    ∧ after seg2 W (Proc.devRef .tc main_arg5) = W (Proc.devRef .tc main_arg5)
    ∧ after seg2 W (Proc.devRef .tc main_arg6) = W (Proc.devRef .tc main_arg6)
    ∧ after seg2 W (Proc.devRef .tc main_arg7) = W (Proc.devRef .tc main_arg7) := by
  refine ⟨?_, ?_, ?_, ?_, ?_, ?_, ?_⟩ <;> after_results_simp

/-! ### Piece 3: the mean of the upper triangle -/

theorem s3_v22 (W : Valuation τ sig (Elt F)) (x1 : (⟨S128x512, .i32⟩ : BufTy).Contents (Elt F)) (x3 : (⟨S5000x512, .f32⟩ : BufTy).Contents (Elt F))
    (h12 : W (Proc.devRef .tc main_v12) = val_main_v12 (F := F) x1 x3) :
    after seg3 W (Proc.devRef .tc main_v22) = val_main_v22 (F := F) x1 x3 := by
  after_results_simp
  simp only [ofBuf_toBuf, h12]
  rfl

/-- Piece 3 leaves these buffers as it finds them. -/
theorem s3_keep (W : Valuation τ sig (Elt F)) :
    after seg3 W (Proc.devRef .tc main_v12) = W (Proc.devRef .tc main_v12)
    ∧ after seg3 W (Proc.devRef .tc main_v6) = W (Proc.devRef .tc main_v6)
    ∧ after seg3 W (Proc.devRef .tc main_arg0) = W (Proc.devRef .tc main_arg0)
    ∧ after seg3 W (Proc.devRef .tc main_arg2) = W (Proc.devRef .tc main_arg2)
    ∧ after seg3 W (Proc.devRef .tc main_arg4) = W (Proc.devRef .tc main_arg4)
    ∧ after seg3 W (Proc.devRef .tc main_arg5) = W (Proc.devRef .tc main_arg5)
    ∧ after seg3 W (Proc.devRef .tc main_arg6) = W (Proc.devRef .tc main_arg6)
    ∧ after seg3 W (Proc.devRef .tc main_arg7) = W (Proc.devRef .tc main_arg7) := by
  refine ⟨?_, ?_, ?_, ?_, ?_, ?_, ?_, ?_⟩ <;> after_results_simp

/-! ### Piece 4: the adjacency -/

theorem s4_v40 (W : Valuation τ sig (Elt F)) (x1 : (⟨S128x512, .i32⟩ : BufTy).Contents (Elt F)) (x3 : (⟨S5000x512, .f32⟩ : BufTy).Contents (Elt F))
    (h12 : W (Proc.devRef .tc main_v12) = val_main_v12 (F := F) x1 x3) (h22 : W (Proc.devRef .tc main_v22) = val_main_v22 (F := F) x1 x3) :
    after seg4 W (Proc.devRef .tc main_v40) = val_main_v40 (F := F) x1 x3 := by
  after_results_simp
  simp only [ofBuf_toBuf, h12, h22]
  rfl

/-- Piece 4 leaves these buffers as it finds them. -/
theorem s4_keep (W : Valuation τ sig (Elt F)) :
    after seg4 W (Proc.devRef .tc main_v6) = W (Proc.devRef .tc main_v6)
    ∧ after seg4 W (Proc.devRef .tc main_arg0) = W (Proc.devRef .tc main_arg0)
    ∧ after seg4 W (Proc.devRef .tc main_arg2) = W (Proc.devRef .tc main_arg2)
    ∧ after seg4 W (Proc.devRef .tc main_arg4) = W (Proc.devRef .tc main_arg4)
    ∧ after seg4 W (Proc.devRef .tc main_arg5) = W (Proc.devRef .tc main_arg5)
    ∧ after seg4 W (Proc.devRef .tc main_arg6) = W (Proc.devRef .tc main_arg6)
    ∧ after seg4 W (Proc.devRef .tc main_arg7) = W (Proc.devRef .tc main_arg7) := by
  refine ⟨?_, ?_, ?_, ?_, ?_, ?_, ?_⟩ <;> after_results_simp

/-! ### Piece 5: the scaled Laplacian -/

theorem s5_v54 (W : Valuation τ sig (Elt F)) (x1 : (⟨S128x512, .i32⟩ : BufTy).Contents (Elt F)) (x3 : (⟨S5000x512, .f32⟩ : BufTy).Contents (Elt F))
    (h40 : W (Proc.devRef .tc main_v40) = val_main_v40 (F := F) x1 x3) :
    after seg5 W (Proc.devRef .tc main_v54) = val_main_v54 (F := F) x1 x3 := by
  after_results_simp
  simp only [ofBuf_toBuf, h40]
  rfl

/-- Piece 5 leaves these buffers as it finds them. -/
theorem s5_keep (W : Valuation τ sig (Elt F)) :
    after seg5 W (Proc.devRef .tc main_v6) = W (Proc.devRef .tc main_v6)
    ∧ after seg5 W (Proc.devRef .tc main_arg0) = W (Proc.devRef .tc main_arg0)
    ∧ after seg5 W (Proc.devRef .tc main_arg2) = W (Proc.devRef .tc main_arg2)
    ∧ after seg5 W (Proc.devRef .tc main_arg4) = W (Proc.devRef .tc main_arg4)
    ∧ after seg5 W (Proc.devRef .tc main_arg5) = W (Proc.devRef .tc main_arg5)
    ∧ after seg5 W (Proc.devRef .tc main_arg6) = W (Proc.devRef .tc main_arg6)
    ∧ after seg5 W (Proc.devRef .tc main_arg7) = W (Proc.devRef .tc main_arg7) := by
  refine ⟨?_, ?_, ?_, ?_, ?_, ?_, ?_⟩ <;> after_results_simp

/-! ### Piece 6: the gathered layer input -/

theorem s6_v61 (W : Valuation τ sig (Elt F)) :
    after seg6 W (Proc.devRef .tc main_v61) = val_main_v61 (F := F) (W (Proc.devRef .tc main_arg0)) (W (Proc.devRef .tc main_arg2)) := by
  after_results_simp
  rfl

/-- Piece 6 leaves these buffers as it finds them. -/
theorem s6_keep (W : Valuation τ sig (Elt F)) :
    after seg6 W (Proc.devRef .tc main_v54) = W (Proc.devRef .tc main_v54)
    ∧ after seg6 W (Proc.devRef .tc main_v6) = W (Proc.devRef .tc main_v6)
    ∧ after seg6 W (Proc.devRef .tc main_arg4) = W (Proc.devRef .tc main_arg4)
    ∧ after seg6 W (Proc.devRef .tc main_arg5) = W (Proc.devRef .tc main_arg5)
    ∧ after seg6 W (Proc.devRef .tc main_arg6) = W (Proc.devRef .tc main_arg6)
    ∧ after seg6 W (Proc.devRef .tc main_arg7) = W (Proc.devRef .tc main_arg7) := by
  refine ⟨?_, ?_, ?_, ?_, ?_, ?_⟩ <;> after_results_simp

/-! ### Piece 7: the first layer -/

theorem s7_v81 (W : Valuation τ sig (Elt F)) (x0 x1 : (⟨S128x512, .i32⟩ : BufTy).Contents (Elt F)) (x2 : (⟨S30000x128, .f32⟩ : BufTy).Contents (Elt F)) (x3 : (⟨S5000x512, .f32⟩ : BufTy).Contents (Elt F))
    (h54 : W (Proc.devRef .tc main_v54) = val_main_v54 (F := F) x1 x3) (h61 : W (Proc.devRef .tc main_v61) = val_main_v61 (F := F) x0 x2) :
    after seg7 W (Proc.devRef .tc main_v81)
      = val_main_v81 (F := F) x0 x1 x2 x3 (W (Proc.devRef .tc main_arg4)) (W (Proc.devRef .tc main_arg5)) := by
  after_results_simp
  simp only [ofBuf_toBuf, h54, h61]
  rfl

/-- Piece 7 leaves these buffers as it finds them. -/
theorem s7_keep (W : Valuation τ sig (Elt F)) :
    after seg7 W (Proc.devRef .tc main_v54) = W (Proc.devRef .tc main_v54)
    ∧ after seg7 W (Proc.devRef .tc main_v6) = W (Proc.devRef .tc main_v6)
    ∧ after seg7 W (Proc.devRef .tc main_arg6) = W (Proc.devRef .tc main_arg6)
    ∧ after seg7 W (Proc.devRef .tc main_arg7) = W (Proc.devRef .tc main_arg7) := by
  refine ⟨?_, ?_, ?_, ?_⟩ <;> after_results_simp

/-! ### Piece 8: the second layer -/

theorem s8_v101 (W : Valuation τ sig (Elt F)) (x0 x1 : (⟨S128x512, .i32⟩ : BufTy).Contents (Elt F)) (x2 : (⟨S30000x128, .f32⟩ : BufTy).Contents (Elt F)) (x3 : (⟨S5000x512, .f32⟩ : BufTy).Contents (Elt F))
    (x4 : (⟨S3x128x128, .f32⟩ : BufTy).Contents (Elt F)) (x5 : (⟨S128, .f32⟩ : BufTy).Contents (Elt F))
    (h54 : W (Proc.devRef .tc main_v54) = val_main_v54 (F := F) x1 x3) (h81 : W (Proc.devRef .tc main_v81) = val_main_v81 (F := F) x0 x1 x2 x3 x4 x5) :
    after seg8 W (Proc.devRef .tc main_v101)
      = val_main_v101 (F := F) x0 x1 x2 x3 x4 x5 (W (Proc.devRef .tc main_arg6)) (W (Proc.devRef .tc main_arg7)) := by
  after_results_simp
  simp only [ofBuf_toBuf, h54, h81]
  rfl

/-- Piece 8 leaves these buffers as it finds them. -/
theorem s8_keep (W : Valuation τ sig (Elt F)) :
    after seg8 W (Proc.devRef .tc main_v6) = W (Proc.devRef .tc main_v6) := by
  after_results_simp

/-! ### Piece 9: the result -/

theorem s9_v103 (W : Valuation τ sig (Elt F)) (x0 x1 : (⟨S128x512, .i32⟩ : BufTy).Contents (Elt F)) (x2 : (⟨S30000x128, .f32⟩ : BufTy).Contents (Elt F)) (x3 : (⟨S5000x512, .f32⟩ : BufTy).Contents (Elt F))
    (x4 : (⟨S3x128x128, .f32⟩ : BufTy).Contents (Elt F)) (x5 : (⟨S128, .f32⟩ : BufTy).Contents (Elt F)) (x6 : (⟨S3x128x128, .f32⟩ : BufTy).Contents (Elt F)) (x7 : (⟨S128, .f32⟩ : BufTy).Contents (Elt F))
    (h101 : W (Proc.devRef .tc main_v101) = val_main_v101 (F := F) x0 x1 x2 x3 x4 x5 x6 x7) (h6 : W (Proc.devRef .tc main_v6) = val_main_v6 (F := F) x1 x3) :
    after seg9 W (Proc.devRef .tc main_v103) = val_main_v103 (F := F) x0 x1 x2 x3 x4 x5 x6 x7 := by
  after_results
  rw [h101, h6]
  rfl

/-! ### The whole list -/

/-- After all of @main's operations the result buffer holds the last stage of the argument arrays. -/
theorem after_ops (V : Valuation τ sig (Elt F)) :
    after (Cert.ReferenceIdeal.ValueP.ops : List (HloOp τ sig (Elt F))) V (Proc.devRef .tc main_v103)
      = val_main_v103 (F := F) (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) (V (Proc.devRef .tc main_arg7)) := by
  rw [ops_split, after_append, after_append, after_append, after_append, after_append, after_append, after_append, after_append]
  have e1 := s1_v6 V
  obtain ⟨k1a0, k1a2, k1a4, k1a5, k1a6, k1a7⟩ := s1_keep V
  have e2 := s2_v12 (after seg1 V) _ _ e1
  obtain ⟨k2v6, k2a0, k2a2, k2a4, k2a5, k2a6, k2a7⟩ := s2_keep (after seg1 V)
  have e3 := s3_v22 (after seg2 (after seg1 V)) _ _ e2
  obtain ⟨k3v12, k3v6, k3a0, k3a2, k3a4, k3a5, k3a6, k3a7⟩ := s3_keep (after seg2 (after seg1 V))
  have e4 := s4_v40 (after seg3 (after seg2 (after seg1 V))) _ _ (k3v12.trans e2) e3
  obtain ⟨k4v6, k4a0, k4a2, k4a4, k4a5, k4a6, k4a7⟩ := s4_keep (after seg3 (after seg2 (after seg1 V)))
  have e5 := s5_v54 (after seg4 (after seg3 (after seg2 (after seg1 V)))) _ _ e4
  obtain ⟨k5v6, k5a0, k5a2, k5a4, k5a5, k5a6, k5a7⟩ := s5_keep (after seg4 (after seg3 (after seg2 (after seg1 V))))
  have e6 := s6_v61 (after seg5 (after seg4 (after seg3 (after seg2 (after seg1 V)))))
  obtain ⟨k6v54, k6v6, k6a4, k6a5, k6a6, k6a7⟩ := s6_keep (after seg5 (after seg4 (after seg3 (after seg2 (after seg1 V)))))
  rw [k5a0.trans (k4a0.trans (k3a0.trans (k2a0.trans k1a0))), k5a2.trans (k4a2.trans (k3a2.trans (k2a2.trans k1a2)))] at e6
  have h6_6 := k6v6.trans (k5v6.trans (k4v6.trans (k3v6.trans (k2v6.trans e1))))
  have e7 := s7_v81 (after seg6 (after seg5 (after seg4 (after seg3 (after seg2 (after seg1 V)))))) _ _ _ _ (k6v54.trans e5) e6
  rw [k6a4.trans (k5a4.trans (k4a4.trans (k3a4.trans (k2a4.trans k1a4)))), k6a5.trans (k5a5.trans (k4a5.trans (k3a5.trans (k2a5.trans k1a5))))] at e7
  obtain ⟨k7v54, k7v6, k7a6, k7a7⟩ := s7_keep (after seg6 (after seg5 (after seg4 (after seg3 (after seg2 (after seg1 V))))))
  have e8 := s8_v101 (after seg7 (after seg6 (after seg5 (after seg4 (after seg3 (after seg2 (after seg1 V))))))) _ _ _ _ _ _ (k7v54.trans (k6v54.trans e5)) e7
  rw [k7a6.trans (k6a6.trans (k5a6.trans (k4a6.trans (k3a6.trans (k2a6.trans k1a6))))), k7a7.trans (k6a7.trans (k5a7.trans (k4a7.trans (k3a7.trans (k2a7.trans k1a7)))))] at e8
  have k8v6 := s8_keep (after seg7 (after seg6 (after seg5 (after seg4 (after seg3 (after seg2 (after seg1 V)))))))
  exact s9_v103 _ _ _ _ _ _ _ _ _ e8 (k8v6.trans (k7v6.trans h6_6))

set_option maxRecDepth 65536 in
set_option maxHeartbeats 57600000 in
/-- On every device, from any memory with zero counters: every weakly fair execution of the reference terminates with
    its result at the last stage of the argument arrays and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v103)
        = val_main_v103 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v103).trans (after_ops (launchContents m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl)⟩)
    (run_seq Cert.ReferenceIdeal.ValueP.scopedRefs_eq Cert.ReferenceIdeal.ValueP.scopedSems_eq defs main (fun _ => Cert.ReferenceIdeal.ValueP.ops)
      Cert.ReferenceIdeal.ValueP.main_eq (fun _ => Cert.ReferenceIdeal.ValueP.ops_sub) m ρ)

end Cert.ReferenceIdeal.RefRun

end
-- ==== Proof.lean ====
/-
  The kernel: for each of 128 graphs of 512 nodes, a similarity graph is built from the gathered node features (rows
  normalized by their Euclidean norm, pairwise inner products, an edge where the similarity is at least the mean of the
  non-zero similarities above the diagonal, the adjacency scaled on both sides by the inverse square roots of the
  degrees and negated), two Chebyshev layers of order three are applied over it, and the node features are appended.
  The kernel does this one graph per grid point; the reference does it for all graphs at once with batched operations.

  Over the extended reals both compute the function `Cert.Gcn.whole` (Proof/Spec.lean, Proof/Whole.lean) of the argument
  arrays: format changes are the identity, a matrix product into a zero accumulator is the host's contraction, a lane sum
  is the host's sum, and the only differences are arrangements that need no finiteness — the kernel counts a node's
  edges down its column where the reference counts along its row (the similarity is symmetric because the product of
  extended reals commutes), the kernel counts the non-zero similarities by adding ones where the reference adds
  one-bit words as integers, selects 0/1 where the reference multiplies by one minus the identity matrix, and subtracts
  from zero where the reference negates. The kernel side is read off the generated frame run (Proof/KGraph.lean,
  Proof/KCheb.lean, Proof/KValue.lean), the reference side off its operations one at a time (Proof/RefRun.lean,
  Proof/RGraph.lean, Proof/RCheb.lean); the precondition is never opened.
-/
import proofs.«170040_j60687887892590_1_alg».proof.Defs
import proofs.«170040_j60687887892590_1_alg».proof.Proof.Gen.Kernel
import proofs.«170040_j60687887892590_1_alg».proof.Proof.Gen.Kernel.Skeleton
import proofs.«170040_j60687887892590_1_alg».proof.Proof.Gen.Kernel.Launch
import proofs.«170040_j60687887892590_1_alg».proof.Proof.Gen.Kernel.Points
import proofs.«170040_j60687887892590_1_alg».proof.Proof.Gen.Kernel.Frame
import proofs.«170040_j60687887892590_1_alg».proof.Proof.Gen.KernelIdeal
import proofs.«170040_j60687887892590_1_alg».proof.Proof.Gen.KernelIdeal.Skeleton
import proofs.«170040_j60687887892590_1_alg».proof.Proof.Gen.KernelIdeal.Launch
import proofs.«170040_j60687887892590_1_alg».proof.Proof.Gen.KernelIdeal.Points
import proofs.«170040_j60687887892590_1_alg».proof.Proof.Gen.KernelIdeal.Frame
import proofs.«170040_j60687887892590_1_alg».proof.Proof.Gen.ReferenceIdeal
import proofs.«170040_j60687887892590_1_alg».proof.Proof.Gen.Pre_finite_inputs
import proofs.«170040_j60687887892590_1_alg».proof.Proof.KValue
import proofs.«170040_j60687887892590_1_alg».proof.Proof.Bridge
import proofs.«170040_j60687887892590_1_alg».proof.Proof.RGraph
import proofs.«170040_j60687887892590_1_alg».proof.Proof.RCheb
import proofs.«170040_j60687887892590_1_alg».proof.Proof.RefRun
import Idealize.ShloMosaic.Adequacy
import Idealize.ShloMosaic.Init

set_option maxRecDepth 16384

noncomputable section

open Idealize.ShloMosaic Idealize.ShloMosaic.TcCoe Idealize.SL.Sem Idealize.ShloMosaic.ValueIdx

namespace Cert.Proof.Claims

/-- The reference's concatenated [128, 512, 640] array is the kernel's whole-array function of the same arguments:
    graph by graph and row by row both are the specification's result row, over the same gathered feature arrays. -/
theorem whole_eq (m : (ℓ : Loc Cert.KernelIdeal.nD Cert.KernelIdeal.τ Cert.KernelIdeal.sig) → Buf (Elt Ideal) ℓ) (c : Dev Cert.KernelIdeal.nD) :
    Cert.ReferenceIdeal.ReadP.val_main_v102 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
    = Cert.KernelIdeal.KValue.GW m c := by
  funext i
  obtain ⟨b, n, j, rfl⟩ : ∃ (b : Fin 128) (n : Fin 512) (j : Fin 640), i = ix3 b n j := ⟨i 0, i 1, i 2, eq_ix3 i⟩
  rw [Cert.ReferenceIdeal.RCheb.v102_apply _ _ _ _ _ _ _ _ (fun b n m' => Cert.ReferenceIdeal.RGraph.v54_apply _ _ b n m') b n j]
  unfold Cert.KernelIdeal.KValue.GW
  rw [Cert.Gcn.whole_apply, Cert.Proof.Bridge.V_v6, Cert.Proof.Bridge.V_v13, Cert.KernelIdeal.Gen.V_main_arg4,
    Cert.KernelIdeal.Gen.V_main_arg5, Cert.KernelIdeal.Gen.V_main_arg6, Cert.KernelIdeal.Gen.V_main_arg7]

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefRun.run (F := Ideal) m ρ)

/-- The ideal pass rewrote nothing. -/
theorem preserves : Cert.preserves_Kernel_KernelIdeal := trivial

/-- Both programs end with their result at the whole-array function viewed as [65536, 640]. -/
theorem algebraic : Cert.algebraic_KernelIdeal_ReferenceIdeal := by
  intro m ρ m' ρ' _ hagree
  refine ⟨fun c => shapeCast Cert.KernelIdeal.S65536x640 (Cert.KernelIdeal.KValue.GW m c)
    Cert.KernelIdeal.Facts₀.shapeCasts_S128x512x640_S65536x640, Cert.KernelIdeal.KValue.run m ρ, ?_⟩
  refine (θ_run Cert.ReferenceIdeal.defs _ _).mono (fun _ h c => ⟨(h c).1.trans ?_, (h c).2⟩)
    (Cert.ReferenceIdeal.RefRun.run (F := Ideal) m' ρ')
  obtain ⟨h0, h1, h2, h3, h4, h5, h6, h7⟩ := hagree c
  rw [h0, h1, h2, h3, h4, h5, h6, h7]
  unfold Cert.ReferenceIdeal.ReadP.val_main_v103
  rw [whole_eq m c]

end Cert.Proof.Claims

namespace Cert.Proof

theorem claim : Cert.Claim := ⟨Cert.Kernel.Gen.facts, Cert.KernelIdeal.Gen.facts, Cert.ReferenceIdeal.Gen.facts, Cert.Pre_finite_inputs.Gen.facts,
  Cert.Proof.Claims.frame_p, Cert.Proof.Claims.frame_pi, Cert.Proof.Claims.frame_ri, Cert.Proof.Claims.preserves, Cert.Proof.Claims.algebraic⟩

end Cert.Proof

end
